-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x500000 : Shape := ⟨2, ![2, 500000]⟩
abbrev S500000 : Shape := ⟨1, ![500000]⟩
abbrev S4x5x256x256 : Shape := ⟨4, ![4, 5, 256, 256]⟩
abbrev S4x256x256 : Shape := ⟨3, ![4, 256, 256]⟩
abbrev S4x256 : Shape := ⟨2, ![4, 256]⟩
abbrev S512x256 : Shape := ⟨2, ![512, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S4x5x256x256 : S_.BroadcastsInDim S4x5x256x256 (![] : Fin 0 → Fin S4x5x256x256.rank)
  reducesTo_S4x5x256x256_S_d0_1_2_3 : S4x5x256x256.ReducesTo [0, 1, 2, 3] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S512x256 .f32) (main_arg7 : FVec F S256 .f32) (main_arg8 : FVec F S256x16 .f32) (main_arg9 : FVec F S16 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x16 .f32 := Host.absf main_arg8
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg9 main_v33

def fn {F : FTy → Type} [FloatOps F] (main_arg0 : FVec F S20000x256 .f32) (main_arg1 : IVec S2x500000 32) (main_arg2 : IVec S500000 32) (main_arg3 : FVec F S4x5x256x256 .f32) (main_arg4 : FVec F S4x256x256 .f32) (main_arg5 : FVec F S4x256 .f32) (main_arg6 : FVec F S512x256 .f32) (main_arg7 : FVec F S256 .f32) (main_arg8 : FVec F S256x16 .f32) (main_arg9 : FVec F S16 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S4x5x256x256 .f32 := Host.absf main_arg3
  let main_cst_0 : FVec F S_ .f32 := constant S_ .f32 0x7F800000#32
  let main_v5 : FVec F S4x5x256x256 .f32 := broadcastInDim S4x5x256x256 ![] bcast_S_S4x5x256x256 main_cst_0
  let main_v6 : IVec S4x5x256x256 1 := cmpf .olt main_v4 main_v5
  let main_c_1 : IVec S_ 1 := constantI S_ 1 1#1
  let main_v7 : IVec S_ 1 := (fun x v => Host.reduce IntOp.andi x v reducesTo_S4x5x256x256_S_d0_1_2_3 h_S_) main_v6 main_c_1
  let main_v8 : IVec S_ 1 := andi main_v3 main_v7
  let main_v9 : FVec F S4x256x256 .f32 := Host.absf main_arg4
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg5
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg6 main_arg7 main_arg8 main_arg9 main_v13 main_v16
-- ==== Kernel.lean ====
abbrev S20000x256 : Shape := ⟨2, ![20000, 256]⟩
abbrev S2x500000 : Shape := ⟨2, ![2, 500000]⟩
abbrev S500000 : Shape := ⟨1, ![500000]⟩
abbrev S4x5x256x256 : Shape := ⟨4, ![4, 5, 256, 256]⟩
abbrev S4x256x256 : Shape := ⟨3, ![4, 256, 256]⟩
abbrev S4x256 : Shape := ⟨2, ![4, 256]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1x500000 : Shape := ⟨2, ![1, 500000]⟩
abbrev S1x1x256x256 : Shape := ⟨4, ![1, 1, 256, 256]⟩
abbrev S256x256 : Shape := ⟨2, ![256, 256]⟩
abbrev S2000x256 : Shape := ⟨2, ![2000, 256]⟩
abbrev S_ : Shape := ⟨0, ![]⟩
abbrev S500000x1 : Shape := ⟨2, ![500000, 1]⟩
abbrev S500000x256 : Shape := ⟨2, ![500000, 256]⟩
abbrev S20000 : Shape := ⟨1, ![20000]⟩
abbrev S20000x1 : Shape := ⟨2, ![20000, 1]⟩
abbrev S1x256x256 : Shape := ⟨3, ![1, 256, 256]⟩
abbrev S1x256 : Shape := ⟨2, ![1, 256]⟩
abbrev S20000x512 : Shape := ⟨2, ![20000, 512]⟩
abbrev S1x16 : Shape := ⟨2, ![1, 16]⟩
abbrev S20000x16 : Shape := ⟨2, ![20000, 16]⟩
abbrev S2000x512 : Shape := ⟨2, ![2000, 512]⟩
abbrev S2000x16 : Shape := ⟨2, ![2000, 16]⟩
abbrev S2000 : Shape := ⟨1, ![2000]⟩
abbrev S2000x1 : Shape := ⟨2, ![2000, 1]⟩

abbrev nBuf : Space → Nat
  | .hbm => 174
  | .vmem => 60
  | .smem => 0
  | _ => 0

abbrev hbmTy0_0 (i : Nat) : BufTy := match i % 128 with
  | 0 => ⟨S20000x256, .f32⟩
  | 1 => ⟨S2x500000, .i32⟩
  | 2 => ⟨S500000, .i32⟩
  | 3 => ⟨S4x5x256x256, .f32⟩
  | 4 => ⟨S4x256x256, .f32⟩
  | 5 => ⟨S4x256, .f32⟩
  | 6 => ⟨S512x256, .f32⟩
  | 7 => ⟨S256, .f32⟩
  | 8 => ⟨S256x16, .f32⟩
  | 9 => ⟨S16, .f32⟩
  | 10 => ⟨S1x500000, .i32⟩
  | 11 => ⟨S500000, .i32⟩
  | 12 => ⟨S1x500000, .i32⟩
  | 13 => ⟨S500000, .i32⟩
  | 14 => ⟨S1x1x256x256, .f32⟩
  | 15 => ⟨S256x256, .f32⟩
  | 16 => ⟨S20000x256, .f32⟩
  | 17 => ⟨S_, .i32⟩
  | 18 => ⟨S500000, .i32⟩
  | 19 => ⟨S500000, .i1⟩
  | 20 => ⟨S500000, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x256, .f32⟩
  | 30 => ⟨S500000x1, .f32⟩
  | 31 => ⟨S500000x256, .f32⟩
  | 32 => ⟨S500000x256, .f32⟩
  | 33 => ⟨S_, .f32⟩
  | 34 => ⟨S20000x256, .f32⟩
  | 35 => ⟨S500000x1, .i32⟩
  | 36 => ⟨S20000x256, .f32⟩
  | 37 => ⟨S_, .f32⟩
  | 38 => ⟨S20000, .f32⟩
  | 39 => ⟨S500000x1, .i32⟩
  | 40 => ⟨S20000, .f32⟩
  | 41 => ⟨S_, .f32⟩
  | 42 => ⟨S20000, .f32⟩
  | 43 => ⟨S20000, .f32⟩
  | 44 => ⟨S20000x1, .f32⟩
  | 45 => ⟨S20000x256, .f32⟩
  | 46 => ⟨S20000x256, .f32⟩
  | 47 => ⟨S1x256x256, .f32⟩
  | 48 => ⟨S256x256, .f32⟩
  | 49 => ⟨S1x256, .f32⟩
  | 50 => ⟨S256, .f32⟩
  | 51 => ⟨S1x256, .f32⟩
  | 52 => ⟨S20000x256, .f32⟩
  | 53 => ⟨S1x1x256x256, .f32⟩
  | 54 => ⟨S256x256, .f32⟩
  | 55 => ⟨S20000x256, .f32⟩
  | 56 => ⟨S_, .i32⟩
  | 57 => ⟨S500000, .i32⟩
  | 58 => ⟨S500000, .i1⟩
  | 59 => ⟨S500000, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x256, .f32⟩
  | 69 => ⟨S500000x1, .f32⟩
  | 70 => ⟨S500000x256, .f32⟩
  | 71 => ⟨S500000x256, .f32⟩
  | 72 => ⟨S_, .f32⟩
  | 73 => ⟨S20000x256, .f32⟩
  | 74 => ⟨S500000x1, .i32⟩
  | 75 => ⟨S20000x256, .f32⟩
  | 76 => ⟨S_, .f32⟩
  | 77 => ⟨S20000, .f32⟩
  | 78 => ⟨S500000x1, .i32⟩
  | 79 => ⟨S20000, .f32⟩
  | 80 => ⟨S_, .f32⟩
  | 81 => ⟨S20000, .f32⟩
  | 82 => ⟨S20000, .f32⟩
  | 83 => ⟨S20000x1, .f32⟩
  | 84 => ⟨S20000x256, .f32⟩
  | 85 => ⟨S20000x256, .f32⟩
  | 86 => ⟨S1x256x256, .f32⟩
  | 87 => ⟨S256x256, .f32⟩
  | 88 => ⟨S1x256, .f32⟩
  | 89 => ⟨S256, .f32⟩
  | 90 => ⟨S1x256, .f32⟩
  | 91 => ⟨S20000x256, .f32⟩
  | 92 => ⟨S1x1x256x256, .f32⟩
  | 93 => ⟨S256x256, .f32⟩
  | 94 => ⟨S20000x256, .f32⟩
  | 95 => ⟨S_, .i32⟩
  | 96 => ⟨S500000, .i32⟩
  | 97 => ⟨S500000, .i1⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x256, .f32⟩
  | 108 => ⟨S500000x1, .f32⟩
  | 109 => ⟨S500000x256, .f32⟩
  | 110 => ⟨S500000x256, .f32⟩
  | 111 => ⟨S_, .f32⟩
  | 112 => ⟨S20000x256, .f32⟩
  | 113 => ⟨S500000x1, .i32⟩
  | 114 => ⟨S20000x256, .f32⟩
  | 115 => ⟨S_, .f32⟩
  | 116 => ⟨S20000, .f32⟩
  | 117 => ⟨S500000x1, .i32⟩
  | 118 => ⟨S20000, .f32⟩
  | 119 => ⟨S_, .f32⟩
  | 120 => ⟨S20000, .f32⟩
  | 121 => ⟨S20000, .f32⟩
  | 122 => ⟨S20000x1, .f32⟩
  | 123 => ⟨S20000x256, .f32⟩
  | 124 => ⟨S20000x256, .f32⟩
  | 125 => ⟨S1x256x256, .f32⟩
  | 126 => ⟨S256x256, .f32⟩
  | 127 => ⟨S1x256, .f32⟩
  | _ => ⟨S20000x256, .f32⟩

abbrev hbmTy0_1 (i : Nat) : BufTy := match i % 128 with
  | 0 => ⟨S256, .f32⟩
  | 1 => ⟨S1x256, .f32⟩
  | 2 => ⟨S20000x256, .f32⟩
  | 3 => ⟨S1x1x256x256, .f32⟩
  | 4 => ⟨S256x256, .f32⟩
  | 5 => ⟨S20000x256, .f32⟩
  | 6 => ⟨S_, .i32⟩
  | 7 => ⟨S500000, .i32⟩
  | 8 => ⟨S500000, .i1⟩
  | 9 => ⟨S500000, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x256, .f32⟩
  | 19 => ⟨S500000x1, .f32⟩
  | 20 => ⟨S500000x256, .f32⟩
  | 21 => ⟨S500000x256, .f32⟩
  | 22 => ⟨S_, .f32⟩
  | 23 => ⟨S20000x256, .f32⟩
  | 24 => ⟨S500000x1, .i32⟩
  | 25 => ⟨S20000x256, .f32⟩
  | 26 => ⟨S_, .f32⟩
  | 27 => ⟨S20000, .f32⟩
  | 28 => ⟨S500000x1, .i32⟩
  | 29 => ⟨S20000, .f32⟩
  | 30 => ⟨S_, .f32⟩
  | 31 => ⟨S20000, .f32⟩
  | 32 => ⟨S20000, .f32⟩
  | 33 => ⟨S20000x1, .f32⟩
  | 34 => ⟨S20000x256, .f32⟩
  | 35 => ⟨S20000x256, .f32⟩
  | 36 => ⟨S1x256x256, .f32⟩
  | 37 => ⟨S256x256, .f32⟩
  | 38 => ⟨S1x256, .f32⟩
  | 39 => ⟨S256, .f32⟩
  | 40 => ⟨S1x256, .f32⟩
  | 41 => ⟨S20000x256, .f32⟩
  | 42 => ⟨S20000x512, .f32⟩
  | 43 => ⟨S1x256, .f32⟩
  | 44 => ⟨S1x16, .f32⟩
  | 45 => ⟨S20000x16, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S256x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S2000x512, .f32⟩
  | .local _ .vmem, ⟨53, _⟩ => ⟨S2000x512, .f32⟩
  | .local _ .vmem, ⟨54, _⟩ => ⟨S512x256, .f32⟩
  | .local _ .vmem, ⟨55, _⟩ => ⟨S1x256, .f32⟩
  | .local _ .vmem, ⟨56, _⟩ => ⟨S256x16, .f32⟩
  | .local _ .vmem, ⟨57, _⟩ => ⟨S1x16, .f32⟩
  | .local _ .vmem, ⟨58, _⟩ => ⟨S2000x16, .f32⟩
  | .local _ .vmem, ⟨59, _⟩ => ⟨S2000x16, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_10 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_13 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_15 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_16 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_17 : Ref sig .tc := ⟨.hbm, 138, rfl⟩
abbrev main_v109 : Ref sig .tc := ⟨.hbm, 139, rfl⟩
abbrev main_v110 : Ref sig .tc := ⟨.hbm, 140, rfl⟩
abbrev main_c_18 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_20 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_21 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg4_0 : Ref sig .tc := ⟨.vmem, 50, rfl⟩
abbrev cc7_stg4_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem3_0 : DmaSem sig := 49
abbrev cc7_sem4_0 : DmaSem sig := 50
abbrev cc7_sem4_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x16 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S4x5x256x256_S1x1x256x256_0_0_0_0 : S4x5x256x256.Slices ![0, 0, 0, 0] S1x1x256x256
  shapeCasts_S1x1x256x256_S256x256 : S1x1x256x256.ShapeCasts S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S4x5x256x256_S1x1x256x256_1_1_0_0 : S4x5x256x256.Slices ![1, 1, 0, 0] S1x1x256x256
  slices_S4x256x256_S1x256x256_1_0_0 : S4x256x256.Slices ![1, 0, 0] S1x256x256
  slices_S4x256_S1x256_1_0 : S4x256.Slices ![1, 0] S1x256
  slices_S4x5x256x256_S1x1x256x256_2_2_0_0 : S4x5x256x256.Slices ![2, 2, 0, 0] S1x1x256x256
  slices_S4x256x256_S1x256x256_2_0_0 : S4x256x256.Slices ![2, 0, 0] S1x256x256
  slices_S4x256_S1x256_2_0 : S4x256.Slices ![2, 0] S1x256
  slices_S4x5x256x256_S1x1x256x256_3_3_0_0 : S4x5x256x256.Slices ![3, 3, 0, 0] S1x1x256x256
  slices_S4x256x256_S1x256x256_3_0_0 : S4x256x256.Slices ![3, 0, 0] S1x256x256
  slices_S4x256_S1x256_3_0 : S4x256.Slices ![3, 0] S1x256
  concatenates_S20000x256_S20000x256_S20000x512_d1 : Shape.Concatenates [S20000x256, S20000x256] S20000x512 1
  shapeCasts_S16_S1x16 : S16.ShapeCasts S1x16
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  dot_S2000x256_S256x256_S2000x256_1_0_0_1_n_n_wf : DotDims.WF S2000x256 S256x256 S2000x256 [1] [0] [0] [1] [] []
  gather_S20000x256_S500000x1_S500000x256_1_0_n_n_0_1_1256_wf : GatherDims.WF S20000x256 S500000x1 S500000x256 [1] [0] [] [0] [] 1 ![1, 256]
  scatter_S20000x256_S500000x1_S500000x256_1_0_0_1_wf : ScatterDims.WF S20000x256 S500000x1 S500000x256 [1] [0] [0] 1
  scatter_S20000_S500000x1_S500000_n_0_0_1_wf : ScatterDims.WF S20000 S500000x1 S500000 [] [0] [0] 1
  dot_S2000x512_S512x256_S2000x256_1_0_0_1_n_n_wf : DotDims.WF S2000x512 S512x256 S2000x256 [1] [0] [0] [1] [] []
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S20000x256.size a
  hwx3_4 : ∀ i : grid3.Coords, EltTy.bits .f32 = 32 ∨ (Rect.block (s := S20000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .f32 = 32 ∨ (Rect.block (s := S20000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S20000x256.size a
  hwx5_4 : ∀ i : grid5.Coords, EltTy.bits .f32 = 32 ∨ (Rect.block (s := S20000x256) S2000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S20000x256.size a
  hwx6_2 : ∀ i : grid6.Coords, EltTy.bits .f32 = 32 ∨ (Rect.block (s := S20000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S20000x256.size a
  hwx7_1 : ∀ i : grid7.Coords, EltTy.bits .f32 = 32 ∨ (Rect.block (s := S20000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S20000x256.size a
  hwx7_4 : ∀ i : grid7.Coords, EltTy.bits .f32 = 32 ∨ (Rect.block (s := S20000x256) S2000x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x512.size a ≤ S20000x512.size a
  hwx8_0 : ∀ i : grid8.Coords, EltTy.bits .f32 = 32 ∨ (Rect.block (s := S20000x512) S2000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x16.size a ≤ S256x16.size a
  hwx8_3 : ∀ i : grid8.Coords, EltTy.bits .f32 = 32 ∨ (Rect.block (s := S256x16) S256x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x16.size a ≤ S1x16.size a
  hwx8_4 : ∀ i : grid8.Coords, EltTy.bits .f32 = 32 ∨ (Rect.block (s := S1x16) S1x16.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x16.size a ≤ S20000x16.size a
  hwx8_5 : ∀ i : grid8.Coords, EltTy.bits .f32 = 32 ∨ (Rect.block (s := S20000x16) S2000x16.size (cc8_transform_5 i) (hinb8_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v102) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v102) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v131) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S2000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v136) S2000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg8) S256x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v138) S1x16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v139) S2000x16.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S20000x256 : Shape := ⟨2, ![20000, 256]⟩
abbrev S2x500000 : Shape := ⟨2, ![2, 500000]⟩
abbrev S500000 : Shape := ⟨1, ![500000]⟩
abbrev S4x5x256x256 : Shape := ⟨4, ![4, 5, 256, 256]⟩
abbrev S4x256x256 : Shape := ⟨3, ![4, 256, 256]⟩
abbrev S4x256 : Shape := ⟨2, ![4, 256]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1x500000 : Shape := ⟨2, ![1, 500000]⟩
abbrev S1x5x256x256 : Shape := ⟨4, ![1, 5, 256, 256]⟩
abbrev S5x256x256 : Shape := ⟨3, ![5, 256, 256]⟩
abbrev S1x256x256 : Shape := ⟨3, ![1, 256, 256]⟩
abbrev S256x256 : Shape := ⟨2, ![256, 256]⟩
abbrev S1x256 : Shape := ⟨2, ![1, 256]⟩
abbrev S_ : Shape := ⟨0, ![]⟩
abbrev S500000x1 : Shape := ⟨2, ![500000, 1]⟩
abbrev S500000x256 : Shape := ⟨2, ![500000, 256]⟩
abbrev S20000 : Shape := ⟨1, ![20000]⟩
abbrev S20000x1 : Shape := ⟨2, ![20000, 1]⟩
abbrev S20000x512 : Shape := ⟨2, ![20000, 512]⟩
abbrev S20000x16 : Shape := ⟨2, ![20000, 16]⟩
abbrev S1x16 : Shape := ⟨2, ![1, 16]⟩

abbrev nBuf : Space → Nat
  | .hbm => 229
  | .vmem => 0
  | .smem => 0
  | _ => 0

abbrev hbmTy0_0 (i : Nat) : BufTy := match i % 128 with
  | 0 => ⟨S20000x256, .f32⟩
  | 1 => ⟨S2x500000, .i32⟩
  | 2 => ⟨S500000, .i32⟩
  | 3 => ⟨S4x5x256x256, .f32⟩
  | 4 => ⟨S4x256x256, .f32⟩
  | 5 => ⟨S4x256, .f32⟩
  | 6 => ⟨S512x256, .f32⟩
  | 7 => ⟨S256, .f32⟩
  | 8 => ⟨S256x16, .f32⟩
  | 9 => ⟨S16, .f32⟩
  | 10 => ⟨S1x500000, .i32⟩
  | 11 => ⟨S500000, .i32⟩
  | 12 => ⟨S1x500000, .i32⟩
  | 13 => ⟨S500000, .i32⟩
  | 14 => ⟨S1x5x256x256, .f32⟩
  | 15 => ⟨S5x256x256, .f32⟩
  | 16 => ⟨S1x256x256, .f32⟩
  | 17 => ⟨S256x256, .f32⟩
  | 18 => ⟨S1x256, .f32⟩
  | 19 => ⟨S256, .f32⟩
  | 20 => ⟨S_, .i32⟩
  | 21 => ⟨S500000, .i32⟩
  | 22 => ⟨S500000, .i1⟩
  | 23 => ⟨S500000, .f32⟩
  | 24 => ⟨S1x256x256, .f32⟩
  | 25 => ⟨S256x256, .f32⟩
  | 26 => ⟨S20000x256, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x256, .f32⟩
  | 36 => ⟨S500000x1, .f32⟩
  | 37 => ⟨S500000x256, .f32⟩
  | 38 => ⟨S500000x256, .f32⟩
  | 39 => ⟨S_, .f32⟩
  | 40 => ⟨S20000x256, .f32⟩
  | 41 => ⟨S500000x1, .i32⟩
  | 42 => ⟨S20000x256, .f32⟩
  | 43 => ⟨S_, .f32⟩
  | 44 => ⟨S20000, .f32⟩
  | 45 => ⟨S500000x1, .i32⟩
  | 46 => ⟨S20000, .f32⟩
  | 47 => ⟨S_, .f32⟩
  | 48 => ⟨S20000, .f32⟩
  | 49 => ⟨S20000, .f32⟩
  | 50 => ⟨S20000x1, .f32⟩
  | 51 => ⟨S20000x256, .f32⟩
  | 52 => ⟨S20000x256, .f32⟩
  | 53 => ⟨S20000x256, .f32⟩
  | 54 => ⟨S20000x256, .f32⟩
  | 55 => ⟨S1x256, .f32⟩
  | 56 => ⟨S20000x256, .f32⟩
  | 57 => ⟨S20000x256, .f32⟩
  | 58 => ⟨S_, .f32⟩
  | 59 => ⟨S20000x256, .f32⟩
  | 60 => ⟨S20000x256, .f32⟩
  | 61 => ⟨S1x5x256x256, .f32⟩
  | 62 => ⟨S5x256x256, .f32⟩
  | 63 => ⟨S1x256x256, .f32⟩
  | 64 => ⟨S256x256, .f32⟩
  | 65 => ⟨S1x256, .f32⟩
  | 66 => ⟨S256, .f32⟩
  | 67 => ⟨S_, .i32⟩
  | 68 => ⟨S500000, .i32⟩
  | 69 => ⟨S500000, .i1⟩
  | 70 => ⟨S500000, .f32⟩
  | 71 => ⟨S1x256x256, .f32⟩
  | 72 => ⟨S256x256, .f32⟩
  | 73 => ⟨S20000x256, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x256, .f32⟩
  | 83 => ⟨S500000x1, .f32⟩
  | 84 => ⟨S500000x256, .f32⟩
  | 85 => ⟨S500000x256, .f32⟩
  | 86 => ⟨S_, .f32⟩
  | 87 => ⟨S20000x256, .f32⟩
  | 88 => ⟨S500000x1, .i32⟩
  | 89 => ⟨S20000x256, .f32⟩
  | 90 => ⟨S_, .f32⟩
  | 91 => ⟨S20000, .f32⟩
  | 92 => ⟨S500000x1, .i32⟩
  | 93 => ⟨S20000, .f32⟩
  | 94 => ⟨S_, .f32⟩
  | 95 => ⟨S20000, .f32⟩
  | 96 => ⟨S20000, .f32⟩
  | 97 => ⟨S20000x1, .f32⟩
  | 98 => ⟨S20000x256, .f32⟩
  | 99 => ⟨S20000x256, .f32⟩
  | 100 => ⟨S20000x256, .f32⟩
  | 101 => ⟨S20000x256, .f32⟩
  | 102 => ⟨S1x256, .f32⟩
  | 103 => ⟨S20000x256, .f32⟩
  | 104 => ⟨S20000x256, .f32⟩
  | 105 => ⟨S_, .f32⟩
  | 106 => ⟨S20000x256, .f32⟩
  | 107 => ⟨S20000x256, .f32⟩
  | 108 => ⟨S1x5x256x256, .f32⟩
  | 109 => ⟨S5x256x256, .f32⟩
  | 110 => ⟨S1x256x256, .f32⟩
  | 111 => ⟨S256x256, .f32⟩
  | 112 => ⟨S1x256, .f32⟩
  | 113 => ⟨S256, .f32⟩
  | 114 => ⟨S_, .i32⟩
  | 115 => ⟨S500000, .i32⟩
  | 116 => ⟨S500000, .i1⟩
  | 117 => ⟨S500000, .f32⟩
  | 118 => ⟨S1x256x256, .f32⟩
  | 119 => ⟨S256x256, .f32⟩
  | 120 => ⟨S20000x256, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S20000x256, .f32⟩

abbrev hbmTy0_1 (i : Nat) : BufTy := match i % 128 with
  | 0 => ⟨S500000x1, .i32⟩
  | 1 => ⟨S500000x256, .f32⟩
  | 2 => ⟨S500000x1, .f32⟩
  | 3 => ⟨S500000x256, .f32⟩
  | 4 => ⟨S500000x256, .f32⟩
  | 5 => ⟨S_, .f32⟩
  | 6 => ⟨S20000x256, .f32⟩
  | 7 => ⟨S500000x1, .i32⟩
  | 8 => ⟨S20000x256, .f32⟩
  | 9 => ⟨S_, .f32⟩
  | 10 => ⟨S20000, .f32⟩
  | 11 => ⟨S500000x1, .i32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x256, .f32⟩
  | 18 => ⟨S20000x256, .f32⟩
  | 19 => ⟨S20000x256, .f32⟩
  | 20 => ⟨S20000x256, .f32⟩
  | 21 => ⟨S1x256, .f32⟩
  | 22 => ⟨S20000x256, .f32⟩
  | 23 => ⟨S20000x256, .f32⟩
  | 24 => ⟨S_, .f32⟩
  | 25 => ⟨S20000x256, .f32⟩
  | 26 => ⟨S20000x256, .f32⟩
  | 27 => ⟨S1x5x256x256, .f32⟩
  | 28 => ⟨S5x256x256, .f32⟩
  | 29 => ⟨S1x256x256, .f32⟩
  | 30 => ⟨S256x256, .f32⟩
  | 31 => ⟨S1x256, .f32⟩
  | 32 => ⟨S256, .f32⟩
  | 33 => ⟨S_, .i32⟩
  | 34 => ⟨S500000, .i32⟩
  | 35 => ⟨S500000, .i1⟩
  | 36 => ⟨S500000, .f32⟩
  | 37 => ⟨S1x256x256, .f32⟩
  | 38 => ⟨S256x256, .f32⟩
  | 39 => ⟨S20000x256, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x256, .f32⟩
  | 49 => ⟨S500000x1, .f32⟩
  | 50 => ⟨S500000x256, .f32⟩
  | 51 => ⟨S500000x256, .f32⟩
  | 52 => ⟨S_, .f32⟩
  | 53 => ⟨S20000x256, .f32⟩
  | 54 => ⟨S500000x1, .i32⟩
  | 55 => ⟨S20000x256, .f32⟩
  | 56 => ⟨S_, .f32⟩
  | 57 => ⟨S20000, .f32⟩
  | 58 => ⟨S500000x1, .i32⟩
  | 59 => ⟨S20000, .f32⟩
  | 60 => ⟨S_, .f32⟩
  | 61 => ⟨S20000, .f32⟩
  | 62 => ⟨S20000, .f32⟩
  | 63 => ⟨S20000x1, .f32⟩
  | 64 => ⟨S20000x256, .f32⟩
  | 65 => ⟨S20000x256, .f32⟩
  | 66 => ⟨S20000x256, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S20000x512, .f32⟩
  | 75 => ⟨S20000x256, .f32⟩
  | 76 => ⟨S1x256, .f32⟩
  | 77 => ⟨S20000x256, .f32⟩
  | 78 => ⟨S20000x256, .f32⟩
  | 79 => ⟨S_, .f32⟩
  | 80 => ⟨S20000x256, .f32⟩
  | 81 => ⟨S20000x256, .f32⟩
  | 82 => ⟨S20000x16, .f32⟩
  | 83 => ⟨S1x16, .f32⟩
  | 84 => ⟨S20000x16, .f32⟩
  | 85 => ⟨S20000x16, .f32⟩
  | 86 => ⟨S_, .f32⟩
  | 87 => ⟨S20000, .f32⟩
  | 88 => ⟨S_, .f32⟩
  | 89 => ⟨S20000, .f32⟩
  | 90 => ⟨S20000, .f32⟩
  | 91 => ⟨S20000x1, .f32⟩
  | 92 => ⟨S20000x16, .f32⟩
  | 93 => ⟨S20000x16, .f32⟩
  | 94 => ⟨S20000x16, .f32⟩
  | 95 => ⟨S_, .f32⟩
  | 96 => ⟨S20000, .f32⟩
  | 97 => ⟨S20000x1, .f32⟩
  | 98 => ⟨S20000x1, .f32⟩
  | 99 => ⟨S20000x16, .f32⟩
  | 100 => ⟨S20000x16, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_cst : Ref sig .tc := ⟨.hbm, 58, rfl⟩
abbrev main_call0_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_5 : Ref sig .tc := ⟨.hbm, 74, rfl⟩
abbrev main_v55 : Ref sig .tc := ⟨.hbm, 75, rfl⟩
abbrev main_v56 : Ref sig .tc := ⟨.hbm, 76, rfl⟩
abbrev main_c_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call1_cst : Ref sig .tc := ⟨.hbm, 105, rfl⟩
abbrev main_call1_v0 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_10 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_11 : Ref sig .tc := ⟨.hbm, 121, rfl⟩
abbrev main_v94 : Ref sig .tc := ⟨.hbm, 122, rfl⟩
abbrev main_v95 : Ref sig .tc := ⟨.hbm, 123, rfl⟩
abbrev main_c_12 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_15 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_call2_cst : Ref sig .tc := ⟨.hbm, 152, rfl⟩
abbrev main_call2_v0 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_16 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_c_17 : Ref sig .tc := ⟨.hbm, 168, rfl⟩
abbrev main_v133 : Ref sig .tc := ⟨.hbm, 169, rfl⟩
abbrev main_v134 : Ref sig .tc := ⟨.hbm, 170, rfl⟩
abbrev main_c_18 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_19 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_20 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_21 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_call3_cst : Ref sig .tc := ⟨.hbm, 199, rfl⟩
abbrev main_call3_v0 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_call4_cst : Ref sig .tc := ⟨.hbm, 207, rfl⟩
abbrev main_call4_v0 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_call5_cst : Ref sig .tc := ⟨.hbm, 214, rfl⟩
abbrev main_call5_v0 : Ref sig .tc := ⟨.hbm, 215, rfl⟩
abbrev main_call5_cst_0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_call5_v5 : Ref sig .tc := ⟨.hbm, 221, rfl⟩
abbrev main_call5_v6 : Ref sig .tc := ⟨.hbm, 222, rfl⟩
abbrev main_call5_cst_1 : Ref sig .tc := ⟨.hbm, 223, rfl⟩
abbrev main_call5_v7 : Ref sig .tc := ⟨.hbm, 224, rfl⟩
abbrev main_call5_v8 : Ref sig .tc := ⟨.hbm, 225, rfl⟩
abbrev main_call5_v9 : Ref sig .tc := ⟨.hbm, 226, rfl⟩
abbrev main_call5_v10 : Ref sig .tc := ⟨.hbm, 227, rfl⟩
abbrev main_v170 : Ref sig .tc := ⟨.hbm, 228, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S4x5x256x256_S1x5x256x256_0_0_0_0 : S4x5x256x256.Slices ![0, 0, 0, 0] S1x5x256x256
  shapeCasts_S1x5x256x256_S5x256x256 : S1x5x256x256.ShapeCasts S5x256x256
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S_S500000 : S_.BroadcastsInDim S500000 (![] : Fin 0 → Fin S500000.rank)
  slices_S5x256x256_S1x256x256_0_0_0 : S5x256x256.Slices ![0, 0, 0] S1x256x256
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S4x5x256x256_S1x5x256x256_1_0_0_0 : S4x5x256x256.Slices ![1, 0, 0, 0] S1x5x256x256
  slices_S4x256x256_S1x256x256_1_0_0 : S4x256x256.Slices ![1, 0, 0] S1x256x256
  slices_S4x256_S1x256_1_0 : S4x256.Slices ![1, 0] S1x256
  slices_S5x256x256_S1x256x256_1_0_0 : S5x256x256.Slices ![1, 0, 0] S1x256x256
  slices_S4x5x256x256_S1x5x256x256_2_0_0_0 : S4x5x256x256.Slices ![2, 0, 0, 0] S1x5x256x256
  slices_S4x256x256_S1x256x256_2_0_0 : S4x256x256.Slices ![2, 0, 0] S1x256x256
  slices_S4x256_S1x256_2_0 : S4x256.Slices ![2, 0] S1x256
  slices_S5x256x256_S1x256x256_2_0_0 : S5x256x256.Slices ![2, 0, 0] S1x256x256
  slices_S4x5x256x256_S1x5x256x256_3_0_0_0 : S4x5x256x256.Slices ![3, 0, 0, 0] S1x5x256x256
  slices_S4x256x256_S1x256x256_3_0_0 : S4x256x256.Slices ![3, 0, 0] S1x256x256
  slices_S4x256_S1x256_3_0 : S4x256.Slices ![3, 0] S1x256
  slices_S5x256x256_S1x256x256_3_0_0 : S5x256x256.Slices ![3, 0, 0] S1x256x256
  concatenates_S20000x256_S20000x256_S20000x512_d1 : Shape.Concatenates [S20000x256, S20000x256] S20000x512 1
  bcast_S16_S1x16_1 : S16.BroadcastsInDim S1x16 (![1] : Fin 1 → Fin S1x16.rank)
  bcast_S1x16_S20000x16_0_1 : S1x16.BroadcastsInDim S20000x16 (![0, 1] : Fin 2 → Fin S20000x16.rank)
  reducesTo_S20000x16_S20000_d1 : S20000x16.ReducesTo [1] S20000
  h_S_ : 0 < S_.numel
  bcast_S20000x1_S20000x16_0_1 : S20000x1.BroadcastsInDim S20000x16 (![0, 1] : Fin 2 → Fin S20000x16.rank)
  dot_S20000x256_S256x256_S20000x256_1_0_0_1_n_n_wf : DotDims.WF S20000x256 S256x256 S20000x256 [1] [0] [0] [1] [] []
  gather_S20000x256_S500000x1_S500000x256_1_0_n_n_0_1_1256_wf : GatherDims.WF S20000x256 S500000x1 S500000x256 [1] [0] [] [0] [] 1 ![1, 256]
  scatter_S20000x256_S500000x1_S500000x256_1_0_0_1_wf : ScatterDims.WF S20000x256 S500000x1 S500000x256 [1] [0] [0] 1
  scatter_S20000_S500000x1_S500000_n_0_0_1_wf : ScatterDims.WF S20000 S500000x1 S500000 [] [0] [0] 1
  dot_S20000x512_S512x256_S20000x256_1_0_0_1_n_n_wf : DotDims.WF S20000x512 S512x256 S20000x256 [1] [0] [0] [1] [] []
  dot_S20000x256_S256x16_S20000x16_1_0_0_1_n_n_wf : DotDims.WF S20000x256 S256x16 S20000x16 [1] [0] [0] [1] [] []

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x16_S20000x16_1_0_0_1_n_n : DotDims S20000x256 S256x16 S20000x16 where
  lhsContracting := [1]
  rhsContracting := [0]
  lhsNonContracting := [0]
  rhsNonContracting := [1]
  lhsBatch := []
  rhsBatch := []
  wf := dot_S20000x256_S256x16_S20000x16_1_0_0_1_n_n_wf

class Facts : Prop extends Facts₀ where

variable [Facts]
-- ==== Proof.KRun.lean ====
/- The run of @main read at its result buffer, and buffers that segments of the run leave as they were.

   `run_value`: every weakly fair execution of @main on the TensorCores terminates, and in every final state
   the result buffer holds the last boundary's contents `W18` while the ten argument arrays are as launched.
   The remaining lemmas say that a buffer which no operation of a stretch writes, and which a region reads or
   bypasses, holds at the later boundary what it held at the earlier one. -/
import proofs.«125463_j19267223290692_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, read at the result buffer -/

set_option backward.isDefEq.respectTransparency.types false in
/-- Every weakly fair execution of @main terminates without fault; every final state has the result buffer at the
    last boundary's contents and the argument arrays as launched. -/
theorem run_value : θ_run defs (onTc (τ := τ) (main (F := F))) ⟨m, fun _ => 0, ρ⟩ (fun r => ∀ c : Dev nD,
      r.2.mem ((c.tc : Thread nD τ).loc main_v139) = W18 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v139 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

/-! ## What a host stretch leaves as it was

Each operation of a stretch writes one buffer. `written k` lists the references the operations of stretch `k` write;
a reference outside the list holds after the stretch what it held before (`StableHlo.after_of_writes_sub`). -/

/-- The references the operations of `hostOps0` write, in order. -/
abbrev written0 : List (Ref sig .tc) :=
  [main_v0, main_v1, main_v2, main_v3, main_v4, main_v5]
/-- Every operation of `hostOps0` writes within `written0`. -/
theorem hostOps0_writes : (hostOps0 : List (HloOp τ sig (Elt F))).Forall fun op =>
    op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps0` does not write holds at boundary 1 what it held at boundary 0. -/
theorem W1_keep (c : Dev nD) (r : Ref sig .tc) (h : r ∉ written0) :
    W1 m ρ c (Proc.devRef .tc r) = W0 m ρ c (Proc.devRef .tc r) :=
  StableHlo.after_of_writes_sub hostOps0 _ hostOps0_writes h

/-- The references the operations of `hostOps1` write, in order. -/
abbrev written1 : List (Ref sig .tc) :=
  [main_c, main_v7, main_v8, main_v9, main_c_0, main_v10, main_v11, main_c_1, main_v12, main_v13, main_v14, main_v15, main_v16, main_v17, main_v18, main_v19, main_cst, main_v20, main_v21, main_v22, main_cst_2, main_v23, main_v24, main_v25, main_cst_3, main_v26, main_v27, main_v28, main_v29, main_v30, main_v31, main_v32, main_v33, main_v34, main_v35]
/-- Every operation of `hostOps1` writes within `written1`. -/
theorem hostOps1_writes : (hostOps1 : List (HloOp τ sig (Elt F))).Forall fun op =>
    op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps1` does not write holds at boundary 3 what it held at boundary 2. -/
theorem W3_keep (c : Dev nD) (r : Ref sig .tc) (h : r ∉ written1) :
    W3 m ρ c (Proc.devRef .tc r) = W2 m ρ c (Proc.devRef .tc r) :=
  StableHlo.after_of_writes_sub hostOps1 _ hostOps1_writes h

/-- The references the operations of `hostOps2` write, in order. -/
abbrev written2 : List (Ref sig .tc) :=
  [main_v37, main_v38]
/-- Every operation of `hostOps2` writes within `written2`. -/
theorem hostOps2_writes : (hostOps2 : List (HloOp τ sig (Elt F))).Forall fun op =>
    op.writes ⊆ (written2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps2` does not write holds at boundary 5 what it held at boundary 4. -/
theorem W5_keep (c : Dev nD) (r : Ref sig .tc) (h : r ∉ written2) :
    W5 m ρ c (Proc.devRef .tc r) = W4 m ρ c (Proc.devRef .tc r) :=
  StableHlo.after_of_writes_sub hostOps2 _ hostOps2_writes h

/-- The references the operations of `hostOps3` write, in order. -/
abbrev written3 : List (Ref sig .tc) :=
  [main_c_4, main_v40, main_v41, main_v42, main_c_5, main_v43, main_v44, main_c_6, main_v45, main_v46, main_v47, main_v48, main_v49, main_v50, main_v51, main_v52, main_cst_7, main_v53, main_v54, main_v55, main_cst_8, main_v56, main_v57, main_v58, main_cst_9, main_v59, main_v60, main_v61, main_v62, main_v63, main_v64, main_v65, main_v66, main_v67, main_v68]
/-- Every operation of `hostOps3` writes within `written3`. -/
theorem hostOps3_writes : (hostOps3 : List (HloOp τ sig (Elt F))).Forall fun op =>
    op.writes ⊆ (written3.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps3` does not write holds at boundary 7 what it held at boundary 6. -/
theorem W7_keep (c : Dev nD) (r : Ref sig .tc) (h : r ∉ written3) :
    W7 m ρ c (Proc.devRef .tc r) = W6 m ρ c (Proc.devRef .tc r) :=
  StableHlo.after_of_writes_sub hostOps3 _ hostOps3_writes h

/-- The references the operations of `hostOps4` write, in order. -/
abbrev written4 : List (Ref sig .tc) :=
  [main_v70, main_v71]
/-- Every operation of `hostOps4` writes within `written4`. -/
theorem hostOps4_writes : (hostOps4 : List (HloOp τ sig (Elt F))).Forall fun op =>
    op.writes ⊆ (written4.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps4` does not write holds at boundary 9 what it held at boundary 8. -/
theorem W9_keep (c : Dev nD) (r : Ref sig .tc) (h : r ∉ written4) :
    W9 m ρ c (Proc.devRef .tc r) = W8 m ρ c (Proc.devRef .tc r) :=
  StableHlo.after_of_writes_sub hostOps4 _ hostOps4_writes h

/-- The references the operations of `hostOps5` write, in order. -/
abbrev written5 : List (Ref sig .tc) :=
  [main_c_10, main_v73, main_v74, main_v75, main_c_11, main_v76, main_v77, main_c_12, main_v78, main_v79, main_v80, main_v81, main_v82, main_v83, main_v84, main_v85, main_cst_13, main_v86, main_v87, main_v88, main_cst_14, main_v89, main_v90, main_v91, main_cst_15, main_v92, main_v93, main_v94, main_v95, main_v96, main_v97, main_v98, main_v99, main_v100, main_v101]
/-- Every operation of `hostOps5` writes within `written5`. -/
theorem hostOps5_writes : (hostOps5 : List (HloOp τ sig (Elt F))).Forall fun op =>
    op.writes ⊆ (written5.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps5` does not write holds at boundary 11 what it held at boundary 10. -/
theorem W11_keep (c : Dev nD) (r : Ref sig .tc) (h : r ∉ written5) :
    W11 m ρ c (Proc.devRef .tc r) = W10 m ρ c (Proc.devRef .tc r) :=
  StableHlo.after_of_writes_sub hostOps5 _ hostOps5_writes h

/-- The references the operations of `hostOps6` write, in order. -/
abbrev written6 : List (Ref sig .tc) :=
  [main_v103, main_v104]
/-- Every operation of `hostOps6` writes within `written6`. -/
theorem hostOps6_writes : (hostOps6 : List (HloOp τ sig (Elt F))).Forall fun op =>
    op.writes ⊆ (written6.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps6` does not write holds at boundary 13 what it held at boundary 12. -/
theorem W13_keep (c : Dev nD) (r : Ref sig .tc) (h : r ∉ written6) :
    W13 m ρ c (Proc.devRef .tc r) = W12 m ρ c (Proc.devRef .tc r) :=
  StableHlo.after_of_writes_sub hostOps6 _ hostOps6_writes h

/-- The references the operations of `hostOps7` write, in order. -/
abbrev written7 : List (Ref sig .tc) :=
  [main_c_16, main_v106, main_v107, main_v108, main_c_17, main_v109, main_v110, main_c_18, main_v111, main_v112, main_v113, main_v114, main_v115, main_v116, main_v117, main_v118, main_cst_19, main_v119, main_v120, main_v121, main_cst_20, main_v122, main_v123, main_v124, main_cst_21, main_v125, main_v126, main_v127, main_v128, main_v129, main_v130, main_v131, main_v132, main_v133, main_v134]
/-- Every operation of `hostOps7` writes within `written7`. -/
theorem hostOps7_writes : (hostOps7 : List (HloOp τ sig (Elt F))).Forall fun op =>
    op.writes ⊆ (written7.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps7` does not write holds at boundary 15 what it held at boundary 14. -/
theorem W15_keep (c : Dev nD) (r : Ref sig .tc) (h : r ∉ written7) :
    W15 m ρ c (Proc.devRef .tc r) = W14 m ρ c (Proc.devRef .tc r) :=
  StableHlo.after_of_writes_sub hostOps7 _ hostOps7_writes h

/-- The references the operations of `hostOps8` write, in order. -/
abbrev written8 : List (Ref sig .tc) :=
  [main_v136, main_v137, main_v138]
/-- Every operation of `hostOps8` writes within `written8`. -/
theorem hostOps8_writes : (hostOps8 : List (HloOp τ sig (Elt F))).Forall fun op =>
    op.writes ⊆ (written8.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, Finset.singleton_subset_iff, List.mem_toFinset]
    exact List.mem_map_of_mem (by decide)
/-- A reference `hostOps8` does not write holds at boundary 17 what it held at boundary 16. -/
theorem W17_keep (c : Dev nD) (r : Ref sig .tc) (h : r ∉ written8) :
    W17 m ρ c (Proc.devRef .tc r) = W16 m ρ c (Proc.devRef .tc r) :=
  StableHlo.after_of_writes_sub hostOps8 _ hostOps8_writes h

/-! ## What a region leaves as it was

A region changes its output array only. A buffer that is none of its arrays is bypassed (`W…_of_ne` of the generated
frame module); an input array holds at the exit what the region's first point found in it (`Dat.arrAt_in`), which
is the entry contents (`A_eq…`). -/

/-- Region 0 reads `main_arg0` through input window 0: boundary 2 has it as boundary 1 did. -/
theorem W2_read_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-- Region 1 reads `main_arg0` through input window 0: boundary 4 has it as boundary 3 did. -/
theorem W4_read_main_arg0 (c : Dev nD) : W4 m ρ c (Proc.devRef .tc main_arg0) = W3 m ρ c (Proc.devRef .tc main_arg0) :=
  (W4_arr m ρ c 0).trans (((dat1 (V3 m ρ) c).arrAt_in 0 rfl _).trans (A_eq1 (V3 m ρ) c 0))

/-- Region 4 reads `main_arg0` through input window 0: boundary 10 has it as boundary 9 did. -/
theorem W10_read_main_arg0 (c : Dev nD) : W10 m ρ c (Proc.devRef .tc main_arg0) = W9 m ρ c (Proc.devRef .tc main_arg0) :=
  (W10_arr m ρ c 0).trans (((dat4 (V9 m ρ) c).arrAt_in 0 rfl _).trans (A_eq4 (V9 m ρ) c 0))

/-- Region 2 reads `main_v36` through input window 0: boundary 6 has it as boundary 5 did. -/
theorem W6_read_main_v36 (c : Dev nD) : W6 m ρ c (Proc.devRef .tc main_v36) = W5 m ρ c (Proc.devRef .tc main_v36) :=
  (W6_arr m ρ c 0).trans (((dat2 (V5 m ρ) c).arrAt_in 0 rfl _).trans (A_eq2 (V5 m ρ) c 0))

/-- Region 6 reads `main_v102` through input window 0: boundary 14 has it as boundary 13 did. -/
theorem W14_read_main_v102 (c : Dev nD) : W14 m ρ c (Proc.devRef .tc main_v102) = W13 m ρ c (Proc.devRef .tc main_v102) :=
  (W14_arr m ρ c 0).trans (((dat6 (V13 m ρ) c).arrAt_in 0 rfl _).trans (A_eq6 (V13 m ρ) c 0))

/-! ## The argument arrays at the boundaries where they are read: as launched -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := W1_keep m ρ c main_arg0 (by decide)
    _ = m ((c : Thread nD τ).loc main_arg0) := rfl
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_keep m ρ c main_arg0 (by decide)
    _ = W1 m ρ c (Proc.devRef .tc main_arg0) := W2_read_main_arg0 m ρ c
    _ = m ((c : Thread nD τ).loc main_arg0) := W1_main_arg0 m ρ c
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_read_main_arg0 m ρ c
    _ = m ((c : Thread nD τ).loc main_arg0) := W3_main_arg0 m ρ c
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_keep m ρ c main_arg0 (by decide)
    _ = W9 m ρ c (Proc.devRef .tc main_arg0) := W10_read_main_arg0 m ρ c
    _ = m ((c : Thread nD τ).loc main_arg0) := W9_main_arg0 m ρ c

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = m ((c : Thread nD τ).loc main_arg2) := W2_main_arg2 m ρ c
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = m ((c : Thread nD τ).loc main_arg2) := W6_main_arg2 m ρ c
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = m ((c : Thread nD τ).loc main_arg2) := W10_main_arg2 m ρ c

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = m ((c : Thread nD τ).loc main_arg3) := W4_main_arg3 m ρ c
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_keep m ρ c main_arg3 (by decide)
    _ = m ((c : Thread nD τ).loc main_arg3) := W8_main_arg3 m ρ c

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = m ((c : Thread nD τ).loc main_arg4) := W2_main_arg4 m ρ c
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = m ((c : Thread nD τ).loc main_arg4) := W6_main_arg4 m ρ c
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = m ((c : Thread nD τ).loc main_arg4) := W10_main_arg4 m ρ c

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = m ((c : Thread nD τ).loc main_arg5) := W2_main_arg5 m ρ c
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = m ((c : Thread nD τ).loc main_arg5) := W6_main_arg5 m ρ c
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = m ((c : Thread nD τ).loc main_arg5) := W10_main_arg5 m ρ c

theorem W17_main_arg6 (c : Dev nD) : W17 m ρ c (Proc.devRef .tc main_arg6) = m ((c : Thread nD τ).loc main_arg6) :=
  calc W17 m ρ c (Proc.devRef .tc main_arg6)
    _ = W16 m ρ c (Proc.devRef .tc main_arg6) := W17_keep m ρ c main_arg6 (by decide)
    _ = W15 m ρ c (Proc.devRef .tc main_arg6) := W16_of_ne m ρ c main_arg6 (by decide)
    _ = W14 m ρ c (Proc.devRef .tc main_arg6) := W15_keep m ρ c main_arg6 (by decide)
    _ = W13 m ρ c (Proc.devRef .tc main_arg6) := W14_of_ne m ρ c main_arg6 (by decide)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W17_main_arg8 (c : Dev nD) : W17 m ρ c (Proc.devRef .tc main_arg8) = m ((c : Thread nD τ).loc main_arg8) :=
  calc W17 m ρ c (Proc.devRef .tc main_arg8)
    _ = W16 m ρ c (Proc.devRef .tc main_arg8) := W17_keep m ρ c main_arg8 (by decide)
    _ = W15 m ρ c (Proc.devRef .tc main_arg8) := W16_of_ne m ρ c main_arg8 (by decide)
    _ = W14 m ρ c (Proc.devRef .tc main_arg8) := W15_keep m ρ c main_arg8 (by decide)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := W15_keep m ρ c main_arg9 (by decide)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

/-! ## The two index rows the first stretch computes, at the later boundaries -/

theorem W2_main_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem W6_main_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := W5_keep m ρ c main_v1 (by decide)
    _ = W3 m ρ c (Proc.devRef .tc main_v1) := W4_of_ne m ρ c main_v1 (by decide)
    _ = W2 m ρ c (Proc.devRef .tc main_v1) := W3_keep m ρ c main_v1 (by decide)
    _ = W1 m ρ c (Proc.devRef .tc main_v1) := W2_main_v1 m ρ c
theorem W10_main_v1 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := W9_keep m ρ c main_v1 (by decide)
    _ = W7 m ρ c (Proc.devRef .tc main_v1) := W8_of_ne m ρ c main_v1 (by decide)
    _ = W6 m ρ c (Proc.devRef .tc main_v1) := W7_keep m ρ c main_v1 (by decide)
    _ = W1 m ρ c (Proc.devRef .tc main_v1) := W6_main_v1 m ρ c
theorem W14_main_v1 (c : Dev nD) : W14 m ρ c (Proc.devRef .tc main_v1) = W1 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := W13_keep m ρ c main_v1 (by decide)
    _ = W11 m ρ c (Proc.devRef .tc main_v1) := W12_of_ne m ρ c main_v1 (by decide)
    _ = W10 m ρ c (Proc.devRef .tc main_v1) := W11_keep m ρ c main_v1 (by decide)
    _ = W1 m ρ c (Proc.devRef .tc main_v1) := W10_main_v1 m ρ c

theorem W2_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem W6_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := W5_keep m ρ c main_v3 (by decide)
    _ = W3 m ρ c (Proc.devRef .tc main_v3) := W4_of_ne m ρ c main_v3 (by decide)
    _ = W2 m ρ c (Proc.devRef .tc main_v3) := W3_keep m ρ c main_v3 (by decide)
    _ = W1 m ρ c (Proc.devRef .tc main_v3) := W2_main_v3 m ρ c
theorem W10_main_v3 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_keep m ρ c main_v3 (by decide)
    _ = W7 m ρ c (Proc.devRef .tc main_v3) := W8_of_ne m ρ c main_v3 (by decide)
    _ = W6 m ρ c (Proc.devRef .tc main_v3) := W7_keep m ρ c main_v3 (by decide)
    _ = W1 m ρ c (Proc.devRef .tc main_v3) := W6_main_v3 m ρ c
theorem W14_main_v3 (c : Dev nD) : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_keep m ρ c main_v3 (by decide)
    _ = W11 m ρ c (Proc.devRef .tc main_v3) := W12_of_ne m ρ c main_v3 (by decide)
    _ = W10 m ρ c (Proc.devRef .tc main_v3) := W11_keep m ρ c main_v3 (by decide)
    _ = W1 m ρ c (Proc.devRef .tc main_v3) := W10_main_v3 m ρ c

/-! ## The regions' results at the later boundaries where they are read -/

theorem W5_main_v36 (c : Dev nD) : W5 m ρ c (Proc.devRef .tc main_v36) = W4 m ρ c (Proc.devRef .tc main_v36) :=
  calc W5 m ρ c (Proc.devRef .tc main_v36)
    _ = W4 m ρ c (Proc.devRef .tc main_v36) := W5_keep m ρ c main_v36 (by decide)
theorem W7_main_v36 (c : Dev nD) : W7 m ρ c (Proc.devRef .tc main_v36) = W4 m ρ c (Proc.devRef .tc main_v36) :=
  calc W7 m ρ c (Proc.devRef .tc main_v36)
    _ = W6 m ρ c (Proc.devRef .tc main_v36) := W7_keep m ρ c main_v36 (by decide)
    _ = W5 m ρ c (Proc.devRef .tc main_v36) := W6_read_main_v36 m ρ c
    _ = W4 m ρ c (Proc.devRef .tc main_v36) := W5_main_v36 m ρ c

theorem W16_main_v69 (c : Dev nD) : W16 m ρ c (Proc.devRef .tc main_v69) = W8 m ρ c (Proc.devRef .tc main_v69) :=
  calc W16 m ρ c (Proc.devRef .tc main_v69)
    _ = W15 m ρ c (Proc.devRef .tc main_v69) := W16_of_ne m ρ c main_v69 (by decide)
    _ = W14 m ρ c (Proc.devRef .tc main_v69) := W15_keep m ρ c main_v69 (by decide)
    _ = W13 m ρ c (Proc.devRef .tc main_v69) := W14_of_ne m ρ c main_v69 (by decide)
    _ = W12 m ρ c (Proc.devRef .tc main_v69) := W13_keep m ρ c main_v69 (by decide)
    _ = W11 m ρ c (Proc.devRef .tc main_v69) := W12_of_ne m ρ c main_v69 (by decide)
    _ = W10 m ρ c (Proc.devRef .tc main_v69) := W11_keep m ρ c main_v69 (by decide)
    _ = W9 m ρ c (Proc.devRef .tc main_v69) := W10_of_ne m ρ c main_v69 (by decide)
    _ = W8 m ρ c (Proc.devRef .tc main_v69) := W9_keep m ρ c main_v69 (by decide)

theorem W13_main_v102 (c : Dev nD) : W13 m ρ c (Proc.devRef .tc main_v102) = W12 m ρ c (Proc.devRef .tc main_v102) :=
  calc W13 m ρ c (Proc.devRef .tc main_v102)
    _ = W12 m ρ c (Proc.devRef .tc main_v102) := W13_keep m ρ c main_v102 (by decide)
theorem W15_main_v102 (c : Dev nD) : W15 m ρ c (Proc.devRef .tc main_v102) = W12 m ρ c (Proc.devRef .tc main_v102) :=
  calc W15 m ρ c (Proc.devRef .tc main_v102)
    _ = W14 m ρ c (Proc.devRef .tc main_v102) := W15_keep m ρ c main_v102 (by decide)
    _ = W13 m ρ c (Proc.devRef .tc main_v102) := W14_read_main_v102 m ρ c
    _ = W12 m ρ c (Proc.devRef .tc main_v102) := W13_main_v102 m ρ c

end Cert.KernelIdeal.Hand

end
-- ==== Proof.KHost.lean ====
/- The value each region-input buffer holds when its region is entered, as a function of the argument arrays and
   of the earlier regions' results.

   The host operations between two regions compute the next region's inputs. Each such input is named here as one
   function in the kernel program's own spelling (`srcK`, `dstK`, `aggK`, `WK…`, `RK…`, `bK…`, `joinK`, `c1K`,
   `c2K`), the boundary's contents at the input's buffer are shown equal to that function of the launch memory and of
   the earlier regions' result buffers, and the layout-only functions are read at an index. -/
import proofs.«125463_j19267223290692_1_alg».proof.Proof.KRun
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.StableHlo Idealize.ShloMosaic.ValueIdx
open Cert.KernelIdeal Cert.KernelIdeal.Gen

variable {F : FTy → Type} [FloatOps F]

/-! ## The host stretches' functions, in the kernel program's own spelling

Each definition is the composition of the host operations that compute one region input from the buffers the stretch
finds: the operations' functions as the program states them, the operands as parameters. -/

/-- The edge list's first row as a flat array: the slice `[0:1, :]` of the `[2, 500000]` array, reshaped. -/
def srcK (x1 : (⟨S2x500000, .i32⟩ : BufTy).Contents (Elt F)) : (⟨S500000, .i32⟩ : BufTy).Contents (Elt F) :=
  (shapeCast _
    (extractStridedSlice S1x500000 ![0, 0] x1 slices_S2x500000_S1x500000_0_0)
    shapeCasts_S1x500000_S500000)
/-- The edge list's second row as a flat array: the slice `[1:2, :]`, reshaped. -/
def dstK (x1 : (⟨S2x500000, .i32⟩ : BufTy).Contents (Elt F)) : (⟨S500000, .i32⟩ : BufTy).Contents (Elt F) :=
  (shapeCast _
    (extractStridedSlice S1x500000 ![1, 0] x1 slices_S2x500000_S1x500000_1_0)
    shapeCasts_S1x500000_S500000)

/-- One relation's mean aggregation. With `mask e = 1` where edge `e` has type `rel` and `0` elsewhere: gather
    the rows of `hr` at the edges' `dst` entries (a negative entry wrapped by 20000), scale row `e` by `mask e`,
    scatter-add the rows into 20000 zero rows at the `src` entries; scatter-add the mask the same way into a count
    per row; divide each row by its count floored at one. -/
def aggK (rel : BitVec 32) (hr : (⟨S20000x256, .f32⟩ : BufTy).Contents (Elt F)) (src dst et : (⟨S500000, .i32⟩ : BufTy).Contents (Elt F)) :
    (⟨S20000x256, .f32⟩ : BufTy).Contents (Elt F) :=
  (Host.divf
    (Host.scatterAdd scatter_S20000x256_S500000x1_S500000x256_1_0_0_1
      (broadcastInDim S20000x256 ![] bcast_S_S20000x256 (constant S_ .f32 0x00000000#32))
      (broadcastInDim S500000x1 ![0] bcast_S500000_S500000x1_0 src)
      (mulf
        (Host.gather gather_S20000x256_S500000x1_S500000x256_1_0_n_n_0_1_1256
          hr
          (broadcastInDim S500000x1 ![0] bcast_S500000_S500000x1_0
            (select
              (cmpi .slt
                dst
                (broadcastInDim S500000 ![] bcast_S_S500000 (constantI S_ 32 0#32)))
              (addi
                dst
                (broadcastInDim S500000 ![] bcast_S_S500000 (constantI S_ 32 20000#32)))
              dst)))
        (broadcastInDim S500000x256 ![0, 1] bcast_S500000x1_S500000x256_0_1
          (broadcastInDim S500000x1 ![0] bcast_S500000_S500000x1_0
            (uitofp .f32
              (cmpi .eq
                et
                (broadcastInDim S500000 ![] bcast_S_S500000 (constantI S_ 32 rel))))))))
    (broadcastInDim S20000x256 ![0, 1] bcast_S20000x1_S20000x256_0_1
      (broadcastInDim S20000x1 ![0] bcast_S20000_S20000x1_0
        (maximumf
          (Host.scatterAdd scatter_S20000_S500000x1_S500000_n_0_0_1
            (broadcastInDim S20000 ![] bcast_S_S20000 (constant S_ .f32 0x00000000#32))
            (broadcastInDim S500000x1 ![0] bcast_S500000_S500000x1_0 src)
            (uitofp .f32
              (cmpi .eq
                et
                (broadcastInDim S500000 ![] bcast_S_S500000 (constantI S_ 32 rel)))))
          (broadcastInDim S20000 ![] bcast_S_S20000 (constant S_ .f32 0x3F800000#32))))))

/-- The `[256, 256]` block `[0, 0, :, :]` of the `[4, 5, 256, 256]` array. -/
def WK0 (x3 : (⟨S4x5x256x256, .f32⟩ : BufTy).Contents (Elt F)) : (⟨S256x256, .f32⟩ : BufTy).Contents (Elt F) :=
  (shapeCast _
    (extractStridedSlice S1x1x256x256 ![0, 0, 0, 0] x3 slices_S4x5x256x256_S1x1x256x256_0_0_0_0)
    shapeCasts_S1x1x256x256_S256x256)
/-- The `[256, 256]` block `[1, 1, :, :]` of the `[4, 5, 256, 256]` array. -/
def WK1 (x3 : (⟨S4x5x256x256, .f32⟩ : BufTy).Contents (Elt F)) : (⟨S256x256, .f32⟩ : BufTy).Contents (Elt F) :=
  (shapeCast _
    (extractStridedSlice S1x1x256x256 ![1, 1, 0, 0] x3 slices_S4x5x256x256_S1x1x256x256_1_1_0_0)
    shapeCasts_S1x1x256x256_S256x256)
/-- The `[256, 256]` block `[2, 2, :, :]` of the `[4, 5, 256, 256]` array. -/
def WK2 (x3 : (⟨S4x5x256x256, .f32⟩ : BufTy).Contents (Elt F)) : (⟨S256x256, .f32⟩ : BufTy).Contents (Elt F) :=
  (shapeCast _
    (extractStridedSlice S1x1x256x256 ![2, 2, 0, 0] x3 slices_S4x5x256x256_S1x1x256x256_2_2_0_0)
    shapeCasts_S1x1x256x256_S256x256)
/-- The `[256, 256]` block `[3, 3, :, :]` of the `[4, 5, 256, 256]` array. -/
def WK3 (x3 : (⟨S4x5x256x256, .f32⟩ : BufTy).Contents (Elt F)) : (⟨S256x256, .f32⟩ : BufTy).Contents (Elt F) :=
  (shapeCast _
    (extractStridedSlice S1x1x256x256 ![3, 3, 0, 0] x3 slices_S4x5x256x256_S1x1x256x256_3_3_0_0)
    shapeCasts_S1x1x256x256_S256x256)
/-- The `[256, 256]` block `[0, :, :]` of the `[4, 256, 256]` array. -/
def RK0 (x4 : (⟨S4x256x256, .f32⟩ : BufTy).Contents (Elt F)) : (⟨S256x256, .f32⟩ : BufTy).Contents (Elt F) :=
  (shapeCast _
    (extractStridedSlice S1x256x256 ![0, 0, 0] x4 slices_S4x256x256_S1x256x256_0_0_0)
    shapeCasts_S1x256x256_S256x256)
/-- The `[256, 256]` block `[1, :, :]` of the `[4, 256, 256]` array. -/
def RK1 (x4 : (⟨S4x256x256, .f32⟩ : BufTy).Contents (Elt F)) : (⟨S256x256, .f32⟩ : BufTy).Contents (Elt F) :=
  (shapeCast _
    (extractStridedSlice S1x256x256 ![1, 0, 0] x4 slices_S4x256x256_S1x256x256_1_0_0)
    shapeCasts_S1x256x256_S256x256)
/-- The `[256, 256]` block `[2, :, :]` of the `[4, 256, 256]` array. -/
def RK2 (x4 : (⟨S4x256x256, .f32⟩ : BufTy).Contents (Elt F)) : (⟨S256x256, .f32⟩ : BufTy).Contents (Elt F) :=
  (shapeCast _
    (extractStridedSlice S1x256x256 ![2, 0, 0] x4 slices_S4x256x256_S1x256x256_2_0_0)
    shapeCasts_S1x256x256_S256x256)
/-- The `[256, 256]` block `[3, :, :]` of the `[4, 256, 256]` array. -/
def RK3 (x4 : (⟨S4x256x256, .f32⟩ : BufTy).Contents (Elt F)) : (⟨S256x256, .f32⟩ : BufTy).Contents (Elt F) :=
  (shapeCast _
    (extractStridedSlice S1x256x256 ![3, 0, 0] x4 slices_S4x256x256_S1x256x256_3_0_0)
    shapeCasts_S1x256x256_S256x256)
/-- Row `0` of the `[4, 256]` array as a one-row array: sliced, flattened, and given its row axis back. -/
def bK0 (x5 : (⟨S4x256, .f32⟩ : BufTy).Contents (Elt F)) : (⟨S1x256, .f32⟩ : BufTy).Contents (Elt F) :=
  (shapeCast _
    (shapeCast _
      (extractStridedSlice S1x256 ![0, 0] x5 slices_S4x256_S1x256_0_0)
      shapeCasts_S1x256_S256)
    shapeCasts_S256_S1x256)
/-- Row `1` of the `[4, 256]` array as a one-row array: sliced, flattened, and given its row axis back. -/
def bK1 (x5 : (⟨S4x256, .f32⟩ : BufTy).Contents (Elt F)) : (⟨S1x256, .f32⟩ : BufTy).Contents (Elt F) :=
  (shapeCast _
    (shapeCast _
      (extractStridedSlice S1x256 ![1, 0] x5 slices_S4x256_S1x256_1_0)
      shapeCasts_S1x256_S256)
    shapeCasts_S256_S1x256)
/-- Row `2` of the `[4, 256]` array as a one-row array: sliced, flattened, and given its row axis back. -/
def bK2 (x5 : (⟨S4x256, .f32⟩ : BufTy).Contents (Elt F)) : (⟨S1x256, .f32⟩ : BufTy).Contents (Elt F) :=
  (shapeCast _
    (shapeCast _
      (extractStridedSlice S1x256 ![2, 0] x5 slices_S4x256_S1x256_2_0)
      shapeCasts_S1x256_S256)
    shapeCasts_S256_S1x256)
/-- Row `3` of the `[4, 256]` array as a one-row array: sliced, flattened, and given its row axis back. -/
def bK3 (x5 : (⟨S4x256, .f32⟩ : BufTy).Contents (Elt F)) : (⟨S1x256, .f32⟩ : BufTy).Contents (Elt F) :=
  (shapeCast _
    (shapeCast _
      (extractStridedSlice S1x256 ![3, 0] x5 slices_S4x256_S1x256_3_0)
      shapeCasts_S1x256_S256)
    shapeCasts_S256_S1x256)
/-- Two `[20000, 256]` arrays side by side: columns `0 … 255` from `a`, `256 … 511` from `b`. -/
def joinK (a b : (⟨S20000x256, .f32⟩ : BufTy).Contents (Elt F)) : (⟨S20000x512, .f32⟩ : BufTy).Contents (Elt F) :=
  (concatenate S20000x512 1 [⟨S20000x256, a⟩, ⟨S20000x256, b⟩] concatenates_S20000x256_S20000x256_S20000x512_d1)
/-- A `[256]` array as a one-row array. -/
def c1K (x7 : (⟨S256, .f32⟩ : BufTy).Contents (Elt F)) : (⟨S1x256, .f32⟩ : BufTy).Contents (Elt F) :=
  (shapeCast _ x7 shapeCasts_S256_S1x256)
/-- A `[16]` array as a one-row array. -/
def c2K (x9 : (⟨S16, .f32⟩ : BufTy).Contents (Elt F)) : (⟨S1x16, .f32⟩ : BufTy).Contents (Elt F) :=
  (shapeCast _ x9 shapeCasts_S16_S1x16)

/-! ## The layout-only functions read at an index

A slice reads its operand at the index shifted by the offsets; a reshape reads its operand at the index with the same
row-major position. -/

/-- Entry `(a, b)` of the weight block is entry `(0, 0, a, b)` of the `[4, 5, 256, 256]` array. -/
theorem WK0_apply (x3 : (⟨S4x5x256x256, .f32⟩ : BufTy).Contents (Elt F)) (a b : Fin 256) :
    WK0 x3 (ix2 a b) = x3 (ix4 (0 : Fin 4) (0 : Fin 5) a b) := by
  unfold WK0
  refine (shapeCast_apply _ shapeCasts_S1x1x256x256_S256x256 (ix2 a b) (ix4 (0 : Fin 1) (0 : Fin 1) a b) ?_).trans ?_
  · rewrite [Shape.rowMajor_val_four, Shape.rowMajor_val_two]
    show ((0 * 1 + 0) * 256 + a.val) * 256 + b.val = a.val * 256 + b.val
    omega
  · exact extractStridedSlice_apply ![0, 0, 0, 0] x3 slices_S4x5x256x256_S1x1x256x256_0_0_0_0
      (ix4 (0 : Fin 1) (0 : Fin 1) a b) (ix4 (0 : Fin 4) (0 : Fin 5) a b) (fun d => match d with
      | ⟨0, _⟩ => by show 0 = 0 + 0; omega
      | ⟨1, _⟩ => by show 0 = 0 + 0; omega
      | ⟨2, _⟩ => by show a.val = 0 + a.val; omega
      | ⟨3, _⟩ => by show b.val = 0 + b.val; omega)
/-- Entry `(a, b)` of the weight block is entry `(1, 1, a, b)` of the `[4, 5, 256, 256]` array. -/
theorem WK1_apply (x3 : (⟨S4x5x256x256, .f32⟩ : BufTy).Contents (Elt F)) (a b : Fin 256) :
    WK1 x3 (ix2 a b) = x3 (ix4 (1 : Fin 4) (1 : Fin 5) a b) := by
  unfold WK1
  refine (shapeCast_apply _ shapeCasts_S1x1x256x256_S256x256 (ix2 a b) (ix4 (0 : Fin 1) (0 : Fin 1) a b) ?_).trans ?_
  · rewrite [Shape.rowMajor_val_four, Shape.rowMajor_val_two]
    show ((0 * 1 + 0) * 256 + a.val) * 256 + b.val = a.val * 256 + b.val
    omega
  · exact extractStridedSlice_apply ![1, 1, 0, 0] x3 slices_S4x5x256x256_S1x1x256x256_1_1_0_0
      (ix4 (0 : Fin 1) (0 : Fin 1) a b) (ix4 (1 : Fin 4) (1 : Fin 5) a b) (fun d => match d with
      | ⟨0, _⟩ => by show 1 = 1 + 0; omega
      | ⟨1, _⟩ => by show 1 = 1 + 0; omega
      | ⟨2, _⟩ => by show a.val = 0 + a.val; omega
      | ⟨3, _⟩ => by show b.val = 0 + b.val; omega)
/-- Entry `(a, b)` of the weight block is entry `(2, 2, a, b)` of the `[4, 5, 256, 256]` array. -/
theorem WK2_apply (x3 : (⟨S4x5x256x256, .f32⟩ : BufTy).Contents (Elt F)) (a b : Fin 256) :
    WK2 x3 (ix2 a b) = x3 (ix4 (2 : Fin 4) (2 : Fin 5) a b) := by
  unfold WK2
  refine (shapeCast_apply _ shapeCasts_S1x1x256x256_S256x256 (ix2 a b) (ix4 (0 : Fin 1) (0 : Fin 1) a b) ?_).trans ?_
  · rewrite [Shape.rowMajor_val_four, Shape.rowMajor_val_two]
    show ((0 * 1 + 0) * 256 + a.val) * 256 + b.val = a.val * 256 + b.val
    omega
  · exact extractStridedSlice_apply ![2, 2, 0, 0] x3 slices_S4x5x256x256_S1x1x256x256_2_2_0_0
      (ix4 (0 : Fin 1) (0 : Fin 1) a b) (ix4 (2 : Fin 4) (2 : Fin 5) a b) (fun d => match d with
      | ⟨0, _⟩ => by show 2 = 2 + 0; omega
      | ⟨1, _⟩ => by show 2 = 2 + 0; omega
      | ⟨2, _⟩ => by show a.val = 0 + a.val; omega
      | ⟨3, _⟩ => by show b.val = 0 + b.val; omega)
/-- Entry `(a, b)` of the weight block is entry `(3, 3, a, b)` of the `[4, 5, 256, 256]` array. -/
theorem WK3_apply (x3 : (⟨S4x5x256x256, .f32⟩ : BufTy).Contents (Elt F)) (a b : Fin 256) :
    WK3 x3 (ix2 a b) = x3 (ix4 (3 : Fin 4) (3 : Fin 5) a b) := by
  unfold WK3
  refine (shapeCast_apply _ shapeCasts_S1x1x256x256_S256x256 (ix2 a b) (ix4 (0 : Fin 1) (0 : Fin 1) a b) ?_).trans ?_
  · rewrite [Shape.rowMajor_val_four, Shape.rowMajor_val_two]
    show ((0 * 1 + 0) * 256 + a.val) * 256 + b.val = a.val * 256 + b.val
    omega
  · exact extractStridedSlice_apply ![3, 3, 0, 0] x3 slices_S4x5x256x256_S1x1x256x256_3_3_0_0
      (ix4 (0 : Fin 1) (0 : Fin 1) a b) (ix4 (3 : Fin 4) (3 : Fin 5) a b) (fun d => match d with
      | ⟨0, _⟩ => by show 3 = 3 + 0; omega
      | ⟨1, _⟩ => by show 3 = 3 + 0; omega
      | ⟨2, _⟩ => by show a.val = 0 + a.val; omega
      | ⟨3, _⟩ => by show b.val = 0 + b.val; omega)
/-- Entry `(a, b)` of the root weight block is entry `(0, a, b)` of the `[4, 256, 256]` array. -/
theorem RK0_apply (x4 : (⟨S4x256x256, .f32⟩ : BufTy).Contents (Elt F)) (a b : Fin 256) :
    RK0 x4 (ix2 a b) = x4 (ix3 (0 : Fin 4) a b) := by
  unfold RK0
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  · exact extractStridedSlice_apply ![0, 0, 0] x4 slices_S4x256x256_S1x256x256_0_0_0
      (ix3 (0 : Fin 1) a b) (ix3 (0 : Fin 4) a b) (fun d => match d with
      | ⟨0, _⟩ => by show 0 = 0 + 0; omega
      | ⟨1, _⟩ => by show a.val = 0 + a.val; omega
      | ⟨2, _⟩ => by show b.val = 0 + b.val; omega)
/-- Entry `(a, b)` of the root weight block is entry `(1, a, b)` of the `[4, 256, 256]` array. -/
theorem RK1_apply (x4 : (⟨S4x256x256, .f32⟩ : BufTy).Contents (Elt F)) (a b : Fin 256) :
    RK1 x4 (ix2 a b) = x4 (ix3 (1 : Fin 4) a b) := by
  unfold RK1
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  · exact extractStridedSlice_apply ![1, 0, 0] x4 slices_S4x256x256_S1x256x256_1_0_0
      (ix3 (0 : Fin 1) a b) (ix3 (1 : Fin 4) a b) (fun d => match d with
      | ⟨0, _⟩ => by show 1 = 1 + 0; omega
      | ⟨1, _⟩ => by show a.val = 0 + a.val; omega
      | ⟨2, _⟩ => by show b.val = 0 + b.val; omega)
/-- Entry `(a, b)` of the root weight block is entry `(2, a, b)` of the `[4, 256, 256]` array. -/
theorem RK2_apply (x4 : (⟨S4x256x256, .f32⟩ : BufTy).Contents (Elt F)) (a b : Fin 256) :
    RK2 x4 (ix2 a b) = x4 (ix3 (2 : Fin 4) a b) := by
  unfold RK2
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  · exact extractStridedSlice_apply ![2, 0, 0] x4 slices_S4x256x256_S1x256x256_2_0_0
      (ix3 (0 : Fin 1) a b) (ix3 (2 : Fin 4) a b) (fun d => match d with
      | ⟨0, _⟩ => by show 2 = 2 + 0; omega
      | ⟨1, _⟩ => by show a.val = 0 + a.val; omega
      | ⟨2, _⟩ => by show b.val = 0 + b.val; omega)
/-- Entry `(a, b)` of the root weight block is entry `(3, a, b)` of the `[4, 256, 256]` array. -/
theorem RK3_apply (x4 : (⟨S4x256x256, .f32⟩ : BufTy).Contents (Elt F)) (a b : Fin 256) :
    RK3 x4 (ix2 a b) = x4 (ix3 (3 : Fin 4) a b) := by
  unfold RK3
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  · exact extractStridedSlice_apply ![3, 0, 0] x4 slices_S4x256x256_S1x256x256_3_0_0
      (ix3 (0 : Fin 1) a b) (ix3 (3 : Fin 4) a b) (fun d => match d with
      | ⟨0, _⟩ => by show 3 = 3 + 0; omega
      | ⟨1, _⟩ => by show a.val = 0 + a.val; omega
      | ⟨2, _⟩ => by show b.val = 0 + b.val; omega)
/-- Entry `(0, j)` of the bias row is entry `(0, j)` of the `[4, 256]` array. -/
theorem bK0_apply (x5 : (⟨S4x256, .f32⟩ : BufTy).Contents (Elt F)) (j : Fin 256) :
    bK0 x5 (ix2 (0 : Fin 1) j) = x5 (ix2 (0 : Fin 4) j) := by
  unfold bK0
  refine (shapeCast_apply _ shapeCasts_S256_S1x256 (ix2 (0 : Fin 1) j) (ix1 j) ?_).trans ?_
  · rewrite [Shape.rowMajor_val_one, Shape.rowMajor_val_two]
    show j.val = 0 * 256 + j.val
    omega
  refine (shapeCast_apply _ shapeCasts_S1x256_S256 (ix1 j) (ix2 (0 : Fin 1) j) ?_).trans ?_
  · rewrite [Shape.rowMajor_val_two, Shape.rowMajor_val_one]
    show 0 * 256 + j.val = j.val
    omega
  · exact extractStridedSlice_apply ![0, 0] x5 slices_S4x256_S1x256_0_0
      (ix2 (0 : Fin 1) j) (ix2 (0 : Fin 4) j) (fun d => match d with
      | ⟨0, _⟩ => by show 0 = 0 + 0; omega
      | ⟨1, _⟩ => by show j.val = 0 + j.val; omega)
/-- Entry `(0, j)` of the bias row is entry `(1, j)` of the `[4, 256]` array. -/
theorem bK1_apply (x5 : (⟨S4x256, .f32⟩ : BufTy).Contents (Elt F)) (j : Fin 256) :
    bK1 x5 (ix2 (0 : Fin 1) j) = x5 (ix2 (1 : Fin 4) j) := by
  unfold bK1
  refine (shapeCast_apply _ shapeCasts_S256_S1x256 (ix2 (0 : Fin 1) j) (ix1 j) ?_).trans ?_
  · rewrite [Shape.rowMajor_val_one, Shape.rowMajor_val_two]
    show j.val = 0 * 256 + j.val
    omega
  refine (shapeCast_apply _ shapeCasts_S1x256_S256 (ix1 j) (ix2 (0 : Fin 1) j) ?_).trans ?_
  · rewrite [Shape.rowMajor_val_two, Shape.rowMajor_val_one]
    show 0 * 256 + j.val = j.val
    omega
  · exact extractStridedSlice_apply ![1, 0] x5 slices_S4x256_S1x256_1_0
      (ix2 (0 : Fin 1) j) (ix2 (1 : Fin 4) j) (fun d => match d with
      | ⟨0, _⟩ => by show 1 = 1 + 0; omega
      | ⟨1, _⟩ => by show j.val = 0 + j.val; omega)
/-- Entry `(0, j)` of the bias row is entry `(2, j)` of the `[4, 256]` array. -/
theorem bK2_apply (x5 : (⟨S4x256, .f32⟩ : BufTy).Contents (Elt F)) (j : Fin 256) :
    bK2 x5 (ix2 (0 : Fin 1) j) = x5 (ix2 (2 : Fin 4) j) := by
  unfold bK2
  refine (shapeCast_apply _ shapeCasts_S256_S1x256 (ix2 (0 : Fin 1) j) (ix1 j) ?_).trans ?_
  · rewrite [Shape.rowMajor_val_one, Shape.rowMajor_val_two]
    show j.val = 0 * 256 + j.val
    omega
  refine (shapeCast_apply _ shapeCasts_S1x256_S256 (ix1 j) (ix2 (0 : Fin 1) j) ?_).trans ?_
  · rewrite [Shape.rowMajor_val_two, Shape.rowMajor_val_one]
    show 0 * 256 + j.val = j.val
    omega
  · exact extractStridedSlice_apply ![2, 0] x5 slices_S4x256_S1x256_2_0
      (ix2 (0 : Fin 1) j) (ix2 (2 : Fin 4) j) (fun d => match d with
      | ⟨0, _⟩ => by show 2 = 2 + 0; omega
      | ⟨1, _⟩ => by show j.val = 0 + j.val; omega)
/-- Entry `(0, j)` of the bias row is entry `(3, j)` of the `[4, 256]` array. -/
theorem bK3_apply (x5 : (⟨S4x256, .f32⟩ : BufTy).Contents (Elt F)) (j : Fin 256) :
    bK3 x5 (ix2 (0 : Fin 1) j) = x5 (ix2 (3 : Fin 4) j) := by
  unfold bK3
  refine (shapeCast_apply _ shapeCasts_S256_S1x256 (ix2 (0 : Fin 1) j) (ix1 j) ?_).trans ?_
  · rewrite [Shape.rowMajor_val_one, Shape.rowMajor_val_two]
    show j.val = 0 * 256 + j.val
    omega
  refine (shapeCast_apply _ shapeCasts_S1x256_S256 (ix1 j) (ix2 (0 : Fin 1) j) ?_).trans ?_
  · rewrite [Shape.rowMajor_val_two, Shape.rowMajor_val_one]
    show 0 * 256 + j.val = j.val
    omega
  · exact extractStridedSlice_apply ![3, 0] x5 slices_S4x256_S1x256_3_0
      (ix2 (0 : Fin 1) j) (ix2 (3 : Fin 4) j) (fun d => match d with
      | ⟨0, _⟩ => by show 3 = 3 + 0; omega
      | ⟨1, _⟩ => by show j.val = 0 + j.val; omega)
/-- Entry `(0, j)` of the one-row array is entry `j` of the flat one. -/
theorem c1K_apply (x7 : (⟨S256, .f32⟩ : BufTy).Contents (Elt F)) (j : Fin 256) :
    c1K x7 (ix2 (0 : Fin 1) j) = x7 (ix1 j) := by
  unfold c1K
  refine shapeCast_apply _ shapeCasts_S256_S1x256 (ix2 (0 : Fin 1) j) (ix1 j) ?_
  rewrite [Shape.rowMajor_val_one, Shape.rowMajor_val_two]
  show j.val = 0 * 256 + j.val
  omega
/-- Entry `(0, j)` of the one-row array is entry `j` of the flat one. -/
theorem c2K_apply (x9 : (⟨S16, .f32⟩ : BufTy).Contents (Elt F)) (j : Fin 16) :
    c2K x9 (ix2 (0 : Fin 1) j) = x9 (ix1 j) := by
  unfold c2K
  refine shapeCast_apply _ shapeCasts_S16_S1x16 (ix2 (0 : Fin 1) j) (ix1 j) ?_
  rewrite [Shape.rowMajor_val_one, Shape.rowMajor_val_two]
  show j.val = 0 * 16 + j.val
  omega

variable (m : (ℓ : Loc nD τ sig) → Buf (Elt F) ℓ) (ρ : Dev nD → PrngReg)

/-! ## The region inputs at their regions' entries

Each is the stretch's fold read at the input's buffer: the operations' results composed, down to the buffers the
stretch finds, and those walked back to the launch memory or to the region that wrote them. -/

/-! ### Stretch 0: the edge list's two rows and the relation weight block `[0, 0]` -/

theorem W1_main_v5 (c : Dev nD) :
    W1 m ρ c (Proc.devRef .tc main_v5) = WK0 (m ((c : Thread nD τ).loc main_arg3)) := by
  show StableHlo.after hostOps0 (W0 m ρ c) (Proc.devRef .tc main_v5) = _
  after_results
  rfl

theorem W1_main_v1 (c : Dev nD) :
    W1 m ρ c (Proc.devRef .tc main_v1) = srcK (m ((c : Thread nD τ).loc main_arg1)) := by
  show StableHlo.after hostOps0 (W0 m ρ c) (Proc.devRef .tc main_v1) = _
  after_results
  rfl

theorem W1_main_v3 (c : Dev nD) :
    W1 m ρ c (Proc.devRef .tc main_v3) = dstK (m ((c : Thread nD τ).loc main_arg1)) := by
  show StableHlo.after hostOps0 (W0 m ρ c) (Proc.devRef .tc main_v3) = _
  after_results
  rfl

/-! ### Stretch 1 (convolution 0): the type-0 aggregation of region 0's result, root weight block 0, bias row 0 -/

theorem W3_main_v30 (c : Dev nD) :
    W3 m ρ c (Proc.devRef .tc main_v30) = aggK 0#32 (W2 m ρ c (Proc.devRef .tc main_v6)) (srcK (m ((c : Thread nD τ).loc main_arg1))) (dstK (m ((c : Thread nD τ).loc main_arg1))) (m ((c : Thread nD τ).loc main_arg2)) := by
  have h : W3 m ρ c (Proc.devRef .tc main_v30) = aggK 0#32 (W2 m ρ c (Proc.devRef .tc main_v6)) (W2 m ρ c (Proc.devRef .tc main_v1)) (W2 m ρ c (Proc.devRef .tc main_v3)) (W2 m ρ c (Proc.devRef .tc main_arg2)) := by
    show StableHlo.after hostOps1 (W2 m ρ c) (Proc.devRef .tc main_v30) = _
    after_results_simp
    rfl
  rw [h, W2_main_v1 m ρ c, W1_main_v1 m ρ c, W2_main_v3 m ρ c, W1_main_v3 m ρ c, W2_main_arg2 m ρ c]

theorem W3_main_v32 (c : Dev nD) :
    W3 m ρ c (Proc.devRef .tc main_v32) = RK0 (m ((c : Thread nD τ).loc main_arg4)) := by
  have h : W3 m ρ c (Proc.devRef .tc main_v32) = RK0 (W2 m ρ c (Proc.devRef .tc main_arg4)) := by
    show StableHlo.after hostOps1 (W2 m ρ c) (Proc.devRef .tc main_v32) = _
    after_results
    rfl
  rw [h, W2_main_arg4 m ρ c]

theorem W3_main_v35 (c : Dev nD) :
    W3 m ρ c (Proc.devRef .tc main_v35) = bK0 (m ((c : Thread nD τ).loc main_arg5)) := by
  have h : W3 m ρ c (Proc.devRef .tc main_v35) = bK0 (W2 m ρ c (Proc.devRef .tc main_arg5)) := by
    show StableHlo.after hostOps1 (W2 m ρ c) (Proc.devRef .tc main_v35) = _
    after_results
    rfl
  rw [h, W2_main_arg5 m ρ c]

/-! ### Stretch 2: the relation weight block `[1, 1]` -/

theorem W5_main_v38 (c : Dev nD) :
    W5 m ρ c (Proc.devRef .tc main_v38) = WK1 (m ((c : Thread nD τ).loc main_arg3)) := by
  have h : W5 m ρ c (Proc.devRef .tc main_v38) = WK1 (W4 m ρ c (Proc.devRef .tc main_arg3)) := by
    show StableHlo.after hostOps2 (W4 m ρ c) (Proc.devRef .tc main_v38) = _
    after_results
    rfl
  rw [h, W4_main_arg3 m ρ c]

/-! ### Stretch 3 (convolution 1): the type-1 aggregation of region 2's result, root weight block 1, bias row 1 -/

theorem W7_main_v63 (c : Dev nD) :
    W7 m ρ c (Proc.devRef .tc main_v63) = aggK 1#32 (W6 m ρ c (Proc.devRef .tc main_v39)) (srcK (m ((c : Thread nD τ).loc main_arg1))) (dstK (m ((c : Thread nD τ).loc main_arg1))) (m ((c : Thread nD τ).loc main_arg2)) := by
  have h : W7 m ρ c (Proc.devRef .tc main_v63) = aggK 1#32 (W6 m ρ c (Proc.devRef .tc main_v39)) (W6 m ρ c (Proc.devRef .tc main_v1)) (W6 m ρ c (Proc.devRef .tc main_v3)) (W6 m ρ c (Proc.devRef .tc main_arg2)) := by
    show StableHlo.after hostOps3 (W6 m ρ c) (Proc.devRef .tc main_v63) = _
    after_results_simp
    rfl
  rw [h, W6_main_v1 m ρ c, W1_main_v1 m ρ c, W6_main_v3 m ρ c, W1_main_v3 m ρ c, W6_main_arg2 m ρ c]

theorem W7_main_v65 (c : Dev nD) :
    W7 m ρ c (Proc.devRef .tc main_v65) = RK1 (m ((c : Thread nD τ).loc main_arg4)) := by
  have h : W7 m ρ c (Proc.devRef .tc main_v65) = RK1 (W6 m ρ c (Proc.devRef .tc main_arg4)) := by
    show StableHlo.after hostOps3 (W6 m ρ c) (Proc.devRef .tc main_v65) = _
    after_results
    rfl
  rw [h, W6_main_arg4 m ρ c]

theorem W7_main_v68 (c : Dev nD) :
    W7 m ρ c (Proc.devRef .tc main_v68) = bK1 (m ((c : Thread nD τ).loc main_arg5)) := by
  have h : W7 m ρ c (Proc.devRef .tc main_v68) = bK1 (W6 m ρ c (Proc.devRef .tc main_arg5)) := by
    show StableHlo.after hostOps3 (W6 m ρ c) (Proc.devRef .tc main_v68) = _
    after_results
    rfl
  rw [h, W6_main_arg5 m ρ c]

/-! ### Stretch 4: the relation weight block `[2, 2]` -/

theorem W9_main_v71 (c : Dev nD) :
    W9 m ρ c (Proc.devRef .tc main_v71) = WK2 (m ((c : Thread nD τ).loc main_arg3)) := by
  have h : W9 m ρ c (Proc.devRef .tc main_v71) = WK2 (W8 m ρ c (Proc.devRef .tc main_arg3)) := by
    show StableHlo.after hostOps4 (W8 m ρ c) (Proc.devRef .tc main_v71) = _
    after_results
    rfl
  rw [h, W8_main_arg3 m ρ c]

/-! ### Stretch 5 (convolution 2): the type-2 aggregation of region 4's result, root weight block 2, bias row 2 -/

theorem W11_main_v96 (c : Dev nD) :
    W11 m ρ c (Proc.devRef .tc main_v96) = aggK 2#32 (W10 m ρ c (Proc.devRef .tc main_v72)) (srcK (m ((c : Thread nD τ).loc main_arg1))) (dstK (m ((c : Thread nD τ).loc main_arg1))) (m ((c : Thread nD τ).loc main_arg2)) := by
  have h : W11 m ρ c (Proc.devRef .tc main_v96) = aggK 2#32 (W10 m ρ c (Proc.devRef .tc main_v72)) (W10 m ρ c (Proc.devRef .tc main_v1)) (W10 m ρ c (Proc.devRef .tc main_v3)) (W10 m ρ c (Proc.devRef .tc main_arg2)) := by
    show StableHlo.after hostOps5 (W10 m ρ c) (Proc.devRef .tc main_v96) = _
    after_results_simp
    rfl
  rw [h, W10_main_v1 m ρ c, W1_main_v1 m ρ c, W10_main_v3 m ρ c, W1_main_v3 m ρ c, W10_main_arg2 m ρ c]

theorem W11_main_v98 (c : Dev nD) :
    W11 m ρ c (Proc.devRef .tc main_v98) = RK2 (m ((c : Thread nD τ).loc main_arg4)) := by
  have h : W11 m ρ c (Proc.devRef .tc main_v98) = RK2 (W10 m ρ c (Proc.devRef .tc main_arg4)) := by
    show StableHlo.after hostOps5 (W10 m ρ c) (Proc.devRef .tc main_v98) = _
    after_results
    rfl
  rw [h, W10_main_arg4 m ρ c]

theorem W11_main_v101 (c : Dev nD) :
    W11 m ρ c (Proc.devRef .tc main_v101) = bK2 (m ((c : Thread nD τ).loc main_arg5)) := by
  have h : W11 m ρ c (Proc.devRef .tc main_v101) = bK2 (W10 m ρ c (Proc.devRef .tc main_arg5)) := by
    show StableHlo.after hostOps5 (W10 m ρ c) (Proc.devRef .tc main_v101) = _
    after_results
    rfl
  rw [h, W10_main_arg5 m ρ c]

/-! ### Stretch 6: the relation weight block `[3, 3]` -/

theorem W13_main_v104 (c : Dev nD) :
    W13 m ρ c (Proc.devRef .tc main_v104) = WK3 (m ((c : Thread nD τ).loc main_arg3)) := by
  have h : W13 m ρ c (Proc.devRef .tc main_v104) = WK3 (W12 m ρ c (Proc.devRef .tc main_arg3)) := by
    show StableHlo.after hostOps6 (W12 m ρ c) (Proc.devRef .tc main_v104) = _
    after_results
    rfl
  rw [h, W12_main_arg3 m ρ c]

/-! ### Stretch 7 (convolution 3): the type-3 aggregation of region 6's result, root weight block 3, bias row 3 -/

theorem W15_main_v129 (c : Dev nD) :
    W15 m ρ c (Proc.devRef .tc main_v129) = aggK 3#32 (W14 m ρ c (Proc.devRef .tc main_v105)) (srcK (m ((c : Thread nD τ).loc main_arg1))) (dstK (m ((c : Thread nD τ).loc main_arg1))) (m ((c : Thread nD τ).loc main_arg2)) := by
  have h : W15 m ρ c (Proc.devRef .tc main_v129) = aggK 3#32 (W14 m ρ c (Proc.devRef .tc main_v105)) (W14 m ρ c (Proc.devRef .tc main_v1)) (W14 m ρ c (Proc.devRef .tc main_v3)) (W14 m ρ c (Proc.devRef .tc main_arg2)) := by
    show StableHlo.after hostOps7 (W14 m ρ c) (Proc.devRef .tc main_v129) = _
    after_results_simp
    rfl
  rw [h, W14_main_v1 m ρ c, W1_main_v1 m ρ c, W14_main_v3 m ρ c, W1_main_v3 m ρ c, W14_main_arg2 m ρ c]

theorem W15_main_v131 (c : Dev nD) :
    W15 m ρ c (Proc.devRef .tc main_v131) = RK3 (m ((c : Thread nD τ).loc main_arg4)) := by
  have h : W15 m ρ c (Proc.devRef .tc main_v131) = RK3 (W14 m ρ c (Proc.devRef .tc main_arg4)) := by
    show StableHlo.after hostOps7 (W14 m ρ c) (Proc.devRef .tc main_v131) = _
    after_results
    rfl
  rw [h, W14_main_arg4 m ρ c]

theorem W15_main_v134 (c : Dev nD) :
    W15 m ρ c (Proc.devRef .tc main_v134) = bK3 (m ((c : Thread nD τ).loc main_arg5)) := by
  have h : W15 m ρ c (Proc.devRef .tc main_v134) = bK3 (W14 m ρ c (Proc.devRef .tc main_arg5)) := by
    show StableHlo.after hostOps7 (W14 m ρ c) (Proc.devRef .tc main_v134) = _
    after_results
    rfl
  rw [h, W14_main_arg5 m ρ c]

/-! ### Stretch 8: the two metapaths' results joined, and the two dense layers' bias rows -/

theorem W17_main_v136 (c : Dev nD) :
    W17 m ρ c (Proc.devRef .tc main_v136) = joinK (W8 m ρ c (Proc.devRef .tc main_v69)) (W16 m ρ c (Proc.devRef .tc main_v135)) := by
  have h : W17 m ρ c (Proc.devRef .tc main_v136) = joinK (W16 m ρ c (Proc.devRef .tc main_v69)) (W16 m ρ c (Proc.devRef .tc main_v135)) := by
    show StableHlo.after hostOps8 (W16 m ρ c) (Proc.devRef .tc main_v136) = _
    after_results
    rfl
  rw [h, W16_main_v69 m ρ c]

theorem W17_main_v137 (c : Dev nD) :
    W17 m ρ c (Proc.devRef .tc main_v137) = c1K (m ((c : Thread nD τ).loc main_arg7)) := by
  have h : W17 m ρ c (Proc.devRef .tc main_v137) = c1K (W16 m ρ c (Proc.devRef .tc main_arg7)) := by
    show StableHlo.after hostOps8 (W16 m ρ c) (Proc.devRef .tc main_v137) = _
    after_results
    rfl
  rw [h, W16_main_arg7 m ρ c]

theorem W17_main_v138 (c : Dev nD) :
    W17 m ρ c (Proc.devRef .tc main_v138) = c2K (m ((c : Thread nD τ).loc main_arg9)) := by
  have h : W17 m ρ c (Proc.devRef .tc main_v138) = c2K (W16 m ρ c (Proc.devRef .tc main_arg9)) := by
    show StableHlo.after hostOps8 (W16 m ρ c) (Proc.devRef .tc main_v138) = _
    after_results
    rfl
  rw [h, W16_main_arg9 m ρ c]

end Cert.KernelIdeal.Hand

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«125463_j19267223290692_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«125463_j19267223290692_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«125463_j19267223290692_1_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.Net.lean ====
/-
  A relational graph network, stated once on the extended reals.

  One layer takes node features `h` (one row per node), projects them with a relation's weight matrix, lets the graph
  gather and average the projected rows along the edges of that relation (`agg`, whatever that aggregation is), and
  combines, at node `r` and feature `j`,

      out (r, j) = max ((agg (r, j) + (h · w) (r, j)) + b (j)) 0 .

  Two such layers along each of two metapaths give two feature arrays; they are laid side by side and go through a
  two-layer perceptron, whose 16 outputs per node are turned into log-probabilities: with `L` the outputs and
  `M (r)` the largest entry of row `r`,

      result (r, j) = (L (r, j) - M (r)) - log (∑ k, exp (L (r, k) - M (r))) .

  Every dense step acts on each row by itself, so a block of consecutive rows of the inputs gives the same block of
  rows of the result: that is what lets a computation done two thousand rows at a time be compared with one done on
  the whole array. The aggregation mixes rows; it enters here only as a parameter.
-/
import Idealize.ShloMosaic.Lib.ValueIdx
import Idealize.ShloMosaic.PureOps.Ideal.Laws
import proofs.«125463_j19267223290692_1_alg».proof.Proof.LibMatProduct
import proofs.«125463_j19267223290692_1_alg».proof.Proof.LibRowBias
import proofs.«125463_j19267223290692_1_alg».proof.Proof.LibRowBlocks

noncomputable section

namespace Cert.Mp

open Idealize.ShloMosaic Idealize.ShloMosaic.ValueIdx
open Cert.MatProduct (prod rowOf colOf)
open Cert.RowBias (addRow addRowMax)
open Cert.Bridge (RowsAt)

/-- An array of `R` rows and `N` columns of extended reals. -/
abbrev Arr (R N : ℕ) : Type := (⟨2, ![R, N]⟩ : Shape).Idx → EReal

/-- The zero every maximum is taken against (the 32-bit format's zero word, never evaluated). -/
abbrev z0 : EReal := Ideal.ofBits .f32 0x00000000#32

/-- The dense part of one layer: the aggregated rows plus the node's own projected row plus the bias, floored at zero. -/
def dense {R : ℕ} (agg h : Arr R 256) (w : Arr 256 256) (b : Arr 1 256) : Arr R 256 :=
  addRowMax (fun y => agg y + prod h w y) b z0

/-- The largest entry of row `r`, as the running maximum from the format's least value. -/
def rowMax {R N : ℕ} (L : Arr R N) (r : Fin R) : EReal :=
  (Finset.univ : Finset (Fin N)).fold max (Ideal.ofBits .f32 0xFF800000#32) fun k => L (ix2 r k)

/-- Log-probabilities of each row: the row shifted by its largest entry, minus the logarithm of the sum of the
    exponentials of the shifted row. -/
def logSoftmax {R N : ℕ} (L : Arr R N) : Arr R N := fun y =>
  (L y - rowMax L (rowOf y)) - Ideal.log (∑ k : Fin N, Ideal.exp (L (ix2 (rowOf y) k) - rowMax L (rowOf y)))

/-- The perceptron head on the joined features: a hidden layer floored at zero, an output layer, log-probabilities. -/
def head {R : ℕ} (X : Arr R 512) (w1 : Arr 512 256) (c1 : Arr 1 256) (w2 : Arr 256 16) (c2 : Arr 1 16) : Arr R 16 :=
  logSoftmax (addRow (prod (addRowMax (prod X w1) c1 z0) w2) c2)

/-- The whole network. `A0 … A3` are the four aggregations (each a function of the projected features), `J` lays two
    feature arrays side by side; the first metapath uses layers 0 and 1, the second layers 2 and 3, both start from `x`. -/
def net (A0 A1 A2 A3 : Arr 20000 256 → Arr 20000 256) (J : Arr 20000 256 → Arr 20000 256 → Arr 20000 512)
    (x : Arr 20000 256) (W0 W1 W2 W3 R0 R1 R2 R3 : Arr 256 256) (b0 b1 b2 b3 : Arr 1 256)
    (w1 : Arr 512 256) (c1 : Arr 1 256) (w2 : Arr 256 16) (c2 : Arr 1 16) : Arr 20000 16 :=
  let h1 := dense (A0 (prod x W0)) x R0 b0
  let h2 := dense (A1 (prod h1 W1)) h1 R1 b1
  let g1 := dense (A2 (prod x W2)) x R2 b2
  let g2 := dense (A3 (prod g1 W3)) g1 R3 b3
  head (J h2 g2) w1 c1 w2 c2

/-! ## Blocks of rows are kept -/

variable {M R N : ℕ} {o : ℕ}

/-- Adding a bias row and flooring keeps blocks of rows: the bias is the same for every row. -/
theorem rowsAt_addRowMax {x : Arr M N} {x' : Arr R N} (h : RowsAt o x x') (b : Arr 1 N) (z : EReal) :
    RowsAt o (addRowMax x b z) (addRowMax x' b z) :=
  fun p r j e => Cert.RowBias.addRowMax_entry_congr z (ix2 p j) (ix2 r j) (h p r j e) rfl

/-- Adding a bias row keeps blocks of rows. -/
theorem rowsAt_addRow {x : Arr M N} {x' : Arr R N} (h : RowsAt o x x') (b : Arr 1 N) :
    RowsAt o (addRow x b) (addRow x' b) :=
  fun p r j e => Cert.RowBias.addRow_entry_congr (ix2 p j) (ix2 r j) (h p r j e) rfl

/-- The dense part of a layer keeps blocks of rows. -/
theorem rowsAt_dense {a h : Arr M 256} {a' h' : Arr R 256} (ha : RowsAt o a a') (hh : RowsAt o h h')
    (w : Arr 256 256) (b : Arr 1 256) : RowsAt o (dense a h w b) (dense a' h' w b) :=
  rowsAt_addRowMax (RowsAt.map₂ (fun u v : EReal => u + v) ha (RowsAt.prod hh w)) b z0

/-- Log-probabilities keep blocks of rows: row `p` of the result reads row `p` only. -/
theorem rowsAt_logSoftmax {L : Arr M N} {L' : Arr R N} (h : RowsAt o L L') :
    RowsAt o (logSoftmax L) (logSoftmax L') := fun p r j e => by
  have hrow : (fun k : Fin N => L (ix2 p k)) = fun k : Fin N => L' (ix2 r k) := funext fun k => h p r k e
  have hmax : rowMax L p = rowMax L' r := congrArg (Finset.fold max (Ideal.ofBits .f32 0xFF800000#32) · Finset.univ) hrow
  show (L (ix2 p j) - rowMax L p) - Ideal.log (∑ k : Fin N, Ideal.exp (L (ix2 p k) - rowMax L p))
    = (L' (ix2 r j) - rowMax L' r) - Ideal.log (∑ k : Fin N, Ideal.exp (L' (ix2 r k) - rowMax L' r))
  rw [hmax, h p r j e]
  exact congrArg (fun s => (L' (ix2 r j) - rowMax L' r) - Ideal.log s)
    (Finset.sum_congr rfl fun k _ => by rw [h p r k e])

/-- The perceptron head keeps blocks of rows. -/
theorem rowsAt_head {X : Arr M 512} {X' : Arr R 512} (h : RowsAt o X X')
    (w1 : Arr 512 256) (c1 : Arr 1 256) (w2 : Arr 256 16) (c2 : Arr 1 16) :
    RowsAt o (head X w1 c1 w2 c2) (head X' w1 c1 w2 c2) :=
  rowsAt_logSoftmax (rowsAt_addRow (RowsAt.prod (rowsAt_addRowMax (RowsAt.prod h w1) c1 z0) w2) c2)

end Cert.Mp

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.Body.lean ====
/-
  What each kernel body computes on one block of rows, as the network's own functions of the block.

  The projection body multiplies a block of 2000 rows by a 256 × 256 matrix on the matrix unit, from a zero
  accumulator, its operands first narrowed to the 16-bit format: on the extended reals the narrowing is the identity
  and the unit's result is the product. The combining body adds the aggregated block, that product and the bias row
  spread down the rows, and floors at zero: the dense part of a layer. The last body runs the perceptron on a block
  of joined features and turns each row of 16 outputs into log-probabilities, the row's largest entry and the sum of
  exponentials taken along the lanes and spread back as columns.
-/
import proofs.«125463_j19267223290692_1_alg».proof.Proof.Gen.KernelIdeal.Skeleton
import proofs.«125463_j19267223290692_1_alg».proof.Proof.Net
import proofs.«125463_j19267223290692_1_alg».proof.Proof.LibColumn
import proofs.«125463_j19267223290692_1_alg».proof.Proof.LibHostRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen
open Cert.MatProduct (prod rowOf colOf eq_row_col matmul_zero_eq_prod)
open Cert.RowBias (addRow addRowMax spreadRow_apply)
open Cert.Mp

/-- The matrix unit on two operands narrowed to the 16-bit format, from the zero accumulator, is the product. -/
theorem narrowed_eq_prod {M K N : ℕ} (x : FVec Ideal ⟨2, ![M, K]⟩ .f32) (w : FVec Ideal ⟨2, ![K, N]⟩ .f32)
    (h1 : FTy.bf16.bits < FTy.f32.bits) :
    matmul (DotDims.plain M K N) none (truncf .bf16 x h1) (truncf .bf16 w h1)
      (constant (F := Ideal) ⟨2, ![M, N]⟩ .f32 0x00000000#32) = prod x w :=
  matmul_zero_eq_prod none (truncf .bf16 x h1) (truncf .bf16 w h1)

/-- The projection body: the block times the weight matrix. -/
theorem pay_proj (x : Vec Ideal S2000x256 .f32) (w : Vec Ideal S256x256 .f32) : k0_pay1 x w = prod x w := by
  unfold k0_pay1
  rw [shapeCast_self]
  exact narrowed_eq_prod x w _

/-- The projection body of the second layer of a metapath (one more identity cast on the block). -/
theorem pay_proj' (x : Vec Ideal S2000x256 .f32) (w : Vec Ideal S256x256 .f32) : k2_pay1 x w = prod x w := by
  unfold k2_pay1
  rw [shapeCast_self, shapeCast_self]
  exact narrowed_eq_prod x w _

/-- A sum with a spread bias row floored at the zero splat is `addRowMax`. -/
theorem floor_addRow {R N : ℕ} (a : FVec Ideal ⟨2, ![R, N]⟩ .f32) (b : FVec Ideal ⟨2, ![1, N]⟩ .f32)
    (hb : (⟨2, ![1, N]⟩ : Shape).Broadcasts ⟨2, ![R, N]⟩) :
    maximumf (addf a (broadcastTo ⟨2, ![R, N]⟩ b hb)) (broadcast ⟨2, ![R, N]⟩ (Scalar.ofBits (F := Ideal) .f32 0x00000000#32))
      = addRowMax a b z0 := by
  funext y
  rw [maximumf_apply, addf_apply, spreadRow_apply]
  rfl

/-- The combining body: the dense part of a layer on the block. -/
theorem pay_dense (h : Vec Ideal S2000x256 .f32) (w : Vec Ideal S256x256 .f32) (agg : Vec Ideal S2000x256 .f32)
    (b : Vec Ideal S1x256 .f32) : k1_pay1 h w agg b = dense agg h w b := by
  unfold k1_pay1
  rw [shapeCast_self, shapeCast_self, shapeCast_self]
  refine (floor_addRow _ b _).trans ?_
  unfold dense
  refine congrArg (fun a => addRowMax a b z0) (funext fun y => ?_)
  rw [addf_apply]
  exact congrArg (agg y + ·) (congrFun (narrowed_eq_prod h w bitsLt_bf16_f32) y)

/-- The combining body of the second layer of a metapath. -/
theorem pay_dense' (h : Vec Ideal S2000x256 .f32) (w : Vec Ideal S256x256 .f32) (agg : Vec Ideal S2000x256 .f32)
    (b : Vec Ideal S1x256 .f32) : k3_pay1 h w agg b = dense agg h w b := by
  unfold k3_pay1
  rw [shapeCast_self, shapeCast_self, shapeCast_self, shapeCast_self]
  refine (floor_addRow _ b _).trans ?_
  unfold dense
  refine congrArg (fun a => addRowMax a b z0) (funext fun y => ?_)
  rw [addf_apply]
  exact congrArg (agg y + ·) (congrFun (narrowed_eq_prod h w bitsLt_bf16_f32) y)

/-- The projection bodies of the second metapath compute the same products. -/
theorem pay_proj4 (x : Vec Ideal S2000x256 .f32) (w : Vec Ideal S256x256 .f32) : k4_pay1 x w = prod x w := by
  unfold k4_pay1
  rw [shapeCast_self]
  exact narrowed_eq_prod x w _

theorem pay_proj6 (x : Vec Ideal S2000x256 .f32) (w : Vec Ideal S256x256 .f32) : k6_pay1 x w = prod x w := by
  unfold k6_pay1
  rw [shapeCast_self, shapeCast_self]
  exact narrowed_eq_prod x w _

/-- The combining bodies of the second metapath compute the same dense parts. -/
theorem pay_dense5 (h : Vec Ideal S2000x256 .f32) (w : Vec Ideal S256x256 .f32) (agg : Vec Ideal S2000x256 .f32)
    (b : Vec Ideal S1x256 .f32) : k5_pay1 h w agg b = dense agg h w b := by
  unfold k5_pay1
  rw [shapeCast_self, shapeCast_self, shapeCast_self]
  refine (floor_addRow _ b _).trans ?_
  unfold dense
  refine congrArg (fun a => addRowMax a b z0) (funext fun y => ?_)
  rw [addf_apply]
  exact congrArg (agg y + ·) (congrFun (narrowed_eq_prod h w bitsLt_bf16_f32) y)

theorem pay_dense7 (h : Vec Ideal S2000x256 .f32) (w : Vec Ideal S256x256 .f32) (agg : Vec Ideal S2000x256 .f32)
    (b : Vec Ideal S1x256 .f32) : k7_pay1 h w agg b = dense agg h w b := by
  unfold k7_pay1
  rw [shapeCast_self, shapeCast_self, shapeCast_self, shapeCast_self]
  refine (floor_addRow _ b _).trans ?_
  unfold dense
  refine congrArg (fun a => addRowMax a b z0) (funext fun y => ?_)
  rw [addf_apply]
  exact congrArg (agg y + ·) (congrFun (narrowed_eq_prod h w bitsLt_bf16_f32) y)

/-! ## The head: log-probabilities along the lanes -/

/-- The largest entry along the lanes, kept as a column and spread back over the row, is the row's running maximum. -/
theorem laneMax_spread {R N : ℕ} (L : FVec Ideal ⟨2, ![R, N]⟩ .f32)
    (hred : (⟨2, ![R, N]⟩ : Shape).Reduces [1] ⟨1, ![R]⟩) (hφ : FKind.Formats .f32)
    (hacc : (0xFF800000#32 : BitVec FTy.f32.bits) = FKind.maximumf.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) :
    broadcastTo ⟨2, ![R, N]⟩ (shapeCast ⟨2, ![R, 1]⟩ (multiReduction .maximumf [1] ⟨1, ![R]⟩ L 0xFF800000#32 hred hφ hacc) hc) hb (ix2 p j)
      = rowMax L p := by
  rw [Cert.LibColumn.broadcastTo_a1_ab_apply, Cert.LibColumn.shapeCast_a_a1_apply, Ideal.multiReduction_maximumf_single]
  unfold rowMax
  refine congrArg (Finset.fold max (Ideal.ofBits .f32 0xFF800000#32) · Finset.univ) ?_
  funext k
  exact congrArg L (Cert.LibHostRowMax.lift_row hred p k)

/-- The sum along the lanes at row `p` is the sum of the row's entries. -/
theorem laneSum_row {R N : ℕ} (E : FVec Ideal ⟨2, ![R, N]⟩ .f32)
    (hred : (⟨2, ![R, N]⟩ : Shape).Reduces [1] ⟨1, ![R]⟩) (hφ : FKind.Formats .f32)
    (hacc : (0x00000000#32 : BitVec FTy.f32.bits) = FKind.add.neutral .f32 hφ) (p : Fin R) :
    multiReduction .add [1] ⟨1, ![R]⟩ E 0x00000000#32 hred hφ hacc (ix1 p) = ∑ k : Fin N, E (ix2 p k) := by
  refine (Ideal.multiReduction_add_single E 0x00000000#32 hred hφ hacc (ix1 p)).trans ?_
  refine Finset.sum_congr rfl fun k _ => congrArg E ?_
  exact Cert.LibHostRowMax.lift_row hred p k

/-- Shifting each row by its largest entry and subtracting the logarithm of the lane sum of the exponentials, both
    statistics kept as columns and spread back, is `logSoftmax`. -/
theorem lanes_logSoftmax {R N : ℕ} (L : FVec Ideal ⟨2, ![R, N]⟩ .f32)
    (hred : (⟨2, ![R, N]⟩ : Shape).Reduces [1] ⟨1, ![R]⟩) (hφ : FKind.Formats .f32)
    (haccM : (0xFF800000#32 : BitVec FTy.f32.bits) = FKind.maximumf.neutral .f32 hφ)
    (haccS : (0x00000000#32 : BitVec FTy.f32.bits) = FKind.add.neutral .f32 hφ)
    (hc : (⟨1, ![R]⟩ : Shape).ShapeCasts ⟨2, ![R, 1]⟩) (hb : (⟨2, ![R, 1]⟩ : Shape).Broadcasts ⟨2, ![R, N]⟩) :
    subf (subf L (broadcastTo ⟨2, ![R, N]⟩ (shapeCast ⟨2, ![R, 1]⟩ (multiReduction .maximumf [1] ⟨1, ![R]⟩ L 0xFF800000#32 hred hφ haccM) hc) hb))
      (broadcastTo ⟨2, ![R, N]⟩ (log (shapeCast ⟨2, ![R, 1]⟩ (multiReduction .add [1] ⟨1, ![R]⟩
        (exp (subf L (broadcastTo ⟨2, ![R, N]⟩ (shapeCast ⟨2, ![R, 1]⟩ (multiReduction .maximumf [1] ⟨1, ![R]⟩ L 0xFF800000#32 hred hφ haccM) hc) hb)))
        0x00000000#32 hred hφ haccS) hc)) hb)
      = logSoftmax L := by
  funext y
  rw [eq_row_col y]
  generalize rowOf y = p
  generalize colOf y = j
  rw [subf_apply, subf_apply, laneMax_spread, Cert.LibColumn.broadcastTo_a1_ab_apply]
  show (L (ix2 p j) - rowMax L p) - Ideal.log (shapeCast ⟨2, ![R, 1]⟩ (multiReduction .add [1] ⟨1, ![R]⟩
        (exp (subf L (broadcastTo ⟨2, ![R, N]⟩ (shapeCast ⟨2, ![R, 1]⟩ (multiReduction .maximumf [1] ⟨1, ![R]⟩ L 0xFF800000#32 hred hφ haccM) hc) hb)))
        0x00000000#32 hred hφ haccS) hc (ix2 p (0 : Fin 1))) = _
  rw [Cert.LibColumn.shapeCast_a_a1_apply, laneSum_row]
  show _ = (L (ix2 p j) - rowMax L p) - Ideal.log (∑ k : Fin N, Ideal.exp (L (ix2 p k) - rowMax L p))
  refine congrArg (fun s => (L (ix2 p j) - rowMax L p) - Ideal.log s) (Finset.sum_congr rfl fun k _ => ?_)
  show Ideal.exp (subf L _ (ix2 p k)) = _
  rw [subf_apply, laneMax_spread]

/-- A sum with a spread bias row is `addRow`. -/
theorem plus_row {R N : ℕ} (a : FVec Ideal ⟨2, ![R, N]⟩ .f32) (b : FVec Ideal ⟨2, ![1, N]⟩ .f32)
    (hb : (⟨2, ![1, N]⟩ : Shape).Broadcasts ⟨2, ![R, N]⟩) :
    addf a (broadcastTo ⟨2, ![R, N]⟩ b hb) = addRow a b := by
  funext y
  rw [addf_apply, spreadRow_apply]
  rfl

/-- The head's body: the perceptron on the block of joined features, then log-probabilities row by row. -/
theorem pay_head (X : Vec Ideal S2000x512 .f32) (w1 : Vec Ideal S512x256 .f32) (c1 : Vec Ideal S1x256 .f32)
    (w2 : Vec Ideal S256x16 .f32) (c2 : Vec Ideal S1x16 .f32) : k8_pay1 X w1 c1 w2 c2 = head X w1 c1 w2 c2 := by
  unfold k8_pay1
  dsimp only
  rw [shapeCast_self, shapeCast_self, shapeCast_self]
  have e1 : matmul dot_S2000x512_S512x256_S2000x256_1_0_0_1_n_n none (truncf .bf16 X bitsLt_bf16_f32) (truncf .bf16 w1 bitsLt_bf16_f32)
      (constant (F := Ideal) S2000x256 .f32 0x00000000#32) = prod X w1 := narrowed_eq_prod X w1 _
  rw [e1, floor_addRow]
  have e2 : matmul dot_S2000x256_S256x16_S2000x16_1_0_0_1_n_n none (truncf .bf16 (addRowMax (prod X w1) c1 z0) bitsLt_bf16_f32) (truncf .bf16 w2 bitsLt_bf16_f32)
      (constant (F := Ideal) S2000x16 .f32 0x00000000#32) = prod (addRowMax (prod X w1) c1 z0) w2 := narrowed_eq_prod _ w2 _
  rw [e2, plus_row]
  exact lanes_logSoftmax _ _ _ _ _ _ _

end Cert.KernelIdeal.Hand

end
-- ==== Proof.Blocks.lean ====
/-
  From blocks to whole arrays.

  Each kernel launch walks ten grid points; at point t it reads rows 2000·t … 2000·t + 1999 of its row-blocked operands,
  the whole of its weight and bias operands, and writes back rows 2000·t … of its result. Since every body is a function
  that acts on each row by itself (the product with a fixed matrix, a bias row, a floor, log-probabilities of a row), what
  point t writes back is exactly rows 2000·t … of that function of the WHOLE operands; and the ten blocks tile the 20000
  rows. So after the launch the result array holds the function of the whole operand arrays.
-/
import proofs.«125463_j19267223290692_1_alg».proof.Proof.Gen.KernelIdeal.Frame
import proofs.«125463_j19267223290692_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.MatProduct (prod rowOf colOf eq_row_col)
open Cert.Bridge (RowsAt)
open Cert.Mp

theorem hz : (![0, 0] : Fin 2 → Nat) = fun _ => 0 := funext fun a => by fin_cases a <;> rfl

/-- An array read through a map of indices that shifts the row by `o` and keeps the column is the stretch of rows from `o`. -/
theorem rowsAt_read {M R N : ℕ} (o : ℕ) (A : Arr R N)
    (emb : (⟨2, ![M, N]⟩ : Shape).Idx → (⟨2, ![R, N]⟩ : Shape).Idx)
    (h0 : ∀ y, (emb y 0).val = o + (y 0).val) (h1 : ∀ y, (emb y 1).val = (y 1).val) :
    RowsAt o (fun y => A (emb y)) A := fun p r j e => by
  refine congrArg A (funext fun a => Fin.ext ?_)
  match a with
  | ⟨0, _⟩ => exact (h0 _).trans e.symm
  | ⟨1, _⟩ => exact h1 _

/-- If `B` is the stretch of rows of `G` from `o`, then `G` read through such a map is `B`. -/
theorem read_eq_of_rowsAt {M R N : ℕ} {o : ℕ} {B : Arr M N} {G : Arr R N} (h : RowsAt o B G)
    (emb : (⟨2, ![M, N]⟩ : Shape).Idx → (⟨2, ![R, N]⟩ : Shape).Idx)
    (h0 : ∀ y, (emb y 0).val = o + (y 0).val) (h1 : ∀ y, (emb y 1).val = (y 1).val) :
    (fun y => G (emb y)) = B := funext fun y => by
  have e := h (rowOf y) ⟨(emb y 0).val, (emb y 0).isLt⟩ (colOf y) (h0 y)
  rw [← eq_row_col y] at e
  refine (congrArg G (funext fun a => Fin.ext ?_)).trans e.symm
  match a with
  | ⟨0, _⟩ => rfl
  | ⟨1, _⟩ => exact h1 y

section Regions

variable (V : (c : Dev nD) → (b : Ref sig .tc) → Buf (Elt Ideal) ((c : Thread nD τ).loc b))

/-! ## Launch 0: a projection -/

/-- The printed index maps of launch 0 over its grid: a row-blocked window sits at block row `t`, every other at the origin. -/
structure Idx0 (t : Fin cfg0.N) : Prop where
  r0 : win0_0.index t (0 : Fin 2) = t.val
  c0 : win0_0.index t (1 : Fin 2) = 0
  r1 : win0_1.index t (0 : Fin 2) = 0
  c1 : win0_1.index t (1 : Fin 2) = 0
  r2 : win0_2.index t (0 : Fin 2) = t.val
  c2 : win0_2.index t (1 : Fin 2) = 0
theorem idx0 (t : Fin cfg0.N) : Idx0 t :=
  let ⟨h0, h1, h2, h3, h4, h5⟩ := (by decide +kernel : ∀ t : Fin grid0.N, (win0_0.index t (0 : Fin 2) = t.val) ∧ (win0_0.index t (1 : Fin 2) = 0) ∧ (win0_1.index t (0 : Fin 2) = 0) ∧ (win0_1.index t (1 : Fin 2) = 0) ∧ (win0_2.index t (0 : Fin 2) = t.val) ∧ (win0_2.index t (1 : Fin 2) = 0)) t
  ⟨h0, h1, h2, h3, h4, h5⟩

theorem blkX0 (c : Dev nD) (t : Fin cfg0.N) : RowsAt (2000 * t.val) (iblk0 V c 0 t) (V c main_arg0) := by
  have e0 := (idx0 t).r0
  have e1 := (idx0 t).c0
  refine rowsAt_read (2000 * t.val) (V c main_arg0) (fun y => ((cfg0.win 0).blk t).view.emb y) (fun y => ?_) (fun y => ?_)
  · show win0_0.index t (0 : Fin 2) * 2000 + 1 * (y 0).val = 2000 * t.val + (y 0).val
    omega
  · show win0_0.index t (1 : Fin 2) * 256 + 1 * (y 1).val = (y 1).val
    omega

theorem blkW0 (c : Dev nD) (t : Fin cfg0.N) : iblk0 V c 1 t = V c main_v5 := by
  have e0 := (idx0 t).r1
  have e1 := (idx0 t).c1
  funext y
  show V c main_v5 (((cfg0.win 1).blk t).view.emb y) = V c main_v5 y
  refine congrArg (V c main_v5) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point `t` writes back is block `t` of that function of the whole operands. -/
theorem flushed0 (c : Dev nD) (t : Fin cfg0.N) :
    (dat0 V c).flushed 2 t = ((cfg0.win 2).blk t).view.read (Elt Ideal) (prod (V c main_arg0) (V c main_v5)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  rw [pay_proj, blkW0]
  have e4 := (idx0 t).r2
  have e5 := (idx0 t).c2
  refine (read_eq_of_rowsAt (RowsAt.prod (blkX0 V c t) (V c main_v5)) (fun y => ((cfg0.win 2).blk t).view.emb y) (fun y => ?_) (fun y => ?_)).symm
  · show win0_2.index t (0 : Fin 2) * 2000 + 1 * (y 0).val = 2000 * t.val + (y 0).val
    omega
  · show win0_2.index t (1 : Fin 2) * 256 + 1 * (y 1).val = (y 1).val
    omega

/-- An index of the result array is in point `t`'s block iff each coordinate is in the block's range. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v6).slice (win0_2.rect t)).set ↔ _
  rw [View.set_slice_whole, Rect.mem_set_unit]
  exact Iff.rfl

/-- The ten blocks tile the array: row `r` lies in the block of point `r / 2000`. -/
theorem cover0 (i : S20000x256.Idx) : ∃ t : Fin cfg0.N, (cfg0.win 2).flush t = true ∧ i ∈ ((cfg0.win 2).blk t).view.set := by
  have hN : cfg0.N = 10 := N_0
  have hi0 : (i 0).val < 20000 := (i 0).isLt
  have hi1 : (i 1).val < 256 := (i 1).isLt
  refine ⟨⟨(i 0).val / 2000, by omega⟩, flush0_2 _, ?_⟩
  rw [mem_blk0]
  have e4 := (idx0 ⟨(i 0).val / 2000, by omega⟩).r2
  have e5 := (idx0 ⟨(i 0).val / 2000, by omega⟩).c2
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e5]; omega

/-- After launch 0 its result array holds that function of its whole operand arrays. -/
theorem final0 (c : Dev nD) : (dat0 V c).arrAt 2 cfg0.N = prod (V c main_arg0) (V c main_v5) :=
  (dat0 V c).arrAt_eq_of_cover 2 (prod (V c main_arg0) (V c main_v5)) (fun t _ => flushed0 V c t) cover0

/-! ## Launch 1: the dense part of a layer -/

/-- The printed index maps of launch 1 over its grid: a row-blocked window sits at block row `t`, every other at the origin. -/
structure Idx1 (t : Fin cfg1.N) : Prop where
  r0 : win1_0.index t (0 : Fin 2) = t.val
  c0 : win1_0.index t (1 : Fin 2) = 0
  r1 : win1_1.index t (0 : Fin 2) = t.val
  c1 : win1_1.index t (1 : Fin 2) = 0
  r2 : win1_2.index t (0 : Fin 2) = 0
  c2 : win1_2.index t (1 : Fin 2) = 0
  r3 : win1_3.index t (0 : Fin 2) = 0
  c3 : win1_3.index t (1 : Fin 2) = 0
  r4 : win1_4.index t (0 : Fin 2) = t.val
  c4 : win1_4.index t (1 : Fin 2) = 0
theorem idx1 (t : Fin cfg1.N) : Idx1 t :=
  let ⟨h0, h1, h2, h3, h4, h5, h6, h7, h8, h9⟩ := (by decide +kernel : ∀ t : Fin grid1.N, (win1_0.index t (0 : Fin 2) = t.val) ∧ (win1_0.index t (1 : Fin 2) = 0) ∧ (win1_1.index t (0 : Fin 2) = t.val) ∧ (win1_1.index t (1 : Fin 2) = 0) ∧ (win1_2.index t (0 : Fin 2) = 0) ∧ (win1_2.index t (1 : Fin 2) = 0) ∧ (win1_3.index t (0 : Fin 2) = 0) ∧ (win1_3.index t (1 : Fin 2) = 0) ∧ (win1_4.index t (0 : Fin 2) = t.val) ∧ (win1_4.index t (1 : Fin 2) = 0)) t
  ⟨h0, h1, h2, h3, h4, h5, h6, h7, h8, h9⟩

theorem blkH1 (c : Dev nD) (t : Fin cfg1.N) : RowsAt (2000 * t.val) (iblk1 V c 0 t) (V c main_arg0) := by
  have e0 := (idx1 t).r0
  have e1 := (idx1 t).c0
  refine rowsAt_read (2000 * t.val) (V c main_arg0) (fun y => ((cfg1.win 0).blk t).view.emb y) (fun y => ?_) (fun y => ?_)
  · show win1_0.index t (0 : Fin 2) * 2000 + 1 * (y 0).val = 2000 * t.val + (y 0).val
    omega
  · show win1_0.index t (1 : Fin 2) * 256 + 1 * (y 1).val = (y 1).val
    omega

theorem blkA1 (c : Dev nD) (t : Fin cfg1.N) : RowsAt (2000 * t.val) (iblk1 V c 1 t) (V c main_v30) := by
  have e0 := (idx1 t).r1
  have e1 := (idx1 t).c1
  refine rowsAt_read (2000 * t.val) (V c main_v30) (fun y => ((cfg1.win 1).blk t).view.emb y) (fun y => ?_) (fun y => ?_)
  · show win1_1.index t (0 : Fin 2) * 2000 + 1 * (y 0).val = 2000 * t.val + (y 0).val
    omega
  · show win1_1.index t (1 : Fin 2) * 256 + 1 * (y 1).val = (y 1).val
    omega

theorem blkR1 (c : Dev nD) (t : Fin cfg1.N) : iblk1 V c 2 t = V c main_v32 := by
  have e0 := (idx1 t).r2
  have e1 := (idx1 t).c2
  funext y
  show V c main_v32 (((cfg1.win 2).blk t).view.emb y) = V c main_v32 y
  refine congrArg (V c main_v32) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

theorem blkB1 (c : Dev nD) (t : Fin cfg1.N) : iblk1 V c 3 t = V c main_v35 := by
  have e0 := (idx1 t).r3
  have e1 := (idx1 t).c3
  funext y
  show V c main_v35 (((cfg1.win 3).blk t).view.emb y) = V c main_v35 y
  refine congrArg (V c main_v35) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- What point `t` writes back is block `t` of that function of the whole operands. -/
theorem flushed1 (c : Dev nD) (t : Fin cfg1.N) :
    (dat1 V c).flushed 4 t = ((cfg1.win 4).blk t).view.read (Elt Ideal) (dense (V c main_v30) (V c main_arg0) (V c main_v32) (V c main_v35)) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S1x256) hz]
  rw [pay_dense, blkR1, blkB1]
  have e4 := (idx1 t).r4
  have e5 := (idx1 t).c4
  refine (read_eq_of_rowsAt (rowsAt_dense (blkA1 V c t) (blkH1 V c t) (V c main_v32) (V c main_v35)) (fun y => ((cfg1.win 4).blk t).view.emb y) (fun y => ?_) (fun y => ?_)).symm
  · show win1_4.index t (0 : Fin 2) * 2000 + 1 * (y 0).val = 2000 * t.val + (y 0).val
    omega
  · show win1_4.index t (1 : Fin 2) * 256 + 1 * (y 1).val = (y 1).val
    omega

/-- An index of the result array is in point `t`'s block iff each coordinate is in the block's range. -/
theorem mem_blk1 (t : Fin cfg1.N) (i : S20000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v36).slice (win1_4.rect t)).set ↔ _
  rw [View.set_slice_whole, Rect.mem_set_unit]
  exact Iff.rfl

/-- The ten blocks tile the array: row `r` lies in the block of point `r / 2000`. -/
theorem cover1 (i : S20000x256.Idx) : ∃ t : Fin cfg1.N, (cfg1.win 4).flush t = true ∧ i ∈ ((cfg1.win 4).blk t).view.set := by
  have hN : cfg1.N = 10 := N_1
  have hi0 : (i 0).val < 20000 := (i 0).isLt
  have hi1 : (i 1).val < 256 := (i 1).isLt
  refine ⟨⟨(i 0).val / 2000, by omega⟩, flush1_4 _, ?_⟩
  rw [mem_blk1]
  have e4 := (idx1 ⟨(i 0).val / 2000, by omega⟩).r4
  have e5 := (idx1 ⟨(i 0).val / 2000, by omega⟩).c4
  intro a
  match a with
  | ⟨0, _⟩ => show win1_4.index _ (0 : Fin 2) * 2000 ≤ (i 0).val ∧ (i 0).val < win1_4.index _ (0 : Fin 2) * 2000 + 2000; rw [e4]; show (i 0).val / 2000 * 2000 ≤ (i 0).val ∧ (i 0).val < (i 0).val / 2000 * 2000 + 2000; omega
  | ⟨1, _⟩ => show win1_4.index _ (1 : Fin 2) * 256 ≤ (i 1).val ∧ (i 1).val < win1_4.index _ (1 : Fin 2) * 256 + 256; rw [e5]; omega

/-- After launch 1 its result array holds that function of its whole operand arrays. -/
theorem final1 (c : Dev nD) : (dat1 V c).arrAt 4 cfg1.N = dense (V c main_v30) (V c main_arg0) (V c main_v32) (V c main_v35) :=
  (dat1 V c).arrAt_eq_of_cover 4 (dense (V c main_v30) (V c main_arg0) (V c main_v32) (V c main_v35)) (fun t _ => flushed1 V c t) cover1

/-! ## Launch 2: a projection -/

/-- The printed index maps of launch 2 over its grid: a row-blocked window sits at block row `t`, every other at the origin. -/
structure Idx2 (t : Fin cfg2.N) : Prop where
  r0 : win2_0.index t (0 : Fin 2) = t.val
  c0 : win2_0.index t (1 : Fin 2) = 0
  r1 : win2_1.index t (0 : Fin 2) = 0
  c1 : win2_1.index t (1 : Fin 2) = 0
  r2 : win2_2.index t (0 : Fin 2) = t.val
  c2 : win2_2.index t (1 : Fin 2) = 0
theorem idx2 (t : Fin cfg2.N) : Idx2 t :=
  let ⟨h0, h1, h2, h3, h4, h5⟩ := (by decide +kernel : ∀ t : Fin grid2.N, (win2_0.index t (0 : Fin 2) = t.val) ∧ (win2_0.index t (1 : Fin 2) = 0) ∧ (win2_1.index t (0 : Fin 2) = 0) ∧ (win2_1.index t (1 : Fin 2) = 0) ∧ (win2_2.index t (0 : Fin 2) = t.val) ∧ (win2_2.index t (1 : Fin 2) = 0)) t
  ⟨h0, h1, h2, h3, h4, h5⟩

theorem blkX2 (c : Dev nD) (t : Fin cfg2.N) : RowsAt (2000 * t.val) (iblk2 V c 0 t) (V c main_v36) := by
  have e0 := (idx2 t).r0
  have e1 := (idx2 t).c0
  refine rowsAt_read (2000 * t.val) (V c main_v36) (fun y => ((cfg2.win 0).blk t).view.emb y) (fun y => ?_) (fun y => ?_)
  · show win2_0.index t (0 : Fin 2) * 2000 + 1 * (y 0).val = 2000 * t.val + (y 0).val
    omega
  · show win2_0.index t (1 : Fin 2) * 256 + 1 * (y 1).val = (y 1).val
    omega

theorem blkW2 (c : Dev nD) (t : Fin cfg2.N) : iblk2 V c 1 t = V c main_v38 := by
  have e0 := (idx2 t).r1
  have e1 := (idx2 t).c1
  funext y
  show V c main_v38 (((cfg2.win 1).blk t).view.emb y) = V c main_v38 y
  refine congrArg (V c main_v38) (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- What point `t` writes back is block `t` of that function of the whole operands. -/
theorem flushed2 (c : Dev nD) (t : Fin cfg2.N) :
    (dat2 V c).flushed 2 t = ((cfg2.win 2).blk t).view.read (Elt Ideal) (prod (V c main_v36) (V c main_v38)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  rw [pay_proj', blkW2]
  have e4 := (idx2 t).r2
  have e5 := (idx2 t).c2
  refine (read_eq_of_rowsAt (RowsAt.prod (blkX2 V c t) (V c main_v38)) (fun y => ((cfg2.win 2).blk t).view.emb y) (fun y => ?_) (fun y => ?_)).symm
  · show win2_2.index t (0 : Fin 2) * 2000 + 1 * (y 0).val = 2000 * t.val + (y 0).val
    omega
  · show win2_2.index t (1 : Fin 2) * 256 + 1 * (y 1).val = (y 1).val
    omega

/-- An index of the result array is in point `t`'s block iff each coordinate is in the block's range. -/
theorem mem_blk2 (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v39).slice (win2_2.rect t)).set ↔ _
  rw [View.set_slice_whole, Rect.mem_set_unit]
  exact Iff.rfl

/-- The ten blocks tile the array: row `r` lies in the block of point `r / 2000`. -/
theorem cover2 (i : S20000x256.Idx) : ∃ t : Fin cfg2.N, (cfg2.win 2).flush t = true ∧ i ∈ ((cfg2.win 2).blk t).view.set := by
  have hN : cfg2.N = 10 := N_2
  have hi0 : (i 0).val < 20000 := (i 0).isLt
  have hi1 : (i 1).val < 256 := (i 1).isLt
  refine ⟨⟨(i 0).val / 2000, by omega⟩, flush2_2 _, ?_⟩
  rw [mem_blk2]
  have e4 := (idx2 ⟨(i 0).val / 2000, by omega⟩).r2
  have e5 := (idx2 ⟨(i 0).val / 2000, by omega⟩).c2
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 256 ≤ (i 1).val ∧ (i 1).val < win2_2.index _ (1 : Fin 2) * 256 + 256; rw [e5]; omega

/-- After launch 2 its result array holds that function of its whole operand arrays. -/
theorem final2 (c : Dev nD) : (dat2 V c).arrAt 2 cfg2.N = prod (V c main_v36) (V c main_v38) :=
  (dat2 V c).arrAt_eq_of_cover 2 (prod (V c main_v36) (V c main_v38)) (fun t _ => flushed2 V c t) cover2

/-! ## Launch 3: the dense part of a layer -/

/-- The printed index maps of launch 3 over its grid: a row-blocked window sits at block row `t`, every other at the origin. -/
structure Idx3 (t : Fin cfg3.N) : Prop where
  r0 : win3_0.index t (0 : Fin 2) = t.val
  c0 : win3_0.index t (1 : Fin 2) = 0
  r1 : win3_1.index t (0 : Fin 2) = t.val
  c1 : win3_1.index t (1 : Fin 2) = 0
  r2 : win3_2.index t (0 : Fin 2) = 0
  c2 : win3_2.index t (1 : Fin 2) = 0
  r3 : win3_3.index t (0 : Fin 2) = 0
  c3 : win3_3.index t (1 : Fin 2) = 0
  r4 : win3_4.index t (0 : Fin 2) = t.val
  c4 : win3_4.index t (1 : Fin 2) = 0
theorem idx3 (t : Fin cfg3.N) : Idx3 t :=
  let ⟨h0, h1, h2, h3, h4, h5, h6, h7, h8, h9⟩ := (by decide +kernel : ∀ t : Fin grid3.N, (win3_0.index t (0 : Fin 2) = t.val) ∧ (win3_0.index t (1 : Fin 2) = 0) ∧ (win3_1.index t (0 : Fin 2) = t.val) ∧ (win3_1.index t (1 : Fin 2) = 0) ∧ (win3_2.index t (0 : Fin 2) = 0) ∧ (win3_2.index t (1 : Fin 2) = 0) ∧ (win3_3.index t (0 : Fin 2) = 0) ∧ (win3_3.index t (1 : Fin 2) = 0) ∧ (win3_4.index t (0 : Fin 2) = t.val) ∧ (win3_4.index t (1 : Fin 2) = 0)) t
  ⟨h0, h1, h2, h3, h4, h5, h6, h7, h8, h9⟩

theorem blkH3 (c : Dev nD) (t : Fin cfg3.N) : RowsAt (2000 * t.val) (iblk3 V c 0 t) (V c main_v36) := by
  have e0 := (idx3 t).r0
  have e1 := (idx3 t).c0
  refine rowsAt_read (2000 * t.val) (V c main_v36) (fun y => ((cfg3.win 0).blk t).view.emb y) (fun y => ?_) (fun y => ?_)
  · show win3_0.index t (0 : Fin 2) * 2000 + 1 * (y 0).val = 2000 * t.val + (y 0).val
    omega
  · show win3_0.index t (1 : Fin 2) * 256 + 1 * (y 1).val = (y 1).val
    omega

theorem blkA3 (c : Dev nD) (t : Fin cfg3.N) : RowsAt (2000 * t.val) (iblk3 V c 1 t) (V c main_v63) := by
  have e0 := (idx3 t).r1
  have e1 := (idx3 t).c1
  refine rowsAt_read (2000 * t.val) (V c main_v63) (fun y => ((cfg3.win 1).blk t).view.emb y) (fun y => ?_) (fun y => ?_)
  · show win3_1.index t (0 : Fin 2) * 2000 + 1 * (y 0).val = 2000 * t.val + (y 0).val
    omega
  · show win3_1.index t (1 : Fin 2) * 256 + 1 * (y 1).val = (y 1).val
    omega

theorem blkR3 (c : Dev nD) (t : Fin cfg3.N) : iblk3 V c 2 t = V c main_v65 := by
  have e0 := (idx3 t).r2
  have e1 := (idx3 t).c2
  funext y
  show V c main_v65 (((cfg3.win 2).blk t).view.emb y) = V c main_v65 y
  refine congrArg (V c main_v65) (funext fun a => Fin.ext ?_)
  match a with
  | ⟨0, _⟩ => show win3_2.index t (0 : Fin 2) * 256 + 1 * (y 0).val = (y 0).val; omega
  | ⟨1, _⟩ => show win3_2.index t (1 : Fin 2) * 256 + 1 * (y 1).val = (y 1).val; omega

theorem blkB3 (c : Dev nD) (t : Fin cfg3.N) : iblk3 V c 3 t = V c main_v68 := by
  have e0 := (idx3 t).r3
  have e1 := (idx3 t).c3
  funext y
  show V c main_v68 (((cfg3.win 3).blk t).view.emb y) = V c main_v68 y
  refine congrArg (V c main_v68) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- What point `t` writes back is block `t` of that function of the whole operands. -/
theorem flushed3 (c : Dev nD) (t : Fin cfg3.N) :
    (dat3 V c).flushed 4 t = ((cfg3.win 4).blk t).view.read (Elt Ideal) (dense (V c main_v63) (V c main_v36) (V c main_v65) (V c main_v68)) := by
  show (cfg3.win 4).cut (grid3.coords t) ((dat3 V c).after 4 t) = _
  rw [after3_4]
  unfold out3_4
  rw [View.canon_unit_zero hz]
  simp only [View.ld_unit_zero (S := S2000x256) hz, View.ld_unit_zero (S := S256x256) hz, View.ld_unit_zero (S := S1x256) hz]
  rw [pay_dense', blkR3, blkB3]
  have e4 := (idx3 t).r4
  have e5 := (idx3 t).c4
  refine (read_eq_of_rowsAt (rowsAt_dense (blkA3 V c t) (blkH3 V c t) (V c main_v65) (V c main_v68)) (fun y => ((cfg3.win 4).blk t).view.emb y) (fun y => ?_) (fun y => ?_)).symm
  · show win3_4.index t (0 : Fin 2) * 2000 + 1 * (y 0).val = 2000 * t.val + (y 0).val
    omega
  · show win3_4.index t (1 : Fin 2) * 256 + 1 * (y 1).val = (y 1).val
    omega

/-- An index of the result array is in point `t`'s block iff each coordinate is in the block's range. -/
theorem mem_blk3 (t : Fin cfg3.N) (i : S20000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v69).slice (win3_4.rect t)).set ↔ _
  rw [View.set_slice_whole, Rect.mem_set_unit]
  exact Iff.rfl

/-- The ten blocks tile the array: row `r` lies in the block of point `r / 2000`. -/
theorem cover3 (i : S20000x256.Idx) : ∃ t : Fin cfg3.N, (cfg3.win 4).flush t = true ∧ i ∈ ((cfg3.win 4).blk t).view.set := by
  have hN : cfg3.N = 10 := N_3
  have hi0 : (i 0).val < 20000 := (i 0).isLt
  have hi1 : (i 1).val < 256 := (i 1).isLt
  refine ⟨⟨(i 0).val / 2000, by omega⟩, flush3_4 _, ?_⟩
  rw [mem_blk3]
  have e4 := (idx3 ⟨(i 0).val / 2000, by omega⟩).r4
  have e5 := (idx3 ⟨(i 0).val / 2000, by omega⟩).c4
  intro a
  match a with
  | ⟨0, _⟩ => show win3_4.index _ (0 : Fin 2) * 2000 ≤ (i 0).val ∧ (i 0).val < win3_4.index _ (0 : Fin 2) * 2000 + 2000; rw [e4]; show (i 0).val / 2000 * 2000 ≤ (i 0).val ∧ (i 0).val < (i 0).val / 2000 * 2000 + 2000; omega
  | ⟨1, _⟩ => show win3_4.index _ (1 : Fin 2) * 256 ≤ (i 1).val ∧ (i 1).val < win3_4.index _ (1 : Fin 2) * 256 + 256; rw [e5]; omega

/-- After launch 3 its result array holds that function of its whole operand arrays. -/
theorem final3 (c : Dev nD) : (dat3 V c).arrAt 4 cfg3.N = dense (V c main_v63) (V c main_v36) (V c main_v65) (V c main_v68) :=
  (dat3 V c).arrAt_eq_of_cover 4 (dense (V c main_v63) (V c main_v36) (V c main_v65) (V c main_v68)) (fun t _ => flushed3 V c t) cover3

/-! ## Launch 4: a projection -/

/-- The printed index maps of launch 4 over its grid: a row-blocked window sits at block row `t`, every other at the origin. -/
structure Idx4 (t : Fin cfg4.N) : Prop where
  r0 : win4_0.index t (0 : Fin 2) = t.val
  c0 : win4_0.index t (1 : Fin 2) = 0
  r1 : win4_1.index t (0 : Fin 2) = 0
  c1 : win4_1.index t (1 : Fin 2) = 0
  r2 : win4_2.index t (0 : Fin 2) = t.val
  c2 : win4_2.index t (1 : Fin 2) = 0
theorem idx4 (t : Fin cfg4.N) : Idx4 t :=
  let ⟨h0, h1, h2, h3, h4, h5⟩ := (by decide +kernel : ∀ t : Fin grid4.N, (win4_0.index t (0 : Fin 2) = t.val) ∧ (win4_0.index t (1 : Fin 2) = 0) ∧ (win4_1.index t (0 : Fin 2) = 0) ∧ (win4_1.index t (1 : Fin 2) = 0) ∧ (win4_2.index t (0 : Fin 2) = t.val) ∧ (win4_2.index t (1 : Fin 2) = 0)) t
  ⟨h0, h1, h2, h3, h4, h5⟩

theorem blkX4 (c : Dev nD) (t : Fin cfg4.N) : RowsAt (2000 * t.val) (iblk4 V c 0 t) (V c main_arg0) := by
  have e0 := (idx4 t).r0
  have e1 := (idx4 t).c0
  refine rowsAt_read (2000 * t.val) (V c main_arg0) (fun y => ((cfg4.win 0).blk t).view.emb y) (fun y => ?_) (fun y => ?_)
  · show win4_0.index t (0 : Fin 2) * 2000 + 1 * (y 0).val = 2000 * t.val + (y 0).val
    omega
  · show win4_0.index t (1 : Fin 2) * 256 + 1 * (y 1).val = (y 1).val
    omega

theorem blkW4 (c : Dev nD) (t : Fin cfg4.N) : iblk4 V c 1 t = V c main_v71 := by
  have e0 := (idx4 t).r1
  have e1 := (idx4 t).c1
  funext y
  show V c main_v71 (((cfg4.win 1).blk t).view.emb y) = V c main_v71 y
  refine congrArg (V c main_v71) (funext fun a => Fin.ext ?_)
  match a with
  | ⟨0, _⟩ => show win4_1.index t (0 : Fin 2) * 256 + 1 * (y 0).val = (y 0).val; omega
  | ⟨1, _⟩ => show win4_1.index t (1 : Fin 2) * 256 + 1 * (y 1).val = (y 1).val; omega

/-- What point `t` writes back is block `t` of that function of the whole operands. -/
theorem flushed4 (c : Dev nD) (t : Fin cfg4.N) :
    (dat4 V c).flushed 2 t = ((cfg4.win 2).blk t).view.read (Elt Ideal) (prod (V c main_arg0) (V c main_v71)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x256) hz]
  rw [pay_proj4, blkW4]
  have e4 := (idx4 t).r2
  have e5 := (idx4 t).c2
  refine (read_eq_of_rowsAt (RowsAt.prod (blkX4 V c t) (V c main_v71)) (fun y => ((cfg4.win 2).blk t).view.emb y) (fun y => ?_) (fun y => ?_)).symm
  · show win4_2.index t (0 : Fin 2) * 2000 + 1 * (y 0).val = 2000 * t.val + (y 0).val
    omega
  · show win4_2.index t (1 : Fin 2) * 256 + 1 * (y 1).val = (y 1).val
    omega

/-- An index of the result array is in point `t`'s block iff each coordinate is in the block's range. -/
theorem mem_blk4 (t : Fin cfg4.N) (i : S20000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v72).slice (win4_2.rect t)).set ↔ _
  rw [View.set_slice_whole, Rect.mem_set_unit]
  exact Iff.rfl

/-- The ten blocks tile the array: row `r` lies in the block of point `r / 2000`. -/
theorem cover4 (i : S20000x256.Idx) : ∃ t : Fin cfg4.N, (cfg4.win 2).flush t = true ∧ i ∈ ((cfg4.win 2).blk t).view.set := by
  have hN : cfg4.N = 10 := N_4
  have hi0 : (i 0).val < 20000 := (i 0).isLt
  have hi1 : (i 1).val < 256 := (i 1).isLt
  refine ⟨⟨(i 0).val / 2000, by omega⟩, flush4_2 _, ?_⟩
  rw [mem_blk4]
  have e4 := (idx4 ⟨(i 0).val / 2000, by omega⟩).r2
  have e5 := (idx4 ⟨(i 0).val / 2000, by omega⟩).c2
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 256 ≤ (i 1).val ∧ (i 1).val < win4_2.index _ (1 : Fin 2) * 256 + 256; rw [e5]; omega

/-- After launch 4 its result array holds that function of its whole operand arrays. -/
theorem final4 (c : Dev nD) : (dat4 V c).arrAt 2 cfg4.N = prod (V c main_arg0) (V c main_v71) :=
  (dat4 V c).arrAt_eq_of_cover 2 (prod (V c main_arg0) (V c main_v71)) (fun t _ => flushed4 V c t) cover4

/-! ## Launch 5: the dense part of a layer -/

/-- The printed index maps of launch 5 over its grid: a row-blocked window sits at block row `t`, every other at the origin. -/
structure Idx5 (t : Fin cfg5.N) : Prop where
  r0 : win5_0.index t (0 : Fin 2) = t.val
  c0 : win5_0.index t (1 : Fin 2) = 0
  r1 : win5_1.index t (0 : Fin 2) = t.val
  c1 : win5_1.index t (1 : Fin 2) = 0
  r2 : win5_2.index t (0 : Fin 2) = 0
  c2 : win5_2.index t (1 : Fin 2) = 0
  r3 : win5_3.index t (0 : Fin 2) = 0
  c3 : win5_3.index t (1 : Fin 2) = 0
  r4 : win5_4.index t (0 : Fin 2) = t.val
  c4 : win5_4.index t (1 : Fin 2) = 0
theorem idx5 (t : Fin cfg5.N) : Idx5 t :=
  let ⟨h0, h1, h2, h3, h4, h5, h6, h7, h8, h9⟩ := (by decide +kernel : ∀ t : Fin grid5.N, (win5_0.index t (0 : Fin 2) = t.val) ∧ (win5_0.index t (1 : Fin 2) = 0) ∧ (win5_1.index t (0 : Fin 2) = t.val) ∧ (win5_1.index t (1 : Fin 2) = 0) ∧ (win5_2.index t (0 : Fin 2) = 0) ∧ (win5_2.index t (1 : Fin 2) = 0) ∧ (win5_3.index t (0 : Fin 2) = 0) ∧ (win5_3.index t (1 : Fin 2) = 0) ∧ (win5_4.index t (0 : Fin 2) = t.val) ∧ (win5_4.index t (1 : Fin 2) = 0)) t
  ⟨h0, h1, h2, h3, h4, h5, h6, h7, h8, h9⟩

theorem blkH5 (c : Dev nD) (t : Fin cfg5.N) : RowsAt (2000 * t.val) (iblk5 V c 0 t) (V c main_arg0) := by
  have e0 := (idx5 t).r0
  have e1 := (idx5 t).c0
  refine rowsAt_read (2000 * t.val) (V c main_arg0) (fun y => ((cfg5.win 0).blk t).view.emb y) (fun y => ?_) (fun y => ?_)
  · show win5_0.index t (0 : Fin 2) * 2000 + 1 * (y 0).val = 2000 * t.val + (y 0).val
    omega
  · show win5_0.index t (1 : Fin 2) * 256 + 1 * (y 1).val = (y 1).val
    omega

theorem blkA5 (c : Dev nD) (t : Fin cfg5.N) : RowsAt (2000 * t.val) (iblk5 V c 1 t) (V c main_v96) := by
  have e0 := (idx5 t).r1
  have e1 := (idx5 t).c1
  refine rowsAt_read (2000 * t.val) (V c main_v96) (fun y => ((cfg5.win 1).blk t).view.emb y) (fun y => ?_) (fun y => ?_)
  · show win5_1.index t (0 : Fin 2) * 2000 + 1 * (y 0).val = 2000 * t.val + (y 0).val
    omega
  · show win5_1.index t (1 : Fin 2) * 256 + 1 * (y 1).val = (y 1).val
    omega

theorem blkR5 (c : Dev nD) (t : Fin cfg5.N) : iblk5 V c 2 t = V c main_v98 := by
  have e0 := (idx5 t).r2
  have e1 := (idx5 t).c2
  funext y
  show V c main_v98 (((cfg5.win 2).blk t).view.emb y) = V c main_v98 y
  refine congrArg (V c main_v98) (funext fun a => Fin.ext ?_)
  match a with
  | ⟨0, _⟩ => show win5_2.index t (0 : Fin 2) * 256 + 1 * (y 0).val = (y 0).val; omega
  | ⟨1, _⟩ => show win5_2.index t (1 : Fin 2) * 256 + 1 * (y 1).val = (y 1).val; omega

theorem blkB5 (c : Dev nD) (t : Fin cfg5.N) : iblk5 V c 3 t = V c main_v101 := by
  have e0 := (idx5 t).r3
  have e1 := (idx5 t).c3
  funext y
  show V c main_v101 (((cfg5.win 3).blk t).view.emb y) = V c main_v101 y
  refine congrArg (V c main_v101) (funext fun a => Fin.ext ?_)
  match a with
  | ⟨0, _⟩ => show win5_3.index t (0 : Fin 2) * 1 + 1 * (y 0).val = (y 0).val; omega
  | ⟨1, _⟩ => show win5_3.index t (1 : Fin 2) * 256 + 1 * (y 1).val = (y 1).val; omega

/-- What point `t` writes back is block `t` of that function of the whole operands. -/
theorem flushed5 (c : Dev nD) (t : Fin cfg5.N) :
    (dat5 V c).flushed 4 t = ((cfg5.win 4).blk t).view.read (Elt Ideal) (dense (V c main_v96) (V c main_arg0) (V c main_v98) (V c main_v101)) := by
  show (cfg5.win 4).cut (grid5.coords t) ((dat5 V c).after 4 t) = _
  rw [after5_4]
  unfold out5_4
  rw [View.canon_unit_zero hz]
  simp only [View.ld_unit_zero (S := S2000x256) hz, View.ld_unit_zero (S := S256x256) hz, View.ld_unit_zero (S := S1x256) hz]
  rw [pay_dense5, blkR5, blkB5]
  have e4 := (idx5 t).r4
  have e5 := (idx5 t).c4
  refine (read_eq_of_rowsAt (rowsAt_dense (blkA5 V c t) (blkH5 V c t) (V c main_v98) (V c main_v101)) (fun y => ((cfg5.win 4).blk t).view.emb y) (fun y => ?_) (fun y => ?_)).symm
  · show win5_4.index t (0 : Fin 2) * 2000 + 1 * (y 0).val = 2000 * t.val + (y 0).val
    omega
  · show win5_4.index t (1 : Fin 2) * 256 + 1 * (y 1).val = (y 1).val
    omega

/-- An index of the result array is in point `t`'s block iff each coordinate is in the block's range. -/
theorem mem_blk5 (t : Fin cfg5.N) (i : S20000x256.Idx) :
    i ∈ ((cfg5.win 4).blk t).view.set ↔ ∀ a : Fin 2, win5_4.index t a * S2000x256.size a ≤ (i a).val ∧ (i a).val < win5_4.index t a * S2000x256.size a + S2000x256.size a := by
  show i ∈ ((View.whole main_v102).slice (win5_4.rect t)).set ↔ _
  rw [View.set_slice_whole, Rect.mem_set_unit]
  exact Iff.rfl

/-- The ten blocks tile the array: row `r` lies in the block of point `r / 2000`. -/
theorem cover5 (i : S20000x256.Idx) : ∃ t : Fin cfg5.N, (cfg5.win 4).flush t = true ∧ i ∈ ((cfg5.win 4).blk t).view.set := by
  have hN : cfg5.N = 10 := N_5
  have hi0 : (i 0).val < 20000 := (i 0).isLt
  have hi1 : (i 1).val < 256 := (i 1).isLt
  refine ⟨⟨(i 0).val / 2000, by omega⟩, flush5_4 _, ?_⟩
  rw [mem_blk5]
  have e4 := (idx5 ⟨(i 0).val / 2000, by omega⟩).r4
  have e5 := (idx5 ⟨(i 0).val / 2000, by omega⟩).c4
  intro a
  match a with
  | ⟨0, _⟩ => show win5_4.index _ (0 : Fin 2) * 2000 ≤ (i 0).val ∧ (i 0).val < win5_4.index _ (0 : Fin 2) * 2000 + 2000; rw [e4]; show (i 0).val / 2000 * 2000 ≤ (i 0).val ∧ (i 0).val < (i 0).val / 2000 * 2000 + 2000; omega
  | ⟨1, _⟩ => show win5_4.index _ (1 : Fin 2) * 256 ≤ (i 1).val ∧ (i 1).val < win5_4.index _ (1 : Fin 2) * 256 + 256; rw [e5]; omega

/-- After launch 5 its result array holds that function of its whole operand arrays. -/
theorem final5 (c : Dev nD) : (dat5 V c).arrAt 4 cfg5.N = dense (V c main_v96) (V c main_arg0) (V c main_v98) (V c main_v101) :=
  (dat5 V c).arrAt_eq_of_cover 4 (dense (V c main_v96) (V c main_arg0) (V c main_v98) (V c main_v101)) (fun t _ => flushed5 V c t) cover5

/-! ## Launch 6: a projection -/

/-- The printed index maps of launch 6 over its grid: a row-blocked window sits at block row `t`, every other at the origin. -/
structure Idx6 (t : Fin cfg6.N) : Prop where
  r0 : win6_0.index t (0 : Fin 2) = t.val
  c0 : win6_0.index t (1 : Fin 2) = 0
  r1 : win6_1.index t (0 : Fin 2) = 0
  c1 : win6_1.index t (1 : Fin 2) = 0
  r2 : win6_2.index t (0 : Fin 2) = t.val
  c2 : win6_2.index t (1 : Fin 2) = 0
theorem idx6 (t : Fin cfg6.N) : Idx6 t :=
  let ⟨h0, h1, h2, h3, h4, h5⟩ := (by decide +kernel : ∀ t : Fin grid6.N, (win6_0.index t (0 : Fin 2) = t.val) ∧ (win6_0.index t (1 : Fin 2) = 0) ∧ (win6_1.index t (0 : Fin 2) = 0) ∧ (win6_1.index t (1 : Fin 2) = 0) ∧ (win6_2.index t (0 : Fin 2) = t.val) ∧ (win6_2.index t (1 : Fin 2) = 0)) t
  ⟨h0, h1, h2, h3, h4, h5⟩

theorem blkX6 (c : Dev nD) (t : Fin cfg6.N) : RowsAt (2000 * t.val) (iblk6 V c 0 t) (V c main_v102) := by
  have e0 := (idx6 t).r0
  have e1 := (idx6 t).c0
  refine rowsAt_read (2000 * t.val) (V c main_v102) (fun y => ((cfg6.win 0).blk t).view.emb y) (fun y => ?_) (fun y => ?_)
  · show win6_0.index t (0 : Fin 2) * 2000 + 1 * (y 0).val = 2000 * t.val + (y 0).val
    omega
  · show win6_0.index t (1 : Fin 2) * 256 + 1 * (y 1).val = (y 1).val
    omega

theorem blkW6 (c : Dev nD) (t : Fin cfg6.N) : iblk6 V c 1 t = V c main_v104 := by
  have e0 := (idx6 t).r1
  have e1 := (idx6 t).c1
  funext y
  show V c main_v104 (((cfg6.win 1).blk t).view.emb y) = V c main_v104 y
  refine congrArg (V c main_v104) (funext fun a => Fin.ext ?_)
  match a with
  | ⟨0, _⟩ => show win6_1.index t (0 : Fin 2) * 256 + 1 * (y 0).val = (y 0).val; omega
  | ⟨1, _⟩ => show win6_1.index t (1 : Fin 2) * 256 + 1 * (y 1).val = (y 1).val; omega

/-- What point `t` writes back is block `t` of that function of the whole operands. -/
theorem flushed6 (c : Dev nD) (t : Fin cfg6.N) :
    (dat6 V c).flushed 2 t = ((cfg6.win 2).blk t).view.read (Elt Ideal) (prod (V c main_v102) (V c main_v104)) := by
  show (cfg6.win 2).cut (grid6.coords t) ((dat6 V c).after 2 t) = _
  rw [after6_2]
  unfold out6_2
  rw [View.canon_unit_zero hz]
  simp only [View.ld_unit_zero (S := S2000x256) hz, View.ld_unit_zero (S := S256x256) hz]
  rw [pay_proj6, blkW6]
  have e4 := (idx6 t).r2
  have e5 := (idx6 t).c2
  refine (read_eq_of_rowsAt (RowsAt.prod (blkX6 V c t) (V c main_v104)) (fun y => ((cfg6.win 2).blk t).view.emb y) (fun y => ?_) (fun y => ?_)).symm
  · show win6_2.index t (0 : Fin 2) * 2000 + 1 * (y 0).val = 2000 * t.val + (y 0).val
    omega
  · show win6_2.index t (1 : Fin 2) * 256 + 1 * (y 1).val = (y 1).val
    omega

/-- An index of the result array is in point `t`'s block iff each coordinate is in the block's range. -/
theorem mem_blk6 (t : Fin cfg6.N) (i : S20000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v105).slice (win6_2.rect t)).set ↔ _
  rw [View.set_slice_whole, Rect.mem_set_unit]
  exact Iff.rfl

/-- The ten blocks tile the array: row `r` lies in the block of point `r / 2000`. -/
theorem cover6 (i : S20000x256.Idx) : ∃ t : Fin cfg6.N, (cfg6.win 2).flush t = true ∧ i ∈ ((cfg6.win 2).blk t).view.set := by
  have hN : cfg6.N = 10 := N_6
  have hi0 : (i 0).val < 20000 := (i 0).isLt
  have hi1 : (i 1).val < 256 := (i 1).isLt
  refine ⟨⟨(i 0).val / 2000, by omega⟩, flush6_2 _, ?_⟩
  rw [mem_blk6]
  have e4 := (idx6 ⟨(i 0).val / 2000, by omega⟩).r2
  have e5 := (idx6 ⟨(i 0).val / 2000, by omega⟩).c2
  intro a
  match a with
  | ⟨0, _⟩ => show win6_2.index _ (0 : Fin 2) * 2000 ≤ (i 0).val ∧ (i 0).val < win6_2.index _ (0 : Fin 2) * 2000 + 2000; rw [e4]; show (i 0).val / 2000 * 2000 ≤ (i 0).val ∧ (i 0).val < (i 0).val / 2000 * 2000 + 2000; omega
  | ⟨1, _⟩ => show win6_2.index _ (1 : Fin 2) * 256 ≤ (i 1).val ∧ (i 1).val < win6_2.index _ (1 : Fin 2) * 256 + 256; rw [e5]; omega

/-- After launch 6 its result array holds that function of its whole operand arrays. -/
theorem final6 (c : Dev nD) : (dat6 V c).arrAt 2 cfg6.N = prod (V c main_v102) (V c main_v104) :=
  (dat6 V c).arrAt_eq_of_cover 2 (prod (V c main_v102) (V c main_v104)) (fun t _ => flushed6 V c t) cover6

/-! ## Launch 7: the dense part of a layer -/

/-- The printed index maps of launch 7 over its grid: a row-blocked window sits at block row `t`, every other at the origin. -/
structure Idx7 (t : Fin cfg7.N) : Prop where
  r0 : win7_0.index t (0 : Fin 2) = t.val
  c0 : win7_0.index t (1 : Fin 2) = 0
  r1 : win7_1.index t (0 : Fin 2) = t.val
  c1 : win7_1.index t (1 : Fin 2) = 0
  r2 : win7_2.index t (0 : Fin 2) = 0
  c2 : win7_2.index t (1 : Fin 2) = 0
  r3 : win7_3.index t (0 : Fin 2) = 0
  c3 : win7_3.index t (1 : Fin 2) = 0
  r4 : win7_4.index t (0 : Fin 2) = t.val
  c4 : win7_4.index t (1 : Fin 2) = 0
theorem idx7 (t : Fin cfg7.N) : Idx7 t :=
  let ⟨h0, h1, h2, h3, h4, h5, h6, h7, h8, h9⟩ := (by decide +kernel : ∀ t : Fin grid7.N, (win7_0.index t (0 : Fin 2) = t.val) ∧ (win7_0.index t (1 : Fin 2) = 0) ∧ (win7_1.index t (0 : Fin 2) = t.val) ∧ (win7_1.index t (1 : Fin 2) = 0) ∧ (win7_2.index t (0 : Fin 2) = 0) ∧ (win7_2.index t (1 : Fin 2) = 0) ∧ (win7_3.index t (0 : Fin 2) = 0) ∧ (win7_3.index t (1 : Fin 2) = 0) ∧ (win7_4.index t (0 : Fin 2) = t.val) ∧ (win7_4.index t (1 : Fin 2) = 0)) t
  ⟨h0, h1, h2, h3, h4, h5, h6, h7, h8, h9⟩

theorem blkH7 (c : Dev nD) (t : Fin cfg7.N) : RowsAt (2000 * t.val) (iblk7 V c 0 t) (V c main_v102) := by
  have e0 := (idx7 t).r0
  have e1 := (idx7 t).c0
  refine rowsAt_read (2000 * t.val) (V c main_v102) (fun y => ((cfg7.win 0).blk t).view.emb y) (fun y => ?_) (fun y => ?_)
  · show win7_0.index t (0 : Fin 2) * 2000 + 1 * (y 0).val = 2000 * t.val + (y 0).val
    omega
  · show win7_0.index t (1 : Fin 2) * 256 + 1 * (y 1).val = (y 1).val
    omega

theorem blkA7 (c : Dev nD) (t : Fin cfg7.N) : RowsAt (2000 * t.val) (iblk7 V c 1 t) (V c main_v129) := by
  have e0 := (idx7 t).r1
  have e1 := (idx7 t).c1
  refine rowsAt_read (2000 * t.val) (V c main_v129) (fun y => ((cfg7.win 1).blk t).view.emb y) (fun y => ?_) (fun y => ?_)
  · show win7_1.index t (0 : Fin 2) * 2000 + 1 * (y 0).val = 2000 * t.val + (y 0).val
    omega
  · show win7_1.index t (1 : Fin 2) * 256 + 1 * (y 1).val = (y 1).val
    omega

theorem blkR7 (c : Dev nD) (t : Fin cfg7.N) : iblk7 V c 2 t = V c main_v131 := by
  have e0 := (idx7 t).r2
  have e1 := (idx7 t).c2
  funext y
  show V c main_v131 (((cfg7.win 2).blk t).view.emb y) = V c main_v131 y
  refine congrArg (V c main_v131) (funext fun a => Fin.ext ?_)
  match a with
  | ⟨0, _⟩ => show win7_2.index t (0 : Fin 2) * 256 + 1 * (y 0).val = (y 0).val; omega
  | ⟨1, _⟩ => show win7_2.index t (1 : Fin 2) * 256 + 1 * (y 1).val = (y 1).val; omega

theorem blkB7 (c : Dev nD) (t : Fin cfg7.N) : iblk7 V c 3 t = V c main_v134 := by
  have e0 := (idx7 t).r3
  have e1 := (idx7 t).c3
  funext y
  show V c main_v134 (((cfg7.win 3).blk t).view.emb y) = V c main_v134 y
  refine congrArg (V c main_v134) (funext fun a => Fin.ext ?_)
  match a with
  | ⟨0, _⟩ => show win7_3.index t (0 : Fin 2) * 1 + 1 * (y 0).val = (y 0).val; omega
  | ⟨1, _⟩ => show win7_3.index t (1 : Fin 2) * 256 + 1 * (y 1).val = (y 1).val; omega

/-- What point `t` writes back is block `t` of that function of the whole operands. -/
theorem flushed7 (c : Dev nD) (t : Fin cfg7.N) :
    (dat7 V c).flushed 4 t = ((cfg7.win 4).blk t).view.read (Elt Ideal) (dense (V c main_v129) (V c main_v102) (V c main_v131) (V c main_v134)) := by
  show (cfg7.win 4).cut (grid7.coords t) ((dat7 V c).after 4 t) = _
  rw [after7_4]
  unfold out7_4
  rw [View.canon_unit_zero hz]
  simp only [View.ld_unit_zero (S := S2000x256) hz, View.ld_unit_zero (S := S256x256) hz, View.ld_unit_zero (S := S1x256) hz]
  rw [pay_dense7, blkR7, blkB7]
  have e4 := (idx7 t).r4
  have e5 := (idx7 t).c4
  refine (read_eq_of_rowsAt (rowsAt_dense (blkA7 V c t) (blkH7 V c t) (V c main_v131) (V c main_v134)) (fun y => ((cfg7.win 4).blk t).view.emb y) (fun y => ?_) (fun y => ?_)).symm
  · show win7_4.index t (0 : Fin 2) * 2000 + 1 * (y 0).val = 2000 * t.val + (y 0).val
    omega
  · show win7_4.index t (1 : Fin 2) * 256 + 1 * (y 1).val = (y 1).val
    omega

/-- An index of the result array is in point `t`'s block iff each coordinate is in the block's range. -/
theorem mem_blk7 (t : Fin cfg7.N) (i : S20000x256.Idx) :
    i ∈ ((cfg7.win 4).blk t).view.set ↔ ∀ a : Fin 2, win7_4.index t a * S2000x256.size a ≤ (i a).val ∧ (i a).val < win7_4.index t a * S2000x256.size a + S2000x256.size a := by
  show i ∈ ((View.whole main_v135).slice (win7_4.rect t)).set ↔ _
  rw [View.set_slice_whole, Rect.mem_set_unit]
  exact Iff.rfl

/-- The ten blocks tile the array: row `r` lies in the block of point `r / 2000`. -/
theorem cover7 (i : S20000x256.Idx) : ∃ t : Fin cfg7.N, (cfg7.win 4).flush t = true ∧ i ∈ ((cfg7.win 4).blk t).view.set := by
  have hN : cfg7.N = 10 := N_7
  have hi0 : (i 0).val < 20000 := (i 0).isLt
  have hi1 : (i 1).val < 256 := (i 1).isLt
  refine ⟨⟨(i 0).val / 2000, by omega⟩, flush7_4 _, ?_⟩
  rw [mem_blk7]
  have e4 := (idx7 ⟨(i 0).val / 2000, by omega⟩).r4
  have e5 := (idx7 ⟨(i 0).val / 2000, by omega⟩).c4
  intro a
  match a with
  | ⟨0, _⟩ => show win7_4.index _ (0 : Fin 2) * 2000 ≤ (i 0).val ∧ (i 0).val < win7_4.index _ (0 : Fin 2) * 2000 + 2000; rw [e4]; show (i 0).val / 2000 * 2000 ≤ (i 0).val ∧ (i 0).val < (i 0).val / 2000 * 2000 + 2000; omega
  | ⟨1, _⟩ => show win7_4.index _ (1 : Fin 2) * 256 ≤ (i 1).val ∧ (i 1).val < win7_4.index _ (1 : Fin 2) * 256 + 256; rw [e5]; omega

/-- After launch 7 its result array holds that function of its whole operand arrays. -/
theorem final7 (c : Dev nD) : (dat7 V c).arrAt 4 cfg7.N = dense (V c main_v129) (V c main_v102) (V c main_v131) (V c main_v134) :=
  (dat7 V c).arrAt_eq_of_cover 4 (dense (V c main_v129) (V c main_v102) (V c main_v131) (V c main_v134)) (fun t _ => flushed7 V c t) cover7

/-! ## Launch 8: the perceptron head -/

/-- The printed index maps of launch 8 over its grid: a row-blocked window sits at block row `t`, every other at the origin. -/
structure Idx8 (t : Fin cfg8.N) : Prop where
  r0 : win8_0.index t (0 : Fin 2) = t.val
  c0 : win8_0.index t (1 : Fin 2) = 0
  r1 : win8_1.index t (0 : Fin 2) = 0
  c1 : win8_1.index t (1 : Fin 2) = 0
  r2 : win8_2.index t (0 : Fin 2) = 0
  c2 : win8_2.index t (1 : Fin 2) = 0
  r3 : win8_3.index t (0 : Fin 2) = 0
  c3 : win8_3.index t (1 : Fin 2) = 0
  r4 : win8_4.index t (0 : Fin 2) = 0
  c4 : win8_4.index t (1 : Fin 2) = 0
  r5 : win8_5.index t (0 : Fin 2) = t.val
  c5 : win8_5.index t (1 : Fin 2) = 0
theorem idx8 (t : Fin cfg8.N) : Idx8 t :=
  let ⟨h0, h1, h2, h3, h4, h5, h6, h7, h8, h9, h10, h11⟩ := (by decide +kernel : ∀ t : Fin grid8.N, (win8_0.index t (0 : Fin 2) = t.val) ∧ (win8_0.index t (1 : Fin 2) = 0) ∧ (win8_1.index t (0 : Fin 2) = 0) ∧ (win8_1.index t (1 : Fin 2) = 0) ∧ (win8_2.index t (0 : Fin 2) = 0) ∧ (win8_2.index t (1 : Fin 2) = 0) ∧ (win8_3.index t (0 : Fin 2) = 0) ∧ (win8_3.index t (1 : Fin 2) = 0) ∧ (win8_4.index t (0 : Fin 2) = 0) ∧ (win8_4.index t (1 : Fin 2) = 0) ∧ (win8_5.index t (0 : Fin 2) = t.val) ∧ (win8_5.index t (1 : Fin 2) = 0)) t
  ⟨h0, h1, h2, h3, h4, h5, h6, h7, h8, h9, h10, h11⟩

theorem blkX8 (c : Dev nD) (t : Fin cfg8.N) : RowsAt (2000 * t.val) (iblk8 V c 0 t) (V c main_v136) := by
  have e0 := (idx8 t).r0
  have e1 := (idx8 t).c0
  refine rowsAt_read (2000 * t.val) (V c main_v136) (fun y => ((cfg8.win 0).blk t).view.emb y) (fun y => ?_) (fun y => ?_)
  · show win8_0.index t (0 : Fin 2) * 2000 + 1 * (y 0).val = 2000 * t.val + (y 0).val
    omega
  · show win8_0.index t (1 : Fin 2) * 512 + 1 * (y 1).val = (y 1).val
    omega

theorem blkW18 (c : Dev nD) (t : Fin cfg8.N) : iblk8 V c 1 t = V c main_arg6 := by
  have e0 := (idx8 t).r1
  have e1 := (idx8 t).c1
  funext y
  show V c main_arg6 (((cfg8.win 1).blk t).view.emb y) = V c main_arg6 y
  refine congrArg (V c main_arg6) (funext fun a => Fin.ext ?_)
  match a with
  | ⟨0, _⟩ => show win8_1.index t (0 : Fin 2) * 512 + 1 * (y 0).val = (y 0).val; omega
  | ⟨1, _⟩ => show win8_1.index t (1 : Fin 2) * 256 + 1 * (y 1).val = (y 1).val; omega

theorem blkC18 (c : Dev nD) (t : Fin cfg8.N) : iblk8 V c 2 t = V c main_v137 := by
  have e0 := (idx8 t).r2
  have e1 := (idx8 t).c2
  funext y
  show V c main_v137 (((cfg8.win 2).blk t).view.emb y) = V c main_v137 y
  refine congrArg (V c main_v137) (funext fun a => Fin.ext ?_)
  match a with
  | ⟨0, _⟩ => show win8_2.index t (0 : Fin 2) * 1 + 1 * (y 0).val = (y 0).val; omega
  | ⟨1, _⟩ => show win8_2.index t (1 : Fin 2) * 256 + 1 * (y 1).val = (y 1).val; omega

theorem blkW28 (c : Dev nD) (t : Fin cfg8.N) : iblk8 V c 3 t = V c main_arg8 := by
  have e0 := (idx8 t).r3
  have e1 := (idx8 t).c3
  funext y
  show V c main_arg8 (((cfg8.win 3).blk t).view.emb y) = V c main_arg8 y
  refine congrArg (V c main_arg8) (funext fun a => Fin.ext ?_)
  match a with
  | ⟨0, _⟩ => show win8_3.index t (0 : Fin 2) * 256 + 1 * (y 0).val = (y 0).val; omega
  | ⟨1, _⟩ => show win8_3.index t (1 : Fin 2) * 16 + 1 * (y 1).val = (y 1).val; omega

theorem blkC28 (c : Dev nD) (t : Fin cfg8.N) : iblk8 V c 4 t = V c main_v138 := by
  have e0 := (idx8 t).r4
  have e1 := (idx8 t).c4
  funext y
  show V c main_v138 (((cfg8.win 4).blk t).view.emb y) = V c main_v138 y
  refine congrArg (V c main_v138) (funext fun a => Fin.ext ?_)
  match a with
  | ⟨0, _⟩ => show win8_4.index t (0 : Fin 2) * 1 + 1 * (y 0).val = (y 0).val; omega
  | ⟨1, _⟩ => show win8_4.index t (1 : Fin 2) * 16 + 1 * (y 1).val = (y 1).val; omega

/-- What point `t` writes back is block `t` of that function of the whole operands. -/
theorem flushed8 (c : Dev nD) (t : Fin cfg8.N) :
    (dat8 V c).flushed 5 t = ((cfg8.win 5).blk t).view.read (Elt Ideal) (head (V c main_v136) (V c main_arg6) (V c main_v137) (V c main_arg8) (V c main_v138)) := by
  show (cfg8.win 5).cut (grid8.coords t) ((dat8 V c).after 5 t) = _
  rw [after8_5]
  unfold out8_5
  rw [View.canon_unit_zero hz]
  simp only [View.ld_unit_zero (S := S2000x512) hz, View.ld_unit_zero (S := S512x256) hz, View.ld_unit_zero (S := S1x256) hz, View.ld_unit_zero (S := S256x16) hz, View.ld_unit_zero (S := S1x16) hz]
  rw [pay_head, blkW18, blkC18, blkW28, blkC28]
  have e4 := (idx8 t).r5
  have e5 := (idx8 t).c5
  refine (read_eq_of_rowsAt (rowsAt_head (blkX8 V c t) (V c main_arg6) (V c main_v137) (V c main_arg8) (V c main_v138)) (fun y => ((cfg8.win 5).blk t).view.emb y) (fun y => ?_) (fun y => ?_)).symm
  · show win8_5.index t (0 : Fin 2) * 2000 + 1 * (y 0).val = 2000 * t.val + (y 0).val
    omega
  · show win8_5.index t (1 : Fin 2) * 16 + 1 * (y 1).val = (y 1).val
    omega

/-- An index of the result array is in point `t`'s block iff each coordinate is in the block's range. -/
theorem mem_blk8 (t : Fin cfg8.N) (i : S20000x16.Idx) :
    i ∈ ((cfg8.win 5).blk t).view.set ↔ ∀ a : Fin 2, win8_5.index t a * S2000x16.size a ≤ (i a).val ∧ (i a).val < win8_5.index t a * S2000x16.size a + S2000x16.size a := by
  show i ∈ ((View.whole main_v139).slice (win8_5.rect t)).set ↔ _
  rw [View.set_slice_whole, Rect.mem_set_unit]
  exact Iff.rfl

/-- The ten blocks tile the array: row `r` lies in the block of point `r / 2000`. -/
theorem cover8 (i : S20000x16.Idx) : ∃ t : Fin cfg8.N, (cfg8.win 5).flush t = true ∧ i ∈ ((cfg8.win 5).blk t).view.set := by
  have hN : cfg8.N = 10 := N_8
  have hi0 : (i 0).val < 20000 := (i 0).isLt
  have hi1 : (i 1).val < 16 := (i 1).isLt
  refine ⟨⟨(i 0).val / 2000, by omega⟩, flush8_5 _, ?_⟩
  rw [mem_blk8]
  have e4 := (idx8 ⟨(i 0).val / 2000, by omega⟩).r5
  have e5 := (idx8 ⟨(i 0).val / 2000, by omega⟩).c5
  intro a
  match a with
  | ⟨0, _⟩ => show win8_5.index _ (0 : Fin 2) * 2000 ≤ (i 0).val ∧ (i 0).val < win8_5.index _ (0 : Fin 2) * 2000 + 2000; rw [e4]; show (i 0).val / 2000 * 2000 ≤ (i 0).val ∧ (i 0).val < (i 0).val / 2000 * 2000 + 2000; omega
  | ⟨1, _⟩ => show win8_5.index _ (1 : Fin 2) * 16 ≤ (i 1).val ∧ (i 1).val < win8_5.index _ (1 : Fin 2) * 16 + 16; rw [e5]; omega

/-- After launch 8 its result array holds that function of its whole operand arrays. -/
theorem final8 (c : Dev nD) : (dat8 V c).arrAt 5 cfg8.N = head (V c main_v136) (V c main_arg6) (V c main_v137) (V c main_arg8) (V c main_v138) :=
  (dat8 V c).arrAt_eq_of_cover 5 (head (V c main_v136) (V c main_arg6) (V c main_v137) (V c main_arg8) (V c main_v138)) (fun t _ => flushed8 V c t) cover8

end Regions

end Cert.KernelIdeal.Hand

end
-- ==== Proof.KVal.lean ====
/-
  The kernel program's result, followed launch by launch.

  Each launch leaves its result array at the network's function of its operand arrays (the blocks tile the rows); each
  host stretch between two launches leaves every buffer it writes at its operations' value of the buffers below. Walking
  the eighteen boundaries in order gives the projected features, the four layers, the joined features and finally the
  head's log-probabilities, all as the one network function of the ten argument arrays.
-/
import proofs.«125463_j19267223290692_1_alg».proof.Proof.KRun
import proofs.«125463_j19267223290692_1_alg».proof.Proof.KHost
import proofs.«125463_j19267223290692_1_alg».proof.Proof.Blocks

noncomputable section

namespace Cert.KernelIdeal.Hand

open Idealize.ShloMosaic Idealize.ShloMosaic.TcCoe Idealize.SL.Sem
open Cert.KernelIdeal Cert.KernelIdeal.Gen
open Cert.MatProduct (prod)
open Cert.Mp

variable (m : (ℓ : Loc nD τ sig) → Buf (Elt Ideal) ℓ) (ρ : Dev nD → PrngReg)

/-- The projected features of layer 0. -/
def kHr0 (c : Dev nD) : Arr 20000 256 := prod (m ((c : Thread nD τ).loc main_arg0)) (WK0 (m ((c : Thread nD τ).loc main_arg3)))
/-- The features after layer 0. -/
def kH1 (c : Dev nD) : Arr 20000 256 :=
  dense (aggK 0#32 (kHr0 m c) (srcK (m ((c : Thread nD τ).loc main_arg1))) (dstK (m ((c : Thread nD τ).loc main_arg1))) (m ((c : Thread nD τ).loc main_arg2))) (m ((c : Thread nD τ).loc main_arg0)) (RK0 (m ((c : Thread nD τ).loc main_arg4))) (bK0 (m ((c : Thread nD τ).loc main_arg5)))
/-- The projected features of layer 1. -/
def kHr1 (c : Dev nD) : Arr 20000 256 := prod (kH1 m c) (WK1 (m ((c : Thread nD τ).loc main_arg3)))
/-- The features after layer 1: the first metapath's embedding. -/
def kH2 (c : Dev nD) : Arr 20000 256 :=
  dense (aggK 1#32 (kHr1 m c) (srcK (m ((c : Thread nD τ).loc main_arg1))) (dstK (m ((c : Thread nD τ).loc main_arg1))) (m ((c : Thread nD τ).loc main_arg2))) (kH1 m c) (RK1 (m ((c : Thread nD τ).loc main_arg4))) (bK1 (m ((c : Thread nD τ).loc main_arg5)))
/-- The projected features of layer 2 (the second metapath starts from the input again). -/
def kHr2 (c : Dev nD) : Arr 20000 256 := prod (m ((c : Thread nD τ).loc main_arg0)) (WK2 (m ((c : Thread nD τ).loc main_arg3)))
/-- The features after layer 2. -/
def kG1 (c : Dev nD) : Arr 20000 256 :=
  dense (aggK 2#32 (kHr2 m c) (srcK (m ((c : Thread nD τ).loc main_arg1))) (dstK (m ((c : Thread nD τ).loc main_arg1))) (m ((c : Thread nD τ).loc main_arg2))) (m ((c : Thread nD τ).loc main_arg0)) (RK2 (m ((c : Thread nD τ).loc main_arg4))) (bK2 (m ((c : Thread nD τ).loc main_arg5)))
/-- The projected features of layer 3. -/
def kHr3 (c : Dev nD) : Arr 20000 256 := prod (kG1 m c) (WK3 (m ((c : Thread nD τ).loc main_arg3)))
/-- The features after layer 3: the second metapath's embedding. -/
def kG2 (c : Dev nD) : Arr 20000 256 :=
  dense (aggK 3#32 (kHr3 m c) (srcK (m ((c : Thread nD τ).loc main_arg1))) (dstK (m ((c : Thread nD τ).loc main_arg1))) (m ((c : Thread nD τ).loc main_arg2))) (kG1 m c) (RK3 (m ((c : Thread nD τ).loc main_arg4))) (bK3 (m ((c : Thread nD τ).loc main_arg5)))
/-- The log-probabilities: the head on the two embeddings side by side. -/
def kOut (c : Dev nD) : Arr 20000 16 :=
  head (joinK (F := Ideal) (kH2 m c) (kG2 m c)) (m ((c : Thread nD τ).loc main_arg6)) (c1K (m ((c : Thread nD τ).loc main_arg7))) (m ((c : Thread nD τ).loc main_arg8)) (c2K (m ((c : Thread nD τ).loc main_arg9)))

theorem W2_v6 (c : Dev nD) : W2 m ρ c (Proc.devRef .tc main_v6) = kHr0 m c :=
  (W2_arr m ρ c 2).trans ((final0 (V1 m ρ) c).trans (congrArg₂ prod (W1_main_arg0 m ρ c) (W1_main_v5 m ρ c)))

theorem W4_v36 (c : Dev nD) : W4 m ρ c (Proc.devRef .tc main_v36) = kH1 m c := by
  refine (W4_arr m ρ c 4).trans ((final1 (V3 m ρ) c).trans ?_)
  show dense (W3 m ρ c (Proc.devRef .tc main_v30)) (W3 m ρ c (Proc.devRef .tc main_arg0)) (W3 m ρ c (Proc.devRef .tc main_v32)) (W3 m ρ c (Proc.devRef .tc main_v35)) = _
  rw [W3_main_v30 m ρ c, W3_main_arg0 m ρ c, W3_main_v32 m ρ c, W3_main_v35 m ρ c, W2_v6 m ρ c]
  rfl

theorem W6_v39 (c : Dev nD) : W6 m ρ c (Proc.devRef .tc main_v39) = kHr1 m c :=
  (W6_arr m ρ c 2).trans ((final2 (V5 m ρ) c).trans
    (congrArg₂ prod ((W5_main_v36 m ρ c).trans (W4_v36 m ρ c)) (W5_main_v38 m ρ c)))

theorem W8_v69 (c : Dev nD) : W8 m ρ c (Proc.devRef .tc main_v69) = kH2 m c := by
  refine (W8_arr m ρ c 4).trans ((final3 (V7 m ρ) c).trans ?_)
  show dense (W7 m ρ c (Proc.devRef .tc main_v63)) (W7 m ρ c (Proc.devRef .tc main_v36)) (W7 m ρ c (Proc.devRef .tc main_v65)) (W7 m ρ c (Proc.devRef .tc main_v68)) = _
  rw [W7_main_v63 m ρ c, W7_main_v36 m ρ c, W7_main_v65 m ρ c, W7_main_v68 m ρ c, W6_v39 m ρ c, W4_v36 m ρ c]
  rfl

theorem W10_v72 (c : Dev nD) : W10 m ρ c (Proc.devRef .tc main_v72) = kHr2 m c :=
  (W10_arr m ρ c 2).trans ((final4 (V9 m ρ) c).trans (congrArg₂ prod (W9_main_arg0 m ρ c) (W9_main_v71 m ρ c)))

theorem W12_v102 (c : Dev nD) : W12 m ρ c (Proc.devRef .tc main_v102) = kG1 m c := by
  refine (W12_arr m ρ c 4).trans ((final5 (V11 m ρ) c).trans ?_)
  show dense (W11 m ρ c (Proc.devRef .tc main_v96)) (W11 m ρ c (Proc.devRef .tc main_arg0)) (W11 m ρ c (Proc.devRef .tc main_v98)) (W11 m ρ c (Proc.devRef .tc main_v101)) = _
  rw [W11_main_v96 m ρ c, W11_main_arg0 m ρ c, W11_main_v98 m ρ c, W11_main_v101 m ρ c, W10_v72 m ρ c]
  rfl

theorem W14_v105 (c : Dev nD) : W14 m ρ c (Proc.devRef .tc main_v105) = kHr3 m c :=
  (W14_arr m ρ c 2).trans ((final6 (V13 m ρ) c).trans
    (congrArg₂ prod ((W13_main_v102 m ρ c).trans (W12_v102 m ρ c)) (W13_main_v104 m ρ c)))

theorem W16_v135 (c : Dev nD) : W16 m ρ c (Proc.devRef .tc main_v135) = kG2 m c := by
  refine (W16_arr m ρ c 4).trans ((final7 (V15 m ρ) c).trans ?_)
  show dense (W15 m ρ c (Proc.devRef .tc main_v129)) (W15 m ρ c (Proc.devRef .tc main_v102)) (W15 m ρ c (Proc.devRef .tc main_v131)) (W15 m ρ c (Proc.devRef .tc main_v134)) = _
  rw [W15_main_v129 m ρ c, W15_main_v102 m ρ c, W15_main_v131 m ρ c, W15_main_v134 m ρ c, W14_v105 m ρ c, W12_v102 m ρ c]
  rfl

/-- The program's result buffer after the last launch holds the network's log-probabilities. -/
theorem W18_v139 (c : Dev nD) : W18 m ρ c (Proc.devRef .tc main_v139) = kOut m c := by
  refine (W18_arr m ρ c 5).trans ((final8 (V17 m ρ) c).trans ?_)
  show head (W17 m ρ c (Proc.devRef .tc main_v136)) (W17 m ρ c (Proc.devRef .tc main_arg6)) (W17 m ρ c (Proc.devRef .tc main_v137)) (W17 m ρ c (Proc.devRef .tc main_arg8)) (W17 m ρ c (Proc.devRef .tc main_v138)) = _
  rw [W17_main_v136 m ρ c, W17_main_arg6 m ρ c, W17_main_v137 m ρ c, W17_main_arg8 m ρ c, W17_main_v138 m ρ c, W8_v69 m ρ c, W16_v135 m ρ c]
  rfl

/-- The kernel program's result is the network, with the kernel program's own spelling of the aggregation, of the join and
    of the slices of the weights. -/
theorem kOut_eq_net (c : Dev nD) : kOut m c =
    net (fun hr => aggK 0#32 hr (srcK (m ((c : Thread nD τ).loc main_arg1))) (dstK (m ((c : Thread nD τ).loc main_arg1))) (m ((c : Thread nD τ).loc main_arg2))) (fun hr => aggK 1#32 hr (srcK (m ((c : Thread nD τ).loc main_arg1))) (dstK (m ((c : Thread nD τ).loc main_arg1))) (m ((c : Thread nD τ).loc main_arg2)))
      (fun hr => aggK 2#32 hr (srcK (m ((c : Thread nD τ).loc main_arg1))) (dstK (m ((c : Thread nD τ).loc main_arg1))) (m ((c : Thread nD τ).loc main_arg2))) (fun hr => aggK 3#32 hr (srcK (m ((c : Thread nD τ).loc main_arg1))) (dstK (m ((c : Thread nD τ).loc main_arg1))) (m ((c : Thread nD τ).loc main_arg2))) (joinK (F := Ideal)) (m ((c : Thread nD τ).loc main_arg0))
      (WK0 (m ((c : Thread nD τ).loc main_arg3))) (WK1 (m ((c : Thread nD τ).loc main_arg3))) (WK2 (m ((c : Thread nD τ).loc main_arg3))) (WK3 (m ((c : Thread nD τ).loc main_arg3)))
      (RK0 (m ((c : Thread nD τ).loc main_arg4))) (RK1 (m ((c : Thread nD τ).loc main_arg4))) (RK2 (m ((c : Thread nD τ).loc main_arg4))) (RK3 (m ((c : Thread nD τ).loc main_arg4)))
      (bK0 (m ((c : Thread nD τ).loc main_arg5))) (bK1 (m ((c : Thread nD τ).loc main_arg5))) (bK2 (m ((c : Thread nD τ).loc main_arg5))) (bK3 (m ((c : Thread nD τ).loc main_arg5)))
      (m ((c : Thread nD τ).loc main_arg6)) (c1K (m ((c : Thread nD τ).loc main_arg7))) (m ((c : Thread nD τ).loc main_arg8)) (c2K (m ((c : Thread nD τ).loc main_arg9))) := rfl

/-- The kernel program runs and ends with its result at the network's log-probabilities, its arguments unchanged. -/
theorem run_net : θ_run defs (onTc (τ := τ) (main (F := Ideal))) ⟨m, fun _ => 0, ρ⟩ (fun r => ∀ c : Dev nD,
      r.2.mem ((c.tc : Thread nD τ).loc main_v139) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W18_v139 m ρ c), (h c).2⟩) (run_value m ρ)

end Cert.KernelIdeal.Hand

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«125463_j19267223290692_1_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.RefNet.lean ====
/-
  The reference program as one function of its arguments, and that function as the specification's network.

  The reference is a straight line of host operations: four graph layers (two metapaths of two layers) and a
  perceptron head with log-probabilities. Here its own spelling is collected into a few definitions — the edge
  list's two rows, one relation's mean aggregation over the edges (`aggR`), one layer (`layerR`), the joined
  features, the head (`headR`) — and the program's five consecutive stretches are read as those definitions applied
  to the contents at each stretch's start. Chained, they give the result buffer as `refNet` of the ten arguments.

  On the extended reals a layer is the specification's dense step on the reference's aggregation, and the head is the
  specification's head: the host's matrix products are the product, a bias vector spread over the rows adds the
  vector's entry of the column, the floor at the zero splat is the maximum with zero, the host's row maximum (with
  one more maximum against the value it started from) is the running maximum of the row, and the host's row sum is
  the sum of the row. Last, the weight pieces each layer cuts out of the stacked weights are read at an index.
-/
import proofs.«125463_j19267223290692_1_alg».proof.Proof.RefRun
import proofs.«125463_j19267223290692_1_alg».proof.Proof.Net
import proofs.«125463_j19267223290692_1_alg».proof.Proof.LibHostRow
import proofs.«125463_j19267223290692_1_alg».proof.Proof.LibHostColumn
import proofs.«125463_j19267223290692_1_alg».proof.Proof.LibHostRowSum
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx

variable {F : FTy → Type} [FloatOps F]

/-- An array of the given shape and element type over the float values `F`. -/
abbrev Ar (F : FTy → Type) (s : Shape) (e : EltTy) : Type := (⟨s, e⟩ : BufTy).Contents (Elt F)

/-! ## The reference's own spelling, piece by piece -/

/-- Row 0 of the edge list: the node each edge aggregates into. -/
def srcOf (ei : Ar F S2x500000 .i32) : Ar F S500000 .i32 :=
  shapeCast _ (extractStridedSlice S1x500000 ![0, 0] ei slices_S2x500000_S1x500000_0_0) shapeCasts_S1x500000_S500000

/-- Row 1 of the edge list: the node each edge reads from. -/
def dstOf (ei : Ar F S2x500000 .i32) : Ar F S500000 .i32 :=
  shapeCast _ (extractStridedSlice S1x500000 ![1, 0] ei slices_S2x500000_S1x500000_1_0) shapeCasts_S1x500000_S500000

/-- The edges of relation `rel`, as a 0/1 weight per edge. -/
def maskR (rel : BitVec 32) (et : Ar F S500000 .i32) : Ar F S500000 .f32 :=
  uitofp .f32 (cmpi .eq et (broadcastInDim S500000 ![] bcast_S_S500000 (constantI S_ 32 rel)))

/-- The node each edge reads from, a negative number counted from the end. -/
def wrapR (dst : Ar F S500000 .i32) : Ar F S500000 .i32 :=
  select (cmpi .slt dst (broadcastInDim S500000 ![] bcast_S_S500000 (constantI S_ 32 0#32)))
    (addi dst (broadcastInDim S500000 ![] bcast_S_S500000 (constantI S_ 32 20000#32))) dst

/-- The weighted rows the edges carry: row `dst e` of `hr` times the edge's weight. -/
def msgR (rel : BitVec 32) (hr : Ar F S20000x256 .f32) (dst et : Ar F S500000 .i32) : Ar F S500000x256 .f32 :=
  mulf (Host.gather gather_S20000x256_S500000x1_S500000x256_1_0_n_n_0_1_1256 hr
      (broadcastInDim S500000x1 ![0] bcast_S500000_S500000x1_0 (wrapR dst)))
    (broadcastInDim S500000x256 ![0, 1] bcast_S500000x1_S500000x256_0_1
      (broadcastInDim S500000x1 ![0] bcast_S500000_S500000x1_0 (maskR rel et)))

/-- The sum, per node, of the weighted rows of the edges that aggregate into it. -/
def sumR (rel : BitVec 32) (hr : Ar F S20000x256 .f32) (src dst et : Ar F S500000 .i32) : Ar F S20000x256 .f32 :=
  Host.scatterAdd scatter_S20000x256_S500000x1_S500000x256_1_0_0_1
    (broadcastInDim S20000x256 ![] bcast_S_S20000x256 (constant S_ .f32 0x00000000#32))
    (broadcastInDim S500000x1 ![0] bcast_S500000_S500000x1_0 src) (msgR rel hr dst et)

/-- The number, per node, of edges of the relation that aggregate into it, at least one. -/
def cntR (rel : BitVec 32) (src et : Ar F S500000 .i32) : Ar F S20000 .f32 :=
  maximumf (Host.scatterAdd scatter_S20000_S500000x1_S500000_n_0_0_1
      (broadcastInDim S20000 ![] bcast_S_S20000 (constant S_ .f32 0x00000000#32))
      (broadcastInDim S500000x1 ![0] bcast_S500000_S500000x1_0 src) (maskR rel et))
    (broadcastInDim S20000 ![] bcast_S_S20000 (constant S_ .f32 0x3F800000#32))

/-- The mean, per node, over the edges of relation `rel` out of it, of the projected rows at the edges' other ends. -/
def aggR (rel : BitVec 32) (hr : Ar F S20000x256 .f32) (src dst et : Ar F S500000 .i32) : Ar F S20000x256 .f32 :=
  Host.divf (sumR rel hr src dst et)
    (broadcastInDim S20000x256 ![0, 1] bcast_S20000x1_S20000x256_0_1
      (broadcastInDim S20000x1 ![0] bcast_S20000_S20000x1_0 (cntR rel src et)))

/-- Every block of the relation weights can be cut out; likewise of the root weights and of the biases. -/
theorem slicesW (k : Fin 4) : S4x5x256x256.Slices ![k.val, 0, 0, 0] S1x5x256x256 := by fin_cases k <;> decide
theorem slicesW' (k : Fin 4) : S5x256x256.Slices ![k.val, 0, 0] S1x256x256 := by fin_cases k <;> decide
theorem slicesR (k : Fin 4) : S4x256x256.Slices ![k.val, 0, 0] S1x256x256 := by fin_cases k <;> decide
theorem slicesB (k : Fin 4) : S4x256.Slices ![k.val, 0] S1x256 := by fin_cases k <;> decide

/-- Layer `k`'s relation weight: block `k` of the weights, then its matrix `k` (layer `k` follows relation `k`). -/
def WR (k : Fin 4) (w : Ar F S4x5x256x256 .f32) : Ar F S256x256 .f32 :=
  shapeCast _ (extractStridedSlice S1x256x256 ![k.val, 0, 0]
      (shapeCast _ (extractStridedSlice S1x5x256x256 ![k.val, 0, 0, 0] w (slicesW k)) shapeCasts_S1x5x256x256_S5x256x256 :
        Ar F S5x256x256 .f32) (slicesW' k))
    shapeCasts_S1x256x256_S256x256

/-- Layer `k`'s root weight. -/
def RR (k : Fin 4) (w : Ar F S4x256x256 .f32) : Ar F S256x256 .f32 :=
  shapeCast _ (extractStridedSlice S1x256x256 ![k.val, 0, 0] w (slicesR k)) shapeCasts_S1x256x256_S256x256

/-- Layer `k`'s bias, as one row. -/
def bR (k : Fin 4) (b : Ar F S4x256 .f32) : Ar F S1x256 .f32 :=
  broadcastInDim S1x256 ![1] bcast_S256_S1x256_1
    (shapeCast _ (extractStridedSlice S1x256 ![k.val, 0] b (slicesB k)) shapeCasts_S1x256_S256 : Ar F S256 .f32)

/-- One layer: the aggregated rows plus the node's own projected row plus the bias, floored at zero. -/
def layerR (rel : BitVec 32) (h : Ar F S20000x256 .f32) (W R : Ar F S256x256 .f32) (b : Ar F S1x256 .f32)
    (src dst et : Ar F S500000 .i32) : Ar F S20000x256 .f32 :=
  maximumf
    (addf (addf (aggR rel (Host.dotGeneral dot_S20000x256_S256x256_S20000x256_1_0_0_1_n_n none h W) src dst et)
        (Host.dotGeneral dot_S20000x256_S256x256_S20000x256_1_0_0_1_n_n none h R))
      (broadcastInDim S20000x256 ![0, 1] bcast_S1x256_S20000x256_0_1 b))
    (broadcastInDim S20000x256 ![] bcast_S_S20000x256 (constant S_ .f32 0x00000000#32))

/-- Two feature arrays side by side. -/
def joinR (a b : Ar F S20000x256 .f32) : Ar F S20000x512 .f32 :=
  concatenate S20000x512 1 [⟨S20000x256, a⟩, ⟨S20000x256, b⟩] concatenates_S20000x256_S20000x256_S20000x512_d1

/-- The perceptron's outputs before the log-probabilities. -/
def logitsR (X : Ar F S20000x512 .f32) (w1 : Ar F S512x256 .f32) (c1 : Ar F S1x256 .f32) (w2 : Ar F S256x16 .f32)
    (c2 : Ar F S1x16 .f32) : Ar F S20000x16 .f32 :=
  addf (Host.dotGeneral dot_S20000x256_S256x16_S20000x16_1_0_0_1_n_n none
      (maximumf
        (addf (Host.dotGeneral dot_S20000x512_S512x256_S20000x256_1_0_0_1_n_n none X w1)
          (broadcastInDim S20000x256 ![0, 1] bcast_S1x256_S20000x256_0_1 c1))
        (broadcastInDim S20000x256 ![] bcast_S_S20000x256 (constant S_ .f32 0x00000000#32))) w2)
    (broadcastInDim S20000x16 ![0, 1] bcast_S1x16_S20000x16_0_1 c2)

/-- A row statistic (one value per node) spread over the 16 outputs. -/
def spreadR (v : Ar F S20000 .f32) : Ar F S20000x16 .f32 :=
  broadcastInDim S20000x16 ![0, 1] bcast_S20000x1_S20000x16_0_1 (broadcastInDim S20000x1 ![0] bcast_S20000_S20000x1_0 v)

/-- The outputs shifted by their row's largest entry. -/
def shiftR (L : Ar F S20000x16 .f32) : Ar F S20000x16 .f32 :=
  subf L (spreadR (maximumf (broadcastInDim S20000 ![] bcast_S_S20000 (constant S_ .f32 0xFF800000#32))
    (Host.reduce FloatOps.maximumf L (constant S_ .f32 0xFF800000#32) reducesTo_S20000x16_S20000_d1 h_S_)))

/-- Log-probabilities: the shifted outputs minus the logarithm of the row sums of their exponentials. -/
def lsmR (L : Ar F S20000x16 .f32) : Ar F S20000x16 .f32 :=
  subf (shiftR L)
    (broadcastInDim S20000x16 ![0, 1] bcast_S20000x1_S20000x16_0_1
      (Host.log (broadcastInDim S20000x1 ![0] bcast_S20000_S20000x1_0
        (Host.reduceAdd (Host.exp (shiftR L)) (constant S_ .f32 0x00000000#32) reducesTo_S20000x16_S20000_d1 h_S_))))

/-- The perceptron head on the joined features. -/
def headR (X : Ar F S20000x512 .f32) (w1 : Ar F S512x256 .f32) (c1 : Ar F S1x256 .f32) (w2 : Ar F S256x16 .f32)
    (c2 : Ar F S1x16 .f32) : Ar F S20000x16 .f32 :=
  lsmR (logitsR X w1 c1 w2 c2)

/-! ## The five stretches of the program, each from any contents at its start -/

section Stretches
variable (V : Valuation τ sig (Elt F))

theorem layer0 : after ops0 V (Proc.devRef .tc main_v42)
    = layerR 0#32 (V (Proc.devRef .tc main_arg0)) (WR 0 (V (Proc.devRef .tc main_arg3))) (RR 0 (V (Proc.devRef .tc main_arg4)))
        (bR 0 (V (Proc.devRef .tc main_arg5))) (srcOf (V (Proc.devRef .tc main_arg1))) (dstOf (V (Proc.devRef .tc main_arg1)))
        (V (Proc.devRef .tc main_arg2)) := by
  after_results_simp
  rfl

theorem src0 : after ops0 V (Proc.devRef .tc main_v1) = srcOf (V (Proc.devRef .tc main_arg1)) := by
  after_results_simp
  rfl

theorem dst0 : after ops0 V (Proc.devRef .tc main_v3) = dstOf (V (Proc.devRef .tc main_arg1)) := by
  after_results_simp
  rfl

theorem layer1 : after ops1 V (Proc.devRef .tc main_v81)
    = layerR 1#32 (V (Proc.devRef .tc main_v42)) (WR 1 (V (Proc.devRef .tc main_arg3))) (RR 1 (V (Proc.devRef .tc main_arg4)))
        (bR 1 (V (Proc.devRef .tc main_arg5))) (V (Proc.devRef .tc main_v1)) (V (Proc.devRef .tc main_v3))
        (V (Proc.devRef .tc main_arg2)) := by
  after_results_simp
  rfl

theorem layer2 : after ops2 V (Proc.devRef .tc main_v120)
    = layerR 2#32 (V (Proc.devRef .tc main_arg0)) (WR 2 (V (Proc.devRef .tc main_arg3))) (RR 2 (V (Proc.devRef .tc main_arg4)))
        (bR 2 (V (Proc.devRef .tc main_arg5))) (V (Proc.devRef .tc main_v1)) (V (Proc.devRef .tc main_v3))
        (V (Proc.devRef .tc main_arg2)) := by
  after_results_simp
  rfl

theorem layer3 : after ops3 V (Proc.devRef .tc main_v159)
    = layerR 3#32 (V (Proc.devRef .tc main_v120)) (WR 3 (V (Proc.devRef .tc main_arg3))) (RR 3 (V (Proc.devRef .tc main_arg4)))
        (bR 3 (V (Proc.devRef .tc main_arg5))) (V (Proc.devRef .tc main_v1)) (V (Proc.devRef .tc main_v3))
        (V (Proc.devRef .tc main_arg2)) := by
  after_results_simp
  rfl

theorem headS : after ops4 V (Proc.devRef .tc main_v170)
    = headR (joinR (V (Proc.devRef .tc main_v81)) (V (Proc.devRef .tc main_v159))) (V (Proc.devRef .tc main_arg6))
        (broadcastInDim S1x256 ![1] bcast_S256_S1x256_1 (V (Proc.devRef .tc main_arg7))) (V (Proc.devRef .tc main_arg8))
        (broadcastInDim S1x16 ![1] bcast_S16_S1x16_1 (V (Proc.devRef .tc main_arg9))) := by
  after_results_simp
  simp only [cast_eq]
  rfl

/-! A buffer a stretch does not write keeps its contents through it. -/
theorem keep0_arg0 : after ops0 V (Proc.devRef .tc main_arg0) = V (Proc.devRef .tc main_arg0) := by after_results_simp
theorem keep0_arg2 : after ops0 V (Proc.devRef .tc main_arg2) = V (Proc.devRef .tc main_arg2) := by after_results_simp
theorem keep0_arg3 : after ops0 V (Proc.devRef .tc main_arg3) = V (Proc.devRef .tc main_arg3) := by after_results_simp
theorem keep0_arg4 : after ops0 V (Proc.devRef .tc main_arg4) = V (Proc.devRef .tc main_arg4) := by after_results_simp
theorem keep0_arg5 : after ops0 V (Proc.devRef .tc main_arg5) = V (Proc.devRef .tc main_arg5) := by after_results_simp
theorem keep0_arg6 : after ops0 V (Proc.devRef .tc main_arg6) = V (Proc.devRef .tc main_arg6) := by after_results_simp
theorem keep0_arg7 : after ops0 V (Proc.devRef .tc main_arg7) = V (Proc.devRef .tc main_arg7) := by after_results_simp
theorem keep0_arg8 : after ops0 V (Proc.devRef .tc main_arg8) = V (Proc.devRef .tc main_arg8) := by after_results_simp
theorem keep0_arg9 : after ops0 V (Proc.devRef .tc main_arg9) = V (Proc.devRef .tc main_arg9) := by after_results_simp
theorem keep1_arg0 : after ops1 V (Proc.devRef .tc main_arg0) = V (Proc.devRef .tc main_arg0) := by after_results_simp
theorem keep1_arg2 : after ops1 V (Proc.devRef .tc main_arg2) = V (Proc.devRef .tc main_arg2) := by after_results_simp
theorem keep1_arg3 : after ops1 V (Proc.devRef .tc main_arg3) = V (Proc.devRef .tc main_arg3) := by after_results_simp
theorem keep1_arg4 : after ops1 V (Proc.devRef .tc main_arg4) = V (Proc.devRef .tc main_arg4) := by after_results_simp
theorem keep1_arg5 : after ops1 V (Proc.devRef .tc main_arg5) = V (Proc.devRef .tc main_arg5) := by after_results_simp
theorem keep1_arg6 : after ops1 V (Proc.devRef .tc main_arg6) = V (Proc.devRef .tc main_arg6) := by after_results_simp
theorem keep1_arg7 : after ops1 V (Proc.devRef .tc main_arg7) = V (Proc.devRef .tc main_arg7) := by after_results_simp
theorem keep1_arg8 : after ops1 V (Proc.devRef .tc main_arg8) = V (Proc.devRef .tc main_arg8) := by after_results_simp
theorem keep1_arg9 : after ops1 V (Proc.devRef .tc main_arg9) = V (Proc.devRef .tc main_arg9) := by after_results_simp
theorem keep1_v1 : after ops1 V (Proc.devRef .tc main_v1) = V (Proc.devRef .tc main_v1) := by after_results_simp
theorem keep1_v3 : after ops1 V (Proc.devRef .tc main_v3) = V (Proc.devRef .tc main_v3) := by after_results_simp
theorem keep2_arg2 : after ops2 V (Proc.devRef .tc main_arg2) = V (Proc.devRef .tc main_arg2) := by after_results_simp
theorem keep2_arg3 : after ops2 V (Proc.devRef .tc main_arg3) = V (Proc.devRef .tc main_arg3) := by after_results_simp
theorem keep2_arg4 : after ops2 V (Proc.devRef .tc main_arg4) = V (Proc.devRef .tc main_arg4) := by after_results_simp
theorem keep2_arg5 : after ops2 V (Proc.devRef .tc main_arg5) = V (Proc.devRef .tc main_arg5) := by after_results_simp
theorem keep2_arg6 : after ops2 V (Proc.devRef .tc main_arg6) = V (Proc.devRef .tc main_arg6) := by after_results_simp
theorem keep2_arg7 : after ops2 V (Proc.devRef .tc main_arg7) = V (Proc.devRef .tc main_arg7) := by after_results_simp
theorem keep2_arg8 : after ops2 V (Proc.devRef .tc main_arg8) = V (Proc.devRef .tc main_arg8) := by after_results_simp
theorem keep2_arg9 : after ops2 V (Proc.devRef .tc main_arg9) = V (Proc.devRef .tc main_arg9) := by after_results_simp
theorem keep2_v1 : after ops2 V (Proc.devRef .tc main_v1) = V (Proc.devRef .tc main_v1) := by after_results_simp
theorem keep2_v3 : after ops2 V (Proc.devRef .tc main_v3) = V (Proc.devRef .tc main_v3) := by after_results_simp
theorem keep2_v81 : after ops2 V (Proc.devRef .tc main_v81) = V (Proc.devRef .tc main_v81) := by after_results_simp
theorem keep3_arg6 : after ops3 V (Proc.devRef .tc main_arg6) = V (Proc.devRef .tc main_arg6) := by after_results_simp
theorem keep3_arg7 : after ops3 V (Proc.devRef .tc main_arg7) = V (Proc.devRef .tc main_arg7) := by after_results_simp
theorem keep3_arg8 : after ops3 V (Proc.devRef .tc main_arg8) = V (Proc.devRef .tc main_arg8) := by after_results_simp
theorem keep3_arg9 : after ops3 V (Proc.devRef .tc main_arg9) = V (Proc.devRef .tc main_arg9) := by after_results_simp
theorem keep3_v81 : after ops3 V (Proc.devRef .tc main_v81) = V (Proc.devRef .tc main_v81) := by after_results_simp

end Stretches

/-! ## The whole program -/

/-- The reference's result as one function of its ten arguments. -/
def refNet (x0 : Ar F S20000x256 .f32) (x1 : Ar F S2x500000 .i32) (x2 : Ar F S500000 .i32) (x3 : Ar F S4x5x256x256 .f32)
    (x4 : Ar F S4x256x256 .f32) (x5 : Ar F S4x256 .f32) (x6 : Ar F S512x256 .f32) (x7 : Ar F S256 .f32)
    (x8 : Ar F S256x16 .f32) (x9 : Ar F S16 .f32) : Ar F S20000x16 .f32 :=
  let src := srcOf x1
  let dst := dstOf x1
  let h1 := layerR 0#32 x0 (WR 0 x3) (RR 0 x4) (bR 0 x5) src dst x2
  let h2 := layerR 1#32 h1 (WR 1 x3) (RR 1 x4) (bR 1 x5) src dst x2
  let g1 := layerR 2#32 x0 (WR 2 x3) (RR 2 x4) (bR 2 x5) src dst x2
  let g2 := layerR 3#32 g1 (WR 3 x3) (RR 3 x4) (bR 3 x5) src dst x2
  headR (joinR h2 g2) x6 (broadcastInDim S1x256 ![1] bcast_S256_S1x256_1 x7) x8 (broadcastInDim S1x16 ![1] bcast_S16_S1x16_1 x9)

/-- The result buffer after the whole line of operations, from the launch contents. -/
theorem ref_value (m : (ℓ : Loc nD τ sig) → Buf (Elt F) ℓ) (d : Dev nD) :
    after ops (launchContents m d) (Proc.devRef .tc main_v170)
      = refNet (m ((d.tc : Thread nD τ).loc main_arg0)) (m ((d.tc : Thread nD τ).loc main_arg1))
          (m ((d.tc : Thread nD τ).loc main_arg2)) (m ((d.tc : Thread nD τ).loc main_arg3))
          (m ((d.tc : Thread nD τ).loc main_arg4)) (m ((d.tc : Thread nD τ).loc main_arg5))
          (m ((d.tc : Thread nD τ).loc main_arg6)) (m ((d.tc : Thread nD τ).loc main_arg7))
          (m ((d.tc : Thread nD τ).loc main_arg8)) (m ((d.tc : Thread nD τ).loc main_arg9)) := by
  rw [ops_split, Cert.LibAfter.after_append, Cert.LibAfter.after_append, Cert.LibAfter.after_append,
    Cert.LibAfter.after_append]
  rw [headS, layer3, keep3_v81, keep3_arg6, keep3_arg7, keep3_arg8, keep3_arg9]
  rw [layer2, keep2_v81, keep2_arg2, keep2_arg3, keep2_arg4, keep2_arg5, keep2_arg6, keep2_arg7, keep2_arg8, keep2_arg9,
    keep2_v1, keep2_v3]
  rw [layer1, keep1_arg0, keep1_arg2, keep1_arg3, keep1_arg4, keep1_arg5, keep1_arg6, keep1_arg7, keep1_arg8, keep1_arg9,
    keep1_v1, keep1_v3]
  rw [layer0, src0, dst0, keep0_arg0, keep0_arg2, keep0_arg3, keep0_arg4, keep0_arg5, keep0_arg6, keep0_arg7, keep0_arg8,
    keep0_arg9]
  rfl

/-- The whole line of operations writes none of the ten arguments. -/
theorem kept_arg0 (m : (ℓ : Loc nD τ sig) → Buf (Elt F) ℓ) (c : Dev nD) :
    after ops (launchContents m c) (Proc.devRef .tc main_arg0) = m ((c.tc : Thread nD τ).loc main_arg0) := by
  after_results_simp <;> rfl
theorem kept_arg1 (m : (ℓ : Loc nD τ sig) → Buf (Elt F) ℓ) (c : Dev nD) :
    after ops (launchContents m c) (Proc.devRef .tc main_arg1) = m ((c.tc : Thread nD τ).loc main_arg1) := by
  after_results_simp <;> rfl
theorem kept_arg2 (m : (ℓ : Loc nD τ sig) → Buf (Elt F) ℓ) (c : Dev nD) :
    after ops (launchContents m c) (Proc.devRef .tc main_arg2) = m ((c.tc : Thread nD τ).loc main_arg2) := by
  after_results_simp <;> rfl
theorem kept_arg3 (m : (ℓ : Loc nD τ sig) → Buf (Elt F) ℓ) (c : Dev nD) :
    after ops (launchContents m c) (Proc.devRef .tc main_arg3) = m ((c.tc : Thread nD τ).loc main_arg3) := by
  after_results_simp <;> rfl
theorem kept_arg4 (m : (ℓ : Loc nD τ sig) → Buf (Elt F) ℓ) (c : Dev nD) :
    after ops (launchContents m c) (Proc.devRef .tc main_arg4) = m ((c.tc : Thread nD τ).loc main_arg4) := by
  after_results_simp <;> rfl
theorem kept_arg5 (m : (ℓ : Loc nD τ sig) → Buf (Elt F) ℓ) (c : Dev nD) :
    after ops (launchContents m c) (Proc.devRef .tc main_arg5) = m ((c.tc : Thread nD τ).loc main_arg5) := by
  after_results_simp <;> rfl
theorem kept_arg6 (m : (ℓ : Loc nD τ sig) → Buf (Elt F) ℓ) (c : Dev nD) :
    after ops (launchContents m c) (Proc.devRef .tc main_arg6) = m ((c.tc : Thread nD τ).loc main_arg6) := by
  after_results_simp <;> rfl
theorem kept_arg7 (m : (ℓ : Loc nD τ sig) → Buf (Elt F) ℓ) (c : Dev nD) :
    after ops (launchContents m c) (Proc.devRef .tc main_arg7) = m ((c.tc : Thread nD τ).loc main_arg7) := by
  after_results_simp <;> rfl
theorem kept_arg8 (m : (ℓ : Loc nD τ sig) → Buf (Elt F) ℓ) (c : Dev nD) :
    after ops (launchContents m c) (Proc.devRef .tc main_arg8) = m ((c.tc : Thread nD τ).loc main_arg8) := by
  after_results_simp <;> rfl
theorem kept_arg9 (m : (ℓ : Loc nD τ sig) → Buf (Elt F) ℓ) (c : Dev nD) :
    after ops (launchContents m c) (Proc.devRef .tc main_arg9) = m ((c.tc : Thread nD τ).loc main_arg9) := by
  after_results_simp <;> rfl

/-- On every device, from any memory with zero counters: every weakly fair execution of the reference terminates with its
    result buffer at `refNet` of the arguments' launch contents and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170)
          = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v170).trans (ref_value m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c)⟩)
    (run_after m ρ)

/-! ## From the reference's spelling to the specification, on the extended reals -/

section Laws
open Cert.MatProduct (prod rowOf colOf)
open Cert.RowBias (addRow addRowMax)

/-- The host's plain matrix products are the product. -/
theorem dot256 (h : Ar Ideal S20000x256 .f32) (W : Ar Ideal S256x256 .f32) :
    Host.dotGeneral (F := Ideal) (φ₁ := .f32) (φ₂ := .f32) dot_S20000x256_S256x256_S20000x256_1_0_0_1_n_n none h W = prod h W :=
  Cert.MatProduct.dotGeneral_eq_prod (M := 20000) (K := 256) (N := 256) none .single h W

theorem dot512 (X : Ar Ideal S20000x512 .f32) (W : Ar Ideal S512x256 .f32) :
    Host.dotGeneral (F := Ideal) (φ₁ := .f32) (φ₂ := .f32) dot_S20000x512_S512x256_S20000x256_1_0_0_1_n_n none X W = prod X W :=
  Cert.MatProduct.dotGeneral_eq_prod (M := 20000) (K := 512) (N := 256) none .single X W

theorem dot16 (X : Ar Ideal S20000x256 .f32) (W : Ar Ideal S256x16 .f32) :
    Host.dotGeneral (F := Ideal) (φ₁ := .f32) (φ₂ := .f32) dot_S20000x256_S256x16_S20000x16_1_0_0_1_n_n none X W = prod X W :=
  Cert.MatProduct.dotGeneral_eq_prod (M := 20000) (K := 256) (N := 16) none .single X W

/-- Adding a bias row repeated down the rows, the host's way. -/
theorem host_addRow {n d : ℕ} (x : FVec Ideal ⟨2, ![n, d]⟩ .f32) (b : FVec Ideal ⟨2, ![1, d]⟩ .f32)
    (h : (⟨2, ![1, d]⟩ : Shape).BroadcastsInDim ⟨2, ![n, d]⟩ (![0, 1] : Fin 2 → Fin 2)) :
    addf x (broadcastInDim ⟨2, ![n, d]⟩ ![0, 1] h b) = addRow x b := by
  funext y
  obtain ⟨r, q, rfl⟩ : ∃ r q, y = ix2 r q := ⟨y 0, y 1, eq_ix2 y⟩
  rw [addf_apply, Cert.LibHostRow.rows_apply]
  rfl

/-- The same floored at the zero splat. -/
theorem host_addRowMax {n d : ℕ} (x : FVec Ideal ⟨2, ![n, d]⟩ .f32) (b : FVec Ideal ⟨2, ![1, d]⟩ .f32)
    (h : (⟨2, ![1, d]⟩ : Shape).BroadcastsInDim ⟨2, ![n, d]⟩ (![0, 1] : Fin 2 → Fin 2))
    (h0 : (⟨0, ![]⟩ : Shape).BroadcastsInDim ⟨2, ![n, d]⟩ (![] : Fin 0 → Fin 2)) :
    maximumf (addf x (broadcastInDim ⟨2, ![n, d]⟩ ![0, 1] h b))
        (broadcastInDim ⟨2, ![n, d]⟩ ![] h0 (constant (F := Ideal) ⟨0, ![]⟩ .f32 0x00000000#32))
      = addRowMax x b Cert.Mp.z0 := by
  rw [host_addRow]
  funext y
  rw [maximumf_apply, Cert.LibHostRow.scalar_apply, constant_apply]
  rfl

/-- One layer of the reference is the specification's dense step on its own aggregation. -/
theorem layerR_eq (rel : BitVec 32) (h : Ar Ideal S20000x256 .f32) (W R : Ar Ideal S256x256 .f32) (b : Ar Ideal S1x256 .f32)
    (src dst et : Ar Ideal S500000 .i32) :
    layerR rel h W R b src dst et = Cert.Mp.dense (aggR rel (prod h W) src dst et) h R b := by
  unfold layerR
  rw [dot256, dot256]
  exact host_addRowMax _ b _ _

/-- The perceptron's outputs are the specification's. -/
theorem logitsR_eq (X : Ar Ideal S20000x512 .f32) (w1 : Ar Ideal S512x256 .f32) (c1 : Ar Ideal S1x256 .f32)
    (w2 : Ar Ideal S256x16 .f32) (c2 : Ar Ideal S1x16 .f32) :
    logitsR X w1 c1 w2 c2 = addRow (prod (addRowMax (prod X w1) c1 Cert.Mp.z0) w2) c2 := by
  unfold logitsR
  rw [dot512]
  rw [host_addRowMax (n := 20000) (d := 256) (prod X w1) c1]
  rw [dot16]
  exact host_addRow _ c2 _
end Laws

section Laws2
open Cert.MatProduct (prod rowOf colOf)
open Cert.RowBias (addRow addRowMax)

/-- Removing the columns of a 20000 by 16 array leaves its rows. -/
theorem reduces16 : S20000x16.Reduces [1] S20000 := by decide

/-- The shifted outputs at an entry: the entry minus its row's running maximum. -/
theorem shiftR_apply (L : Ar Ideal S20000x16 .f32) (r : Fin 20000) (q : Fin 16) :
    shiftR L (ix2 r q) = L (ix2 r q) - Cert.Mp.rowMax L r := by
  unfold shiftR spreadR
  rw [subf_apply, Cert.LibHostColumn.spread_apply, Cert.LibHostColumn.column_apply, maximumf_apply,
    Cert.LibHostRow.scalar_apply, constant_apply,
    Cert.LibHostRowMax.reduce_max_row L _ reducesTo_S20000x16_S20000_d1 reduces16 h_S_ r, constant_apply,
    Cert.LibHostColumn.max_start_fold]
  rfl

/-- The reference's log-probabilities are the specification's. -/
theorem lsmR_eq (L : Ar Ideal S20000x16 .f32) : lsmR L = Cert.Mp.logSoftmax L := by
  funext y
  obtain ⟨r, q, rfl⟩ : ∃ r q, y = ix2 r q := ⟨y 0, y 1, eq_ix2 y⟩
  unfold lsmR
  rw [subf_apply, shiftR_apply, Cert.LibHostColumn.spread_apply, Cert.LibHostRowSum.hostLog_apply,
    Cert.LibHostColumn.column_apply,
    Cert.LibHostRowSum.reduceAdd_row _ _ reducesTo_S20000x16_S20000_d1 reduces16 h_S_ r, constant_apply,
    Ideal.ofBits_zero_f32, zero_add]
  simp only [Cert.LibHostRowSum.hostExp_apply, shiftR_apply]
  rfl

/-- The reference's head is the specification's. -/
theorem headR_eq (X : Ar Ideal S20000x512 .f32) (w1 : Ar Ideal S512x256 .f32) (c1 : Ar Ideal S1x256 .f32)
    (w2 : Ar Ideal S256x16 .f32) (c2 : Ar Ideal S1x16 .f32) :
    headR X w1 c1 w2 c2 = Cert.Mp.head X w1 c1 w2 c2 := by
  unfold headR
  rw [logitsR_eq, lsmR_eq]
  rfl

/-- The reference's result is the specification's network on the reference's own aggregations and weight pieces. -/
theorem refNet_eq (x0 : Ar Ideal S20000x256 .f32) (x1 : Ar Ideal S2x500000 .i32) (x2 : Ar Ideal S500000 .i32)
    (x3 : Ar Ideal S4x5x256x256 .f32) (x4 : Ar Ideal S4x256x256 .f32) (x5 : Ar Ideal S4x256 .f32) (x6 : Ar Ideal S512x256 .f32)
    (x7 : Ar Ideal S256 .f32) (x8 : Ar Ideal S256x16 .f32) (x9 : Ar Ideal S16 .f32) :
    refNet x0 x1 x2 x3 x4 x5 x6 x7 x8 x9
      = Cert.Mp.net (fun hr => aggR 0#32 hr (srcOf x1) (dstOf x1) x2) (fun hr => aggR 1#32 hr (srcOf x1) (dstOf x1) x2)
          (fun hr => aggR 2#32 hr (srcOf x1) (dstOf x1) x2) (fun hr => aggR 3#32 hr (srcOf x1) (dstOf x1) x2) (joinR (F := Ideal)) x0
          (WR 0 x3) (WR 1 x3) (WR 2 x3) (WR 3 x3) (RR 0 x4) (RR 1 x4) (RR 2 x4) (RR 3 x4)
          (bR 0 x5) (bR 1 x5) (bR 2 x5) (bR 3 x5) x6 (broadcastInDim S1x256 ![1] bcast_S256_S1x256_1 x7) x8
          (broadcastInDim S1x16 ![1] bcast_S16_S1x16_1 x9) := by
  simp only [refNet, Cert.Mp.net, layerR_eq, headR_eq]
end Laws2

/-! ## The weight pieces at an index -/

section Pieces

/-- Layer `k`'s relation weight reads block `k`, matrix `k` of the relation weights. -/
theorem WR_apply (k : Fin 4) (x3 : Ar F S4x5x256x256 .f32) (a b : Fin 256) :
    WR k x3 (ix2 a b) = x3 (ix4 k (⟨k.val, by omega⟩ : Fin 5) a b) := by
  unfold WR
  rw [shapeCast_apply _ shapeCasts_S1x256x256_S256x256 (ix2 a b) (ix3 (0 : Fin 1) a b)
    (by rw [Shape.rowMajor_val_three, Shape.rowMajor_val_two]
        show (0 * 256 + a.val) * 256 + b.val = a.val * 256 + b.val
        omega)]
  rw [extractStridedSlice_apply ![k.val, 0, 0] _ (slicesW' k) (ix3 (0 : Fin 1) a b) (ix3 (⟨k.val, by omega⟩ : Fin 5) a b)
    (fun i => match i with
      | ⟨0, _⟩ => by show k.val = k.val + 0; omega
      | ⟨1, _⟩ => by show a.val = 0 + a.val; omega
      | ⟨2, _⟩ => by show b.val = 0 + b.val; omega)]
  rw [shapeCast_apply _ shapeCasts_S1x5x256x256_S5x256x256 (ix3 (⟨k.val, by omega⟩ : Fin 5) a b)
    (ix4 (0 : Fin 1) (⟨k.val, by omega⟩ : Fin 5) a b)
    (by rw [Shape.rowMajor_val_four, Shape.rowMajor_val_three]
        show ((0 * 5 + k.val) * 256 + a.val) * 256 + b.val = (k.val * 256 + a.val) * 256 + b.val
        omega)]
  exact extractStridedSlice_apply ![k.val, 0, 0, 0] x3 (slicesW k) (ix4 (0 : Fin 1) (⟨k.val, by omega⟩ : Fin 5) a b)
    (ix4 k (⟨k.val, by omega⟩ : Fin 5) a b)
    (fun i => match i with
      | ⟨0, _⟩ => by show k.val = k.val + 0; omega
      | ⟨1, _⟩ => by show k.val = 0 + k.val; omega
      | ⟨2, _⟩ => by show a.val = 0 + a.val; omega
      | ⟨3, _⟩ => by show b.val = 0 + b.val; omega)

/-- Layer `k`'s root weight reads matrix `k` of the root weights. -/
theorem RR_apply (k : Fin 4) (x4 : Ar F S4x256x256 .f32) (a b : Fin 256) :
    RR k x4 (ix2 a b) = x4 (ix3 k a b) := by
  unfold RR
  rw [shapeCast_apply _ shapeCasts_S1x256x256_S256x256 (ix2 a b) (ix3 (0 : Fin 1) a b)
    (by rw [Shape.rowMajor_val_three, Shape.rowMajor_val_two]
        show (0 * 256 + a.val) * 256 + b.val = a.val * 256 + b.val
        omega)]
  exact extractStridedSlice_apply ![k.val, 0, 0] x4 (slicesR k) (ix3 (0 : Fin 1) a b) (ix3 k a b)
    (fun i => match i with
      | ⟨0, _⟩ => by show k.val = k.val + 0; omega
      | ⟨1, _⟩ => by show a.val = 0 + a.val; omega
      | ⟨2, _⟩ => by show b.val = 0 + b.val; omega)

/-- Layer `k`'s bias row reads row `k` of the biases. -/
theorem bR_apply (k : Fin 4) (x5 : Ar F S4x256 .f32) (j : Fin 256) :
    bR k x5 (ix2 (0 : Fin 1) j) = x5 (ix2 k j) := by
  unfold bR
  rw [Cert.LibHostRow.row_apply]
  rw [shapeCast_apply _ shapeCasts_S1x256_S256 (ix1 j) (ix2 (0 : Fin 1) j)
    (by rw [Shape.rowMajor_val_two, Shape.rowMajor_val_one]
        show 0 * 256 + j.val = j.val
        omega)]
  exact extractStridedSlice_apply ![k.val, 0] x5 (slicesB k) (ix2 (0 : Fin 1) j) (ix2 k j)
    (fun i => match i with
      | ⟨0, _⟩ => by show k.val = k.val + 0; omega
      | ⟨1, _⟩ => by show j.val = 0 + j.val; omega)

/-- The first perceptron bias as one row. -/
theorem c1_apply (x7 : Ar F S256 .f32) (j : Fin 256) :
    (broadcastInDim S1x256 ![1] bcast_S256_S1x256_1 x7 : Ar F S1x256 .f32) (ix2 (0 : Fin 1) j) = x7 (ix1 j) :=
  Cert.LibHostRow.row_apply x7 bcast_S256_S1x256_1 0 j

/-- The second perceptron bias as one row. -/
theorem c2_apply (x9 : Ar F S16 .f32) (j : Fin 16) :
    (broadcastInDim S1x16 ![1] bcast_S16_S1x16_1 x9 : Ar F S1x16 .f32) (ix2 (0 : Fin 1) j) = x9 (ix1 j) :=
  Cert.LibHostRow.row_apply x9 bcast_S16_S1x16_1 0 j
end Pieces

end Cert.ReferenceIdeal.Hand

end
-- ==== Proof.Bridge.lean ====
/-
  The two programs compute one network.

  The kernel program's result is the network on its own spelling of the aggregation, of the join and of the pieces of the
  weights; the reference's result is the network on the reference's spelling of the same things. The aggregation and the
  join are the same operations in both programs. The pieces of the weights are cut differently — the kernel program takes the
  256 × 256 block of relation k of layer k in one slice, the reference takes layer k's five relations first and relation k
  of those next; the kernel program turns a bias vector into a row by a reshape, the reference by a broadcast — but each piece
  reads the same entries of the argument, entry by entry. So the two results are equal as arrays of extended reals, for any
  arguments: no law of arithmetic is needed beyond the ones that made each side the network, and none that could fail at
  an infinity.
-/
import proofs.«125463_j19267223290692_1_alg».proof.Proof.KVal
import proofs.«125463_j19267223290692_1_alg».proof.Proof.RefNet

noncomputable section

namespace Cert.Proof

open Idealize.ShloMosaic Idealize.ShloMosaic.ValueIdx Idealize.SL.Sem
open Cert.MatProduct (eq_row_col)
open Cert.Mp

/-- Two arrays that agree at every (row, column) are equal. -/
theorem ext2 {R N : ℕ} (f g : Arr R N) (h : ∀ (a : Fin R) (b : Fin N), f (ix2 a b) = g (ix2 a b)) : f = g :=
  funext fun y => by rw [eq_row_col y]; exact h _ _

/-- Two one-row arrays that agree at every column are equal. -/
theorem ext1row {N : ℕ} (f g : Arr 1 N) (h : ∀ b : Fin N, f (ix2 (0 : Fin 1) b) = g (ix2 (0 : Fin 1) b)) : f = g :=
  ext2 f g fun a b => by obtain rfl : a = 0 := Subsingleton.elim _ _; exact h b

/-- The network of equal parts is equal. -/
theorem net_congr {A0 A0' : Arr 20000 256 → Arr 20000 256} {A1 A1' : Arr 20000 256 → Arr 20000 256} {A2 A2' : Arr 20000 256 → Arr 20000 256} {A3 A3' : Arr 20000 256 → Arr 20000 256} {J J' : Arr 20000 256 → Arr 20000 256 → Arr 20000 512} {x x' : Arr 20000 256} {W0 W0' : Arr 256 256} {W1 W1' : Arr 256 256} {W2 W2' : Arr 256 256} {W3 W3' : Arr 256 256} {R0 R0' : Arr 256 256} {R1 R1' : Arr 256 256} {R2 R2' : Arr 256 256} {R3 R3' : Arr 256 256} {b0 b0' : Arr 1 256} {b1 b1' : Arr 1 256} {b2 b2' : Arr 1 256} {b3 b3' : Arr 1 256} {w1 w1' : Arr 512 256} {c1 c1' : Arr 1 256} {w2 w2' : Arr 256 16} {c2 c2' : Arr 1 16}
    (hA0 : A0 = A0') (hA1 : A1 = A1') (hA2 : A2 = A2') (hA3 : A3 = A3') (hJ : J = J') (hx : x = x') (hW0 : W0 = W0') (hW1 : W1 = W1') (hW2 : W2 = W2') (hW3 : W3 = W3') (hR0 : R0 = R0') (hR1 : R1 = R1') (hR2 : R2 = R2') (hR3 : R3 = R3') (hb0 : b0 = b0') (hb1 : b1 = b1') (hb2 : b2 = b2') (hb3 : b3 = b3') (hw1 : w1 = w1') (hc1 : c1 = c1') (hw2 : w2 = w2') (hc2 : c2 = c2') :
    net A0 A1 A2 A3 J x W0 W1 W2 W3 R0 R1 R2 R3 b0 b1 b2 b3 w1 c1 w2 c2 = net A0' A1' A2' A3' J' x' W0' W1' W2' W3' R0' R1' R2' R3' b0' b1' b2' b3' w1' c1' w2' c2' := by
  subst hA0 hA1 hA2 hA3 hJ hx hW0 hW1 hW2 hW3 hR0 hR1 hR2 hR3 hb0 hb1 hb2 hb3 hw1 hc1 hw2 hc2
  rfl

section Pieces

variable (x0 : (⟨Cert.KernelIdeal.S20000x256, .f32⟩ : BufTy).Contents (Elt Ideal)) (x1 : (⟨Cert.KernelIdeal.S2x500000, .i32⟩ : BufTy).Contents (Elt Ideal)) (x2 : (⟨Cert.KernelIdeal.S500000, .i32⟩ : BufTy).Contents (Elt Ideal)) (x3 : (⟨Cert.KernelIdeal.S4x5x256x256, .f32⟩ : BufTy).Contents (Elt Ideal)) (x4 : (⟨Cert.KernelIdeal.S4x256x256, .f32⟩ : BufTy).Contents (Elt Ideal)) (x5 : (⟨Cert.KernelIdeal.S4x256, .f32⟩ : BufTy).Contents (Elt Ideal)) (x6 : (⟨Cert.KernelIdeal.S512x256, .f32⟩ : BufTy).Contents (Elt Ideal)) (x7 : (⟨Cert.KernelIdeal.S256, .f32⟩ : BufTy).Contents (Elt Ideal)) (x8 : (⟨Cert.KernelIdeal.S256x16, .f32⟩ : BufTy).Contents (Elt Ideal)) (x9 : (⟨Cert.KernelIdeal.S16, .f32⟩ : BufTy).Contents (Elt Ideal))

/-- The aggregation of relation `rel` is the same host operations in both programs. -/
theorem agg_same (rel : BitVec 32) :
    (fun hr => Cert.ReferenceIdeal.Hand.aggR (F := Ideal) rel hr (Cert.ReferenceIdeal.Hand.srcOf x1) (Cert.ReferenceIdeal.Hand.dstOf x1) x2) = (fun hr => Cert.KernelIdeal.Hand.aggK (F := Ideal) rel hr (Cert.KernelIdeal.Hand.srcK x1) (Cert.KernelIdeal.Hand.dstK x1) x2) := rfl

/-- So is laying two feature arrays side by side. -/
theorem join_same : Cert.ReferenceIdeal.Hand.joinR (F := Ideal) = Cert.KernelIdeal.Hand.joinK (F := Ideal) := rfl

/-- Relation 0's weight block of layer 0, cut in one slice or in two, reads the same entries. -/
theorem W0_same : Cert.ReferenceIdeal.Hand.WR (F := Ideal) 0 x3 = Cert.KernelIdeal.Hand.WK0 x3 :=
  ext2 _ _ fun a b => (Cert.ReferenceIdeal.Hand.WR_apply 0 x3 a b).trans (Cert.KernelIdeal.Hand.WK0_apply x3 a b).symm
/-- Layer 0's root weight block is the same slice in both programs. -/
theorem R0_same : Cert.ReferenceIdeal.Hand.RR (F := Ideal) 0 x4 = Cert.KernelIdeal.Hand.RK0 x4 :=
  ext2 _ _ fun a b => (Cert.ReferenceIdeal.Hand.RR_apply 0 x4 a b).trans (Cert.KernelIdeal.Hand.RK0_apply x4 a b).symm
/-- Layer 0's bias as one row, by a broadcast or by a reshape, reads the same entries. -/
theorem b0_same : Cert.ReferenceIdeal.Hand.bR (F := Ideal) 0 x5 = Cert.KernelIdeal.Hand.bK0 x5 :=
  ext1row _ _ fun j => (Cert.ReferenceIdeal.Hand.bR_apply 0 x5 j).trans (Cert.KernelIdeal.Hand.bK0_apply x5 j).symm
/-- Relation 1's weight block of layer 1, cut in one slice or in two, reads the same entries. -/
theorem W1_same : Cert.ReferenceIdeal.Hand.WR (F := Ideal) 1 x3 = Cert.KernelIdeal.Hand.WK1 x3 :=
  ext2 _ _ fun a b => (Cert.ReferenceIdeal.Hand.WR_apply 1 x3 a b).trans (Cert.KernelIdeal.Hand.WK1_apply x3 a b).symm
/-- Layer 1's root weight block is the same slice in both programs. -/
theorem R1_same : Cert.ReferenceIdeal.Hand.RR (F := Ideal) 1 x4 = Cert.KernelIdeal.Hand.RK1 x4 :=
  ext2 _ _ fun a b => (Cert.ReferenceIdeal.Hand.RR_apply 1 x4 a b).trans (Cert.KernelIdeal.Hand.RK1_apply x4 a b).symm
/-- Layer 1's bias as one row, by a broadcast or by a reshape, reads the same entries. -/
theorem b1_same : Cert.ReferenceIdeal.Hand.bR (F := Ideal) 1 x5 = Cert.KernelIdeal.Hand.bK1 x5 :=
  ext1row _ _ fun j => (Cert.ReferenceIdeal.Hand.bR_apply 1 x5 j).trans (Cert.KernelIdeal.Hand.bK1_apply x5 j).symm
/-- Relation 2's weight block of layer 2, cut in one slice or in two, reads the same entries. -/
theorem W2_same : Cert.ReferenceIdeal.Hand.WR (F := Ideal) 2 x3 = Cert.KernelIdeal.Hand.WK2 x3 :=
  ext2 _ _ fun a b => (Cert.ReferenceIdeal.Hand.WR_apply 2 x3 a b).trans (Cert.KernelIdeal.Hand.WK2_apply x3 a b).symm
/-- Layer 2's root weight block is the same slice in both programs. -/
theorem R2_same : Cert.ReferenceIdeal.Hand.RR (F := Ideal) 2 x4 = Cert.KernelIdeal.Hand.RK2 x4 :=
  ext2 _ _ fun a b => (Cert.ReferenceIdeal.Hand.RR_apply 2 x4 a b).trans (Cert.KernelIdeal.Hand.RK2_apply x4 a b).symm
/-- Layer 2's bias as one row, by a broadcast or by a reshape, reads the same entries. -/
theorem b2_same : Cert.ReferenceIdeal.Hand.bR (F := Ideal) 2 x5 = Cert.KernelIdeal.Hand.bK2 x5 :=
  ext1row _ _ fun j => (Cert.ReferenceIdeal.Hand.bR_apply 2 x5 j).trans (Cert.KernelIdeal.Hand.bK2_apply x5 j).symm
/-- Relation 3's weight block of layer 3, cut in one slice or in two, reads the same entries. -/
theorem W3_same : Cert.ReferenceIdeal.Hand.WR (F := Ideal) 3 x3 = Cert.KernelIdeal.Hand.WK3 x3 :=
  ext2 _ _ fun a b => (Cert.ReferenceIdeal.Hand.WR_apply 3 x3 a b).trans (Cert.KernelIdeal.Hand.WK3_apply x3 a b).symm
/-- Layer 3's root weight block is the same slice in both programs. -/
theorem R3_same : Cert.ReferenceIdeal.Hand.RR (F := Ideal) 3 x4 = Cert.KernelIdeal.Hand.RK3 x4 :=
  ext2 _ _ fun a b => (Cert.ReferenceIdeal.Hand.RR_apply 3 x4 a b).trans (Cert.KernelIdeal.Hand.RK3_apply x4 a b).symm
/-- Layer 3's bias as one row, by a broadcast or by a reshape, reads the same entries. -/
theorem b3_same : Cert.ReferenceIdeal.Hand.bR (F := Ideal) 3 x5 = Cert.KernelIdeal.Hand.bK3 x5 :=
  ext1row _ _ fun j => (Cert.ReferenceIdeal.Hand.bR_apply 3 x5 j).trans (Cert.KernelIdeal.Hand.bK3_apply x5 j).symm
/-- The perceptron's first bias as one row. -/
theorem c1_same : (broadcastInDim Cert.ReferenceIdeal.S1x256 ![1] Cert.ReferenceIdeal.Facts₀.bcast_S256_S1x256_1 x7 : Arr 1 256) = Cert.KernelIdeal.Hand.c1K x7 :=
  ext1row _ _ fun j => (Cert.ReferenceIdeal.Hand.c1_apply x7 j).trans (Cert.KernelIdeal.Hand.c1K_apply x7 j).symm
/-- The perceptron's second bias as one row. -/
theorem c2_same : (broadcastInDim Cert.ReferenceIdeal.S1x16 ![1] Cert.ReferenceIdeal.Facts₀.bcast_S16_S1x16_1 x9 : Arr 1 16) = Cert.KernelIdeal.Hand.c2K x9 :=
  ext1row _ _ fun j => (Cert.ReferenceIdeal.Hand.c2_apply x9 j).trans (Cert.KernelIdeal.Hand.c2K_apply x9 j).symm

/-- The reference's result, on the arguments, is the network in the kernel program's spelling. -/
theorem nets_agree :
    Cert.ReferenceIdeal.Hand.refNet (F := Ideal) x0 x1 x2 x3 x4 x5 x6 x7 x8 x9
      = net (fun hr => Cert.KernelIdeal.Hand.aggK (F := Ideal) 0#32 hr (Cert.KernelIdeal.Hand.srcK x1) (Cert.KernelIdeal.Hand.dstK x1) x2) (fun hr => Cert.KernelIdeal.Hand.aggK (F := Ideal) 1#32 hr (Cert.KernelIdeal.Hand.srcK x1) (Cert.KernelIdeal.Hand.dstK x1) x2)
          (fun hr => Cert.KernelIdeal.Hand.aggK (F := Ideal) 2#32 hr (Cert.KernelIdeal.Hand.srcK x1) (Cert.KernelIdeal.Hand.dstK x1) x2) (fun hr => Cert.KernelIdeal.Hand.aggK (F := Ideal) 3#32 hr (Cert.KernelIdeal.Hand.srcK x1) (Cert.KernelIdeal.Hand.dstK x1) x2)
          (Cert.KernelIdeal.Hand.joinK (F := Ideal)) x0 (Cert.KernelIdeal.Hand.WK0 x3) (Cert.KernelIdeal.Hand.WK1 x3) (Cert.KernelIdeal.Hand.WK2 x3) (Cert.KernelIdeal.Hand.WK3 x3) (Cert.KernelIdeal.Hand.RK0 x4) (Cert.KernelIdeal.Hand.RK1 x4) (Cert.KernelIdeal.Hand.RK2 x4) (Cert.KernelIdeal.Hand.RK3 x4)
          (Cert.KernelIdeal.Hand.bK0 x5) (Cert.KernelIdeal.Hand.bK1 x5) (Cert.KernelIdeal.Hand.bK2 x5) (Cert.KernelIdeal.Hand.bK3 x5) x6 (Cert.KernelIdeal.Hand.c1K x7) x8 (Cert.KernelIdeal.Hand.c2K x9) :=
  (Cert.ReferenceIdeal.Hand.refNet_eq x0 x1 x2 x3 x4 x5 x6 x7 x8 x9).trans
    (net_congr (agg_same x1 x2 0#32) (agg_same x1 x2 1#32) (agg_same x1 x2 2#32) (agg_same x1 x2 3#32) join_same rfl
      (W0_same x3) (W1_same x3) (W2_same x3) (W3_same x3) (R0_same x4) (R1_same x4) (R2_same x4) (R3_same x4)
      (b0_same x5) (b1_same x5) (b2_same x5) (b3_same x5) rfl (c1_same x7) rfl (c2_same x9))

end Pieces

end Cert.Proof

end
-- ==== Proof.lean ====
/-
  The certificate: a relational graph network computed by nine kernel launches among host operations equals its reference on
  the extended reals.

  The three programs run (terminate, nothing faulting, arguments unchanged): the two kernel programs by the launch-by-launch
  frame, the reference by the fold of its straight line of host operations. Nothing was rewritten between the kernel program
  and its idealization. And at the extended reals both idealized programs end with one array: the kernel program's nine
  launches each leave a row-wise function of whole arrays (the ten blocks of two thousand rows tile the twenty thousand), the
  host operations between them are the reference's own, and the differently cut pieces of the weights read the same entries;
  so both results are the one network function of the ten arguments.
-/
import proofs.«125463_j19267223290692_1_alg».proof.Defs
import proofs.«125463_j19267223290692_1_alg».proof.Proof.Gen.Kernel
import proofs.«125463_j19267223290692_1_alg».proof.Proof.Gen.Kernel.Skeleton
import proofs.«125463_j19267223290692_1_alg».proof.Proof.Gen.Kernel.Launch
import proofs.«125463_j19267223290692_1_alg».proof.Proof.Gen.Kernel.Points
import proofs.«125463_j19267223290692_1_alg».proof.Proof.Gen.Kernel.Frame
import proofs.«125463_j19267223290692_1_alg».proof.Proof.Gen.KernelIdeal
import proofs.«125463_j19267223290692_1_alg».proof.Proof.Gen.KernelIdeal.Skeleton
import proofs.«125463_j19267223290692_1_alg».proof.Proof.Gen.KernelIdeal.Launch
import proofs.«125463_j19267223290692_1_alg».proof.Proof.Gen.KernelIdeal.Points
import proofs.«125463_j19267223290692_1_alg».proof.Proof.Gen.KernelIdeal.Frame
import proofs.«125463_j19267223290692_1_alg».proof.Proof.Gen.ReferenceIdeal
import proofs.«125463_j19267223290692_1_alg».proof.Proof.Gen.Pre_finite_inputs
import proofs.«125463_j19267223290692_1_alg».proof.Proof.Bridge
import Idealize.ShloMosaic.Adequacy
import Idealize.ShloMosaic.Init

noncomputable section

namespace Cert.Proof

open Idealize.ShloMosaic Idealize.SL.Sem

/-- Both idealized programs, from memories that agree on the arguments, end with the network's log-probabilities. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.kOut m c, Cert.KernelIdeal.Hand.run_net m ρ, ?_⟩
  refine (θ_run Cert.ReferenceIdeal.defs _ _).mono (fun r h c => ⟨(h c).1.trans ?_, (h c).2⟩)
    (Cert.ReferenceIdeal.Hand.ref_run (F := Ideal) m' ρ')
  obtain ⟨e0, e1, e2, e3, e4, e5, e6, e7, e8, e9⟩ := hagree c
  rw [e0, e1, e2, e3, e4, e5, e6, e7, e8, e9]
  exact (nets_agree _ _ _ _ _ _ _ _ _ _).trans (Cert.KernelIdeal.Hand.kOut_eq_net m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.ref_run (F := Ideal) m ρ),
  trivial,
  algebraic⟩

end Cert.Proof

end
